-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S2x128x128 : Shape := ⟨3, ![2, 128, 128]⟩
abbrev S2x128 : Shape := ⟨2, ![2, 128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S128x40 .f32) (main_arg9 : FVec F S128x40 .f32) (main_arg10 : FVec F S40 .f32) (main_v33 : IVec S_ 1) : IVec S_ 1 :=
  let main_v34 : FVec F S128x40 .f32 := Host.absf main_arg8
  let main_cst_12 : FVec F S_ .f32 := constant S_ .f32 0x7F800000#32
  let main_v35 : FVec F S128x40 .f32 := broadcastInDim S128x40 ![] bcast_S_S128x40 main_cst_12
  let main_v36 : IVec S128x40 1 := cmpf .olt main_v34 main_v35
  let main_c_13 : IVec S_ 1 := constantI S_ 1 1#1
  let main_v37 : IVec S_ 1 := (fun x v => Host.reduce IntOp.andi x v reducesTo_S128x40_S_d0_1 h_S_) main_v36 main_c_13
  let main_v38 : IVec S_ 1 := andi main_v33 main_v37
  let main_v39 : FVec F S128x40 .f32 := Host.absf main_arg9
  let main_cst_14 : FVec F S_ .f32 := constant S_ .f32 0x7F800000#32
  let main_v40 : FVec F S128x40 .f32 := broadcastInDim S128x40 ![] bcast_S_S128x40 main_cst_14
  let main_v41 : IVec S128x40 1 := cmpf .olt main_v39 main_v40
  let main_c_15 : IVec S_ 1 := constantI S_ 1 1#1
  let main_v42 : IVec S_ 1 := (fun x v => Host.reduce IntOp.andi x v reducesTo_S128x40_S_d0_1 h_S_) main_v41 main_c_15
  let main_v43 : IVec S_ 1 := andi main_v38 main_v42
  let main_v44 : FVec F S40 .f32 := Host.absf main_arg10
  let main_cst_16 : FVec F S_ .f32 := constant S_ .f32 0x7F800000#32
  let main_v45 : FVec F S40 .f32 := broadcastInDim S40 ![] bcast_S_S40 main_cst_16
  let main_v46 : IVec S40 1 := cmpf .olt main_v44 main_v45
  let main_c_17 : IVec S_ 1 := constantI S_ 1 1#1
  let main_v47 : IVec S_ 1 := (fun x v => Host.reduce IntOp.andi x v reducesTo_S40_S_d0 h_S_) main_v46 main_c_17
  let main_v48 : IVec S_ 1 := andi main_v43 main_v47
  main_v48

def fn_part1 {F : FTy → Type} [FloatOps F] (main_arg5 : FVec F S2x128x128 .f32) (main_arg6 : FVec F S2x128x128 .f32) (main_arg7 : FVec F S2x128 .f32) (main_arg8 : FVec F S128x40 .f32) (main_arg9 : FVec F S128x40 .f32) (main_arg10 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S2x128x128 .f32 := Host.absf main_arg5
  let main_cst_6 : FVec F S_ .f32 := constant S_ .f32 0x7F800000#32
  let main_v20 : FVec F S2x128x128 .f32 := broadcastInDim S2x128x128 ![] bcast_S_S2x128x128 main_cst_6
  let main_v21 : IVec S2x128x128 1 := cmpf .olt main_v19 main_v20
  let main_c_7 : IVec S_ 1 := constantI S_ 1 1#1
  let main_v22 : IVec S_ 1 := (fun x v => Host.reduce IntOp.andi x v reducesTo_S2x128x128_S_d0_1_2 h_S_) main_v21 main_c_7
  let main_v23 : IVec S_ 1 := andi main_v18 main_v22
  let main_v24 : FVec F S2x128x128 .f32 := Host.absf main_arg6
  let main_cst_8 : FVec F S_ .f32 := constant S_ .f32 0x7F800000#32
  let main_v25 : FVec F S2x128x128 .f32 := broadcastInDim S2x128x128 ![] bcast_S_S2x128x128 main_cst_8
  let main_v26 : IVec S2x128x128 1 := cmpf .olt main_v24 main_v25
  let main_c_9 : IVec S_ 1 := constantI S_ 1 1#1
  let main_v27 : IVec S_ 1 := (fun x v => Host.reduce IntOp.andi x v reducesTo_S2x128x128_S_d0_1_2 h_S_) main_v26 main_c_9
  let main_v28 : IVec S_ 1 := andi main_v23 main_v27
  let main_v29 : FVec F S2x128 .f32 := Host.absf main_arg7
  let main_cst_10 : FVec F S_ .f32 := constant S_ .f32 0x7F800000#32
  let main_v30 : FVec F S2x128 .f32 := broadcastInDim S2x128 ![] bcast_S_S2x128 main_cst_10
  let main_v31 : IVec S2x128 1 := cmpf .olt main_v29 main_v30
  let main_c_11 : IVec S_ 1 := constantI S_ 1 1#1
  let main_v32 : IVec S_ 1 := (fun x v => Host.reduce IntOp.andi x v reducesTo_S2x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x600000 32) (main_arg2 : FVec F S128x128 .f32) (main_arg3 : FVec F S128x128 .f32) (main_arg4 : FVec F S128 .f32) (main_arg5 : FVec F S2x128x128 .f32) (main_arg6 : FVec F S2x128x128 .f32) (main_arg7 : FVec F S2x128 .f32) (main_arg8 : FVec F S128x40 .f32) (main_arg9 : FVec F S128x40 .f32) (main_arg10 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S2x128x128 : Shape := ⟨3, ![2, 128, 128]⟩
abbrev S2x128 : Shape := ⟨2, ![2, 128]⟩
abbrev S128x40 : Shape := ⟨2, ![128, 40]⟩
abbrev S40 : Shape := ⟨1, ![40]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x128 : Shape := ⟨2, ![1, 128]⟩
abbrev S5000x128 : Shape := ⟨2, ![5000, 128]⟩
abbrev S1x128x128 : Shape := ⟨3, ![1, 128, 128]⟩
abbrev S1x40 : Shape := ⟨2, ![1, 40]⟩
abbrev S50000x40 : Shape := ⟨2, ![50000, 40]⟩
abbrev S5000x40 : Shape := ⟨2, ![5000, 40]⟩
abbrev S5000 : Shape := ⟨1, ![5000]⟩
abbrev S5000x1 : Shape := ⟨2, ![5000, 1]⟩

abbrev nBuf : Space → Nat
  | .hbm => 108
  | .vmem => 36
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S2x128x128, .f32⟩
  | .hbm, ⟨6, _⟩ => ⟨S2x128x128, .f32⟩
  | .hbm, ⟨7, _⟩ => ⟨S2x128, .f32⟩
  | .hbm, ⟨8, _⟩ => ⟨S128x40, .f32⟩
  | .hbm, ⟨9, _⟩ => ⟨S128x40, .f32⟩
  | .hbm, ⟨10, _⟩ => ⟨S40, .f32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S_, .f32⟩
  | .hbm, ⟨16, _⟩ => ⟨S600000, .f32⟩
  | .hbm, ⟨17, _⟩ => ⟨S_, .f32⟩
  | .hbm, ⟨18, _⟩ => ⟨S50000, .f32⟩
  | .hbm, ⟨19, _⟩ => ⟨S600000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S_, .i32⟩
  | .hbm, ⟨29, _⟩ => ⟨S600000, .i32⟩
  | .hbm, ⟨30, _⟩ => ⟨S600000, .i1⟩
  | .hbm, ⟨31, _⟩ => ⟨S_, .i32⟩
  | .hbm, ⟨32, _⟩ => ⟨S600000, .i32⟩
  | .hbm, ⟨33, _⟩ => ⟨S600000, .i32⟩
  | .hbm, ⟨34, _⟩ => ⟨S600000, .i32⟩
  | .hbm, ⟨35, _⟩ => ⟨S600000x1, .i32⟩
  | .hbm, ⟨36, _⟩ => ⟨S600000x128, .f32⟩
  | .hbm, ⟨37, _⟩ => ⟨S_, .f32⟩
  | .hbm, ⟨38, _⟩ => ⟨S50000x128, .f32⟩
  | .hbm, ⟨39, _⟩ => ⟨S600000x1, .i32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S1x128, .f32⟩
  | .hbm, ⟨44, _⟩ => ⟨S50000x128, .f32⟩
  | .hbm, ⟨45, _⟩ => ⟨S_, .i32⟩
  | .hbm, ⟨46, _⟩ => ⟨S600000, .i32⟩
  | .hbm, ⟨47, _⟩ => ⟨S600000, .i1⟩
  | .hbm, ⟨48, _⟩ => ⟨S_, .i32⟩
  | .hbm, ⟨49, _⟩ => ⟨S600000, .i32⟩
  | .hbm, ⟨50, _⟩ => ⟨S600000, .i32⟩
  | .hbm, ⟨51, _⟩ => ⟨S600000, .i32⟩
  | .hbm, ⟨52, _⟩ => ⟨S600000x1, .i32⟩
  | .hbm, ⟨53, _⟩ => ⟨S600000x128, .f32⟩
  | .hbm, ⟨54, _⟩ => ⟨S_, .f32⟩
  | .hbm, ⟨55, _⟩ => ⟨S50000x128, .f32⟩
  | .hbm, ⟨56, _⟩ => ⟨S600000x1, .i32⟩
  | .hbm, ⟨57, _⟩ => ⟨S50000x128, .f32⟩
  | .hbm, ⟨58, _⟩ => ⟨S50000x128, .f32⟩
  | .hbm, ⟨59, _⟩ => ⟨S50000x128, .f32⟩
  | .hbm, ⟨60, _⟩ => ⟨S1x128x128, .f32⟩
  | .hbm, ⟨61, _⟩ => ⟨S128x128, .f32⟩
  | .hbm, ⟨62, _⟩ => ⟨S1x128x128, .f32⟩
  | .hbm, ⟨63, _⟩ => ⟨S128x128, .f32⟩
  | .hbm, ⟨64, _⟩ => ⟨S1x128, .f32⟩
  | .hbm, ⟨65, _⟩ => ⟨S128, .f32⟩
  | .hbm, ⟨66, _⟩ => ⟨S1x128, .f32⟩
  | .hbm, ⟨67, _⟩ => ⟨S50000x128, .f32⟩
  | .hbm, ⟨68, _⟩ => ⟨S_, .i32⟩
  | .hbm, ⟨69, _⟩ => ⟨S600000, .i32⟩
  | .hbm, ⟨70, _⟩ => ⟨S600000, .i1⟩
  | .hbm, ⟨71, _⟩ => ⟨S_, .i32⟩
  | .hbm, ⟨72, _⟩ => ⟨S600000, .i32⟩
  | .hbm, ⟨73, _⟩ => ⟨S600000, .i32⟩
  | .hbm, ⟨74, _⟩ => ⟨S600000, .i32⟩
  | .hbm, ⟨75, _⟩ => ⟨S600000x1, .i32⟩
  | .hbm, ⟨76, _⟩ => ⟨S600000x128, .f32⟩
  | .hbm, ⟨77, _⟩ => ⟨S_, .f32⟩
  | .hbm, ⟨78, _⟩ => ⟨S50000x128, .f32⟩
  | .hbm, ⟨79, _⟩ => ⟨S600000x1, .i32⟩
  | .hbm, ⟨80, _⟩ => ⟨S50000x128, .f32⟩
  | .hbm, ⟨81, _⟩ => ⟨S50000x128, .f32⟩
  | .hbm, ⟨82, _⟩ => ⟨S50000x128, .f32⟩
  | .hbm, ⟨83, _⟩ => ⟨S1x128x128, .f32⟩
  | .hbm, ⟨84, _⟩ => ⟨S128x128, .f32⟩
  | .hbm, ⟨85, _⟩ => ⟨S1x128x128, .f32⟩
  | .hbm, ⟨86, _⟩ => ⟨S128x128, .f32⟩
  | .hbm, ⟨87, _⟩ => ⟨S1x128, .f32⟩
  | .hbm, ⟨88, _⟩ => ⟨S128, .f32⟩
  | .hbm, ⟨89, _⟩ => ⟨S1x128, .f32⟩
  | .hbm, ⟨90, _⟩ => ⟨S50000x128, .f32⟩
  | .hbm, ⟨91, _⟩ => ⟨S_, .i32⟩
  | .hbm, ⟨92, _⟩ => ⟨S600000, .i32⟩
  | .hbm, ⟨93, _⟩ => ⟨S600000, .i1⟩
  | .hbm, ⟨94, _⟩ => ⟨S_, .i32⟩
  | .hbm, ⟨95, _⟩ => ⟨S600000, .i32⟩
  | .hbm, ⟨96, _⟩ => ⟨S600000, .i32⟩
  | .hbm, ⟨97, _⟩ => ⟨S600000, .i32⟩
  | .hbm, ⟨98, _⟩ => ⟨S600000x1, .i32⟩
  | .hbm, ⟨99, _⟩ => ⟨S600000x128, .f32⟩
  | .hbm, ⟨100, _⟩ => ⟨S_, .f32⟩
  | .hbm, ⟨101, _⟩ => ⟨S50000x128, .f32⟩
  | .hbm, ⟨102, _⟩ => ⟨S600000x1, .i32⟩
  | .hbm, ⟨103, _⟩ => ⟨S50000x128, .f32⟩
  | .hbm, ⟨104, _⟩ => ⟨S50000x128, .f32⟩
  | .hbm, ⟨105, _⟩ => ⟨S50000x128, .f32⟩
  | .hbm, ⟨106, _⟩ => ⟨S1x40, .f32⟩
  | .hbm, ⟨107, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S128x40, .f32⟩
  | .local _ .vmem, ⟨32, _⟩ => ⟨S128x40, .f32⟩
  | .local _ .vmem, ⟨33, _⟩ => ⟨S1x40, .f32⟩
  | .local _ .vmem, ⟨34, _⟩ => ⟨S5000x40, .f32⟩
  | .local _ .vmem, ⟨35, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_8 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_c_11 : Ref sig .tc := ⟨.hbm, 91, rfl⟩
abbrev main_v67 : Ref sig .tc := ⟨.hbm, 92, rfl⟩
abbrev main_v68 : Ref sig .tc := ⟨.hbm, 93, rfl⟩
abbrev main_c_12 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_13 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x40 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x40 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x40 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x40 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  shapeCasts_S128x128_S128x128 : S128x128.ShapeCasts S128x128
  slices_S2x128x128_S1x128x128_1_0_0 : S2x128x128.Slices ![1, 0, 0] S1x128x128
  slices_S2x128_S1x128_1_0 : S2x128.Slices ![1, 0] S1x128
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x40.size a ≤ S128x40.size a
  hwx3_2 : ∀ i : grid3.Coords, EltTy.bits .f32 = 32 ∨ (Rect.block (s := S128x40) S128x40.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x40.size a ≤ S128x40.size a
  hwx3_3 : ∀ i : grid3.Coords, EltTy.bits .f32 = 32 ∨ (Rect.block (s := S128x40) S128x40.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x40.size a ≤ S1x40.size a
  hwx3_4 : ∀ i : grid3.Coords, EltTy.bits .f32 = 32 ∨ (Rect.block (s := S1x40) S1x40.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x40.size a ≤ S50000x40.size a
  hwx3_5 : ∀ i : grid3.Coords, EltTy.bits .f32 = 32 ∨ (Rect.block (s := S50000x40) S5000x40.size (cc3_transform_5 i) (hinb3_5 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v46) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v58) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v60) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v62) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v65) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v66) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v78) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v66) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S128x40.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S128x40.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v79) S1x40.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v80) S5000x40.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S2x128x128 : Shape := ⟨3, ![2, 128, 128]⟩
abbrev S2x128 : Shape := ⟨2, ![2, 128]⟩
abbrev S128x40 : Shape := ⟨2, ![128, 40]⟩
abbrev S40 : Shape := ⟨1, ![40]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x128 : Shape := ⟨2, ![1, 128]⟩
abbrev S1x128x128 : Shape := ⟨3, ![1, 128, 128]⟩
abbrev S50000x40 : Shape := ⟨2, ![50000, 40]⟩
abbrev S1x40 : Shape := ⟨2, ![1, 40]⟩

abbrev nBuf : Space → Nat
  | .hbm => 163
  | .vmem => 0
  | .smem => 0
  | _ => 0

abbrev hbmTy0_0 (i : Nat) : BufTy := match i % 128 with
  | 0 => ⟨S50000x128, .f32⟩
  | 1 => ⟨S2x600000, .i32⟩
  | 2 => ⟨S128x128, .f32⟩
  | 3 => ⟨S128x128, .f32⟩
  | 4 => ⟨S128, .f32⟩
  | 5 => ⟨S2x128x128, .f32⟩
  | 6 => ⟨S2x128x128, .f32⟩
  | 7 => ⟨S2x128, .f32⟩
  | 8 => ⟨S128x40, .f32⟩
  | 9 => ⟨S128x40, .f32⟩
  | 10 => ⟨S40, .f32⟩
  | 11 => ⟨S1x600000, .i32⟩
  | 12 => ⟨S600000, .i32⟩
  | 13 => ⟨S1x600000, .i32⟩
  | 14 => ⟨S600000, .i32⟩
  | 15 => ⟨S_, .f32⟩
  | 16 => ⟨S600000, .f32⟩
  | 17 => ⟨S_, .f32⟩
  | 18 => ⟨S50000, .f32⟩
  | 19 => ⟨S600000x1, .i32⟩
  | 20 => ⟨S50000, .f32⟩
  | 21 => ⟨S_, .f32⟩
  | 22 => ⟨S50000, .f32⟩
  | 23 => ⟨S50000, .f32⟩
  | 24 => ⟨S_, .f32⟩
  | 25 => ⟨S50000, .f32⟩
  | 26 => ⟨S50000, .f32⟩
  | 27 => ⟨S50000x1, .f32⟩
  | 28 => ⟨S_, .i32⟩
  | 29 => ⟨S600000, .i32⟩
  | 30 => ⟨S600000, .i1⟩
  | 31 => ⟨S_, .i32⟩
  | 32 => ⟨S600000, .i32⟩
  | 33 => ⟨S600000, .i32⟩
  | 34 => ⟨S600000, .i32⟩
  | 35 => ⟨S600000x1, .i32⟩
  | 36 => ⟨S600000x128, .f32⟩
  | 37 => ⟨S_, .f32⟩
  | 38 => ⟨S50000x128, .f32⟩
  | 39 => ⟨S600000x1, .i32⟩
  | 40 => ⟨S50000x128, .f32⟩
  | 41 => ⟨S50000x128, .f32⟩
  | 42 => ⟨S50000x128, .f32⟩
  | 43 => ⟨S50000x128, .f32⟩
  | 44 => ⟨S50000x128, .f32⟩
  | 45 => ⟨S50000x128, .f32⟩
  | 46 => ⟨S1x128, .f32⟩
  | 47 => ⟨S50000x128, .f32⟩
  | 48 => ⟨S50000x128, .f32⟩
  | 49 => ⟨S_, .f32⟩
  | 50 => ⟨S_, .f32⟩
  | 51 => ⟨S50000x128, .f32⟩
  | 52 => ⟨S50000x128, .i1⟩
  | 53 => ⟨S_, .f32⟩
  | 54 => ⟨S50000x128, .f32⟩
  | 55 => ⟨S50000x128, .f32⟩
  | 56 => ⟨S50000x128, .f32⟩
  | 57 => ⟨S1x128x128, .f32⟩
  | 58 => ⟨S128x128, .f32⟩
  | 59 => ⟨S1x128x128, .f32⟩
  | 60 => ⟨S128x128, .f32⟩
  | 61 => ⟨S1x128, .f32⟩
  | 62 => ⟨S128, .f32⟩
  | 63 => ⟨S_, .i32⟩
  | 64 => ⟨S600000, .i32⟩
  | 65 => ⟨S600000, .i1⟩
  | 66 => ⟨S_, .i32⟩
  | 67 => ⟨S600000, .i32⟩
  | 68 => ⟨S600000, .i32⟩
  | 69 => ⟨S600000, .i32⟩
  | 70 => ⟨S600000x1, .i32⟩
  | 71 => ⟨S600000x128, .f32⟩
  | 72 => ⟨S_, .f32⟩
  | 73 => ⟨S50000x128, .f32⟩
  | 74 => ⟨S600000x1, .i32⟩
  | 75 => ⟨S50000x128, .f32⟩
  | 76 => ⟨S50000x128, .f32⟩
  | 77 => ⟨S50000x128, .f32⟩
  | 78 => ⟨S50000x128, .f32⟩
  | 79 => ⟨S50000x128, .f32⟩
  | 80 => ⟨S50000x128, .f32⟩
  | 81 => ⟨S1x128, .f32⟩
  | 82 => ⟨S50000x128, .f32⟩
  | 83 => ⟨S50000x128, .f32⟩
  | 84 => ⟨S_, .f32⟩
  | 85 => ⟨S_, .f32⟩
  | 86 => ⟨S50000x128, .f32⟩
  | 87 => ⟨S50000x128, .i1⟩
  | 88 => ⟨S_, .f32⟩
  | 89 => ⟨S50000x128, .f32⟩
  | 90 => ⟨S50000x128, .f32⟩
  | 91 => ⟨S50000x128, .f32⟩
  | 92 => ⟨S1x128x128, .f32⟩
  | 93 => ⟨S128x128, .f32⟩
  | 94 => ⟨S1x128x128, .f32⟩
  | 95 => ⟨S128x128, .f32⟩
  | 96 => ⟨S1x128, .f32⟩
  | 97 => ⟨S128, .f32⟩
  | 98 => ⟨S_, .i32⟩
  | 99 => ⟨S600000, .i32⟩
  | 100 => ⟨S600000, .i1⟩
  | 101 => ⟨S_, .i32⟩
  | 102 => ⟨S600000, .i32⟩
  | 103 => ⟨S600000, .i32⟩
  | 104 => ⟨S600000, .i32⟩
  | 105 => ⟨S600000x1, .i32⟩
  | 106 => ⟨S600000x128, .f32⟩
  | 107 => ⟨S_, .f32⟩
  | 108 => ⟨S50000x128, .f32⟩
  | 109 => ⟨S600000x1, .i32⟩
  | 110 => ⟨S50000x128, .f32⟩
  | 111 => ⟨S50000x128, .f32⟩
  | 112 => ⟨S50000x128, .f32⟩
  | 113 => ⟨S50000x128, .f32⟩
  | 114 => ⟨S50000x128, .f32⟩
  | 115 => ⟨S50000x128, .f32⟩
  | 116 => ⟨S1x128, .f32⟩
  | 117 => ⟨S50000x128, .f32⟩
  | 118 => ⟨S50000x128, .f32⟩
  | 119 => ⟨S_, .f32⟩
  | 120 => ⟨S_, .f32⟩
  | 121 => ⟨S50000x128, .f32⟩
  | 122 => ⟨S50000x128, .i1⟩
  | 123 => ⟨S_, .f32⟩
  | 124 => ⟨S50000x128, .f32⟩
  | 125 => ⟨S50000x128, .f32⟩
  | 126 => ⟨S50000x128, .f32⟩
  | 127 => ⟨S_, .i32⟩
  | _ => ⟨S50000x128, .f32⟩

abbrev hbmTy0_1 (i : Nat) : BufTy := match i % 128 with
  | 0 => ⟨S600000, .i32⟩
  | 1 => ⟨S600000, .i1⟩
  | 2 => ⟨S_, .i32⟩
  | 3 => ⟨S600000, .i32⟩
  | 4 => ⟨S600000, .i32⟩
  | 5 => ⟨S600000, .i32⟩
  | 6 => ⟨S600000x1, .i32⟩
  | 7 => ⟨S600000x128, .f32⟩
  | 8 => ⟨S_, .f32⟩
  | 9 => ⟨S50000x128, .f32⟩
  | 10 => ⟨S600000x1, .i32⟩
  | 11 => ⟨S50000x128, .f32⟩
  | 12 => ⟨S50000x128, .f32⟩
  | 13 => ⟨S50000x128, .f32⟩
  | 14 => ⟨S50000x40, .f32⟩
  | 15 => ⟨S50000x40, .f32⟩
  | 16 => ⟨S50000x40, .f32⟩
  | 17 => ⟨S1x40, .f32⟩
  | 18 => ⟨S50000x40, .f32⟩
  | 19 => ⟨S50000x40, .f32⟩
  | 20 => ⟨S_, .f32⟩
  | 21 => ⟨S50000, .f32⟩
  | 22 => ⟨S_, .f32⟩
  | 23 => ⟨S50000, .f32⟩
  | 24 => ⟨S50000, .f32⟩
  | 25 => ⟨S50000x1, .f32⟩
  | 26 => ⟨S50000x40, .f32⟩
  | 27 => ⟨S50000x40, .f32⟩
  | 28 => ⟨S50000x40, .f32⟩
  | 29 => ⟨S_, .f32⟩
  | 30 => ⟨S50000, .f32⟩
  | 31 => ⟨S50000x1, .f32⟩
  | 32 => ⟨S50000x1, .f32⟩
  | 33 => ⟨S50000x40, .f32⟩
  | 34 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_5 : Ref sig .tc := ⟨.hbm, 49, rfl⟩
abbrev main_call0_cst : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_6 : Ref sig .tc := ⟨.hbm, 63, rfl⟩
abbrev main_v38 : Ref sig .tc := ⟨.hbm, 64, rfl⟩
abbrev main_v39 : Ref sig .tc := ⟨.hbm, 65, rfl⟩
abbrev main_c_7 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_8 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_9 : Ref sig .tc := ⟨.hbm, 84, rfl⟩
abbrev main_call1_cst : Ref sig .tc := ⟨.hbm, 85, rfl⟩
abbrev main_call1_v0 : Ref sig .tc := ⟨.hbm, 86, rfl⟩
abbrev main_call1_v1 : Ref sig .tc := ⟨.hbm, 87, rfl⟩
abbrev main_call1_v2 : Ref sig .tc := ⟨.hbm, 88, rfl⟩
abbrev main_call1_v3 : Ref sig .tc := ⟨.hbm, 89, rfl⟩
abbrev main_call1_v4 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_c_10 : Ref sig .tc := ⟨.hbm, 98, rfl⟩
abbrev main_v63 : Ref sig .tc := ⟨.hbm, 99, rfl⟩
abbrev main_v64 : Ref sig .tc := ⟨.hbm, 100, rfl⟩
abbrev main_c_11 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_cst_12 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_cst_13 : Ref sig .tc := ⟨.hbm, 119, rfl⟩
abbrev main_call2_cst : Ref sig .tc := ⟨.hbm, 120, rfl⟩
abbrev main_call2_v0 : Ref sig .tc := ⟨.hbm, 121, rfl⟩
abbrev main_call2_v1 : Ref sig .tc := ⟨.hbm, 122, rfl⟩
abbrev main_call2_v2 : Ref sig .tc := ⟨.hbm, 123, rfl⟩
abbrev main_call2_v3 : Ref sig .tc := ⟨.hbm, 124, rfl⟩
abbrev main_call2_v4 : Ref sig .tc := ⟨.hbm, 125, rfl⟩
abbrev main_v81 : Ref sig .tc := ⟨.hbm, 126, rfl⟩
abbrev main_c_14 : Ref sig .tc := ⟨.hbm, 127, rfl⟩
abbrev main_v82 : Ref sig .tc := ⟨.hbm, 128, rfl⟩
abbrev main_v83 : Ref sig .tc := ⟨.hbm, 129, rfl⟩
abbrev main_c_15 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_cst_16 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_call3_cst : Ref sig .tc := ⟨.hbm, 148, rfl⟩
abbrev main_call3_v0 : Ref sig .tc := ⟨.hbm, 149, rfl⟩
abbrev main_call3_cst_0 : Ref sig .tc := ⟨.hbm, 150, rfl⟩
abbrev main_call3_v1 : Ref sig .tc := ⟨.hbm, 151, rfl⟩
abbrev main_call3_v2 : Ref sig .tc := ⟨.hbm, 152, rfl⟩
abbrev main_call3_v3 : Ref sig .tc := ⟨.hbm, 153, rfl⟩
abbrev main_call3_v4 : Ref sig .tc := ⟨.hbm, 154, rfl⟩
abbrev main_call3_v5 : Ref sig .tc := ⟨.hbm, 155, rfl⟩
abbrev main_call3_v6 : Ref sig .tc := ⟨.hbm, 156, rfl⟩
abbrev main_call3_cst_1 : Ref sig .tc := ⟨.hbm, 157, rfl⟩
abbrev main_call3_v7 : Ref sig .tc := ⟨.hbm, 158, rfl⟩
abbrev main_call3_v8 : Ref sig .tc := ⟨.hbm, 159, rfl⟩
abbrev main_call3_v9 : Ref sig .tc := ⟨.hbm, 160, rfl⟩
abbrev main_call3_v10 : Ref sig .tc := ⟨.hbm, 161, rfl⟩
abbrev main_v100 : Ref sig .tc := ⟨.hbm, 162, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  slices_S2x128x128_S1x128x128_1_0_0 : S2x128x128.Slices ![1, 0, 0] S1x128x128
  slices_S2x128_S1x128_1_0 : S2x128.Slices ![1, 0] S1x128
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000x1_S50000x40_0_1 : S50000x1.BroadcastsInDim S50000x40 (![0, 1] : Fin 2 → Fin S50000x40.rank)
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  dot_S50000x128_S128x40_S50000x40_1_0_0_1_n_n_wf : DotDims.WF S50000x128 S128x40 S50000x40 [1] [0] [0] [1] [] []

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.KernelRun.lean ====
/-
  The idealized kernel program's run with its result named.  Every weakly fair execution of @main — four
  pipelined regions among stretches of host operations — terminates without a fault; the final state holds, in
  every buffer that outlives a region, the contents the last boundary's fold `W8` gives it.  Read at the result
  buffer this names the network's output; read at an argument buffer it is the launch contents.
-/
import proofs.«152214_j24773371363384_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the eleven arguments as launched. -/
theorem run_result : θ_run defs (onTc (τ := τ) (main (F := F))) ⟨m, fun _ => 0, ρ⟩ (fun r => ∀ c : Dev nD,
      r.2.mem ((c.tc : Thread nD τ).loc main_v80) = W8 m ρ c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v80 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c)⟩)

end Cert.KernelIdeal.KRun

end
-- ==== Proof.KernelHost.lean ====
/-
  The host side of the idealized kernel program as pure functions of the argument arrays: the two rows of the
  edge array (sources and targets), the reciprocal of each node's clamped in-degree, the mean aggregation of a
  node array over the edges (a gather of the source rows, their sum into the target rows, the product with the
  reciprocal in-degree), and the slices of the stacked weights.  Each is the printed operations composed, nothing
  else: the reference program composes the same operations, and the two are compared as they stand.
-/
import proofs.«152214_j24773371363384_1_alg».proof.Proof.Gen.KernelIdeal
import Idealize.ShloMosaic.PureOps.Ideal

noncomputable section

namespace Cert.KernelIdeal.KHost

open Cert.KernelIdeal Cert.KernelIdeal.Facts₀ Cert.KernelIdeal.Facts
open Idealize.ShloMosaic

abbrev EdgeT : Type := (⟨S2x600000, .i32⟩ : BufTy).Contents (Elt Ideal)
abbrev IdxT : Type := (⟨S600000, .i32⟩ : BufTy).Contents (Elt Ideal)
abbrev NodeT : Type := (⟨S50000x128, .f32⟩ : BufTy).Contents (Elt Ideal)
abbrev ColT : Type := (⟨S50000x1, .f32⟩ : BufTy).Contents (Elt Ideal)
abbrev W3T : Type := (⟨S2x128x128, .f32⟩ : BufTy).Contents (Elt Ideal)
abbrev W2T : Type := (⟨S128x128, .f32⟩ : BufTy).Contents (Elt Ideal)
abbrev B2T : Type := (⟨S2x128, .f32⟩ : BufTy).Contents (Elt Ideal)
abbrev B1T : Type := (⟨S128, .f32⟩ : BufTy).Contents (Elt Ideal)
abbrev R128T : Type := (⟨S1x128, .f32⟩ : BufTy).Contents (Elt Ideal)
abbrev C1T : Type := (⟨S40, .f32⟩ : BufTy).Contents (Elt Ideal)
abbrev R40T : Type := (⟨S1x40, .f32⟩ : BufTy).Contents (Elt Ideal)

/-- The edges' source nodes: row 0 of the edge array. -/
def src (e : EdgeT) : IdxT :=
  shapeCast S600000 (extractStridedSlice S1x600000 ![0, 0] e slices_S2x600000_S1x600000_0_0) shapeCasts_S1x600000_S600000

/-- The edges' target nodes: row 1 of the edge array. -/
def dst (e : EdgeT) : IdxT :=
  shapeCast S600000 (extractStridedSlice S1x600000 ![1, 0] e slices_S2x600000_S1x600000_1_0) shapeCasts_S1x600000_S600000

/-- One over the in-degree clamped below at one, as a column: the in-degree is the sum of a one per edge into
    the edge's target. -/
def invCnt (d : IdxT) : ColT :=
  broadcastInDim S50000x1 ![0] bcast_S50000_S50000x1_0
    (Host.divf (F := Ideal) (broadcastInDim S50000 ![] bcast_S_S50000 (constant (F := Ideal) S_ .f32 0x3F800000#32))
      (maximumf (F := Ideal)
        (Host.scatterAdd (F := Ideal) scatter_S50000_S600000x1_S600000_n_0_0_1
          (broadcastInDim S50000 ![] bcast_S_S50000 (constant (F := Ideal) S_ .f32 0x00000000#32))
          (broadcastInDim S600000x1 ![0] bcast_S600000_S600000x1_0 d)
          (broadcastInDim S600000 ![] bcast_S_S600000 (constant (F := Ideal) S_ .f32 0x3F800000#32)))
        (broadcastInDim S50000 ![] bcast_S_S50000 (constant (F := Ideal) S_ .f32 0x3F800000#32))))

/-- The mean aggregation from its parts: the rows of `h` at the sources (a negative source counted from the end),
    summed into the targets from zero, times the reciprocal in-degree column. -/
def aggForm (s d : IdxT) (ic : ColT) (h : NodeT) : NodeT :=
  mulf (F := Ideal)
    (Host.scatterAdd (F := Ideal) scatter_S50000x128_S600000x1_S600000x128_1_0_0_1
      (broadcastInDim S50000x128 ![] bcast_S_S50000x128 (constant (F := Ideal) S_ .f32 0x00000000#32))
      (broadcastInDim S600000x1 ![0] bcast_S600000_S600000x1_0 d)
      (Host.gather gather_S50000x128_S600000x1_S600000x128_1_0_n_n_0_1_1128 h
        (broadcastInDim S600000x1 ![0] bcast_S600000_S600000x1_0
          (select (cmpi .slt s (broadcastInDim S600000 ![] bcast_S_S600000 (constantI S_ 32 0#32)))
            (addi s (broadcastInDim S600000 ![] bcast_S_S600000 (constantI S_ 32 50000#32))) s))))
    (broadcastInDim S50000x128 ![0, 1] bcast_S50000x1_S50000x128_0_1 ic)

/-- The mean aggregation of `h` over the edges `e`. -/
def agg (e : EdgeT) (h : NodeT) : NodeT := aggForm (src e) (dst e) (invCnt (dst e)) h

/-- Layer 0 of a stack of two square weight matrices. -/
def wsl0 (w : W3T) : W2T :=
  shapeCast S128x128 (extractStridedSlice S1x128x128 ![0, 0, 0] w slices_S2x128x128_S1x128x128_0_0_0) shapeCasts_S1x128x128_S128x128
/-- Layer 1 of the stack. -/
def wsl1 (w : W3T) : W2T :=
  shapeCast S128x128 (extractStridedSlice S1x128x128 ![1, 0, 0] w slices_S2x128x128_S1x128x128_1_0_0) shapeCasts_S1x128x128_S128x128
/-- Layer 0 of a stack of two bias vectors. -/
def bsl0 (b : B2T) : B1T :=
  shapeCast S128 (extractStridedSlice S1x128 ![0, 0] b slices_S2x128_S1x128_0_0) shapeCasts_S1x128_S128
/-- Layer 1 of the stack. -/
def bsl1 (b : B2T) : B1T :=
  shapeCast S128 (extractStridedSlice S1x128 ![1, 0] b slices_S2x128_S1x128_1_0) shapeCasts_S1x128_S128
/-- A bias vector as a one-row matrix. -/
def row128 (b : B1T) : R128T := shapeCast S1x128 b shapeCasts_S128_S1x128
/-- The read-out's bias vector as a one-row matrix. -/
def row40 (b : C1T) : R40T := shapeCast S1x40 b shapeCasts_S40_S1x40

end Cert.KernelIdeal.KHost

end
-- ==== Proof.Spec.lean ====
/-
  A mean-aggregating graph network of three hidden layers and a log-softmax read-out, stated index by index
  over the extended reals.  A hidden layer sends the aggregated rows `a` and the node rows `x` to
  `leaky (Σ_k a[r,k]·wl[k,q] + Σ_k x[r,k]·wr[k,q] + b[q])`; the read-out takes the same affine form into
  forty classes and subtracts from each row its maximum and then the logarithm of the row's sum of exponentials.
  The neighbourhood aggregation is a parameter `agg` (a gather along the edges, a sum into the target nodes, a
  division by the in-degree): both programs compute it by the same host operations, so it is never opened.
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

abbrev SNxD : Shape := ⟨2, ![50000, 128]⟩
abbrev SNxC : Shape := ⟨2, ![50000, 40]⟩
abbrev SDxD : Shape := ⟨2, ![128, 128]⟩
abbrev SDxC : Shape := ⟨2, ![128, 40]⟩
abbrev SD : Shape := ⟨1, ![128]⟩
abbrev SC : Shape := ⟨1, ![40]⟩

/-- The rectifier's slope on the negative side: the binary32 value nearest one tenth, the same word in both programs. -/
def slope : EReal := Ideal.ofBits .f32 0x3DCCCCCD#32

/-- The leaky rectifier: `y` where `0 ≤ y`, the slope times `y` elsewhere. -/
def leaky (y : EReal) : EReal := if (0 : EReal) ≤ y then y else slope * y

/-- Testing `0 < y` instead of `0 ≤ y` gives the same function: the two differ only at `y = 0`, where
    `slope * 0 = 0`. -/
theorem leaky_of_lt (y : EReal) : (if (0 : EReal) < y then y else slope * y) = leaky y := by
  unfold leaky
  by_cases h : (0 : EReal) < y
  · rw [if_pos h, if_pos h.le]
  · rw [if_neg h]
    by_cases h' : (0 : EReal) ≤ y
    · have e : y = 0 := le_antisymm (not_lt.mp h) h'
      rw [if_pos h', e, mul_zero]
    · rw [if_neg h']

/-- The affine part of a hidden layer at row `r`, column `q`. -/
def lin128 (a x : FVec Ideal SNxD .f32) (wl wr : FVec Ideal SDxD .f32) (b : FVec Ideal SD .f32)
    (r : Fin 50000) (q : Fin 128) : EReal :=
  (∑ k : Fin 128, a (ix2 r k) * wl (ix2 k q)) + (∑ k : Fin 128, x (ix2 r k) * wr (ix2 k q)) + b (ix1 q)

/-- A hidden layer. -/
def hidden (a x : FVec Ideal SNxD .f32) (wl wr : FVec Ideal SDxD .f32) (b : FVec Ideal SD .f32) :
    FVec Ideal SNxD .f32 :=
  fun i => leaky (lin128 a x wl wr b (i 0) (i 1))

/-- The affine part of the read-out at row `r`, class `q`. -/
def lin40 (a x : FVec Ideal SNxD .f32) (wl wr : FVec Ideal SDxC .f32) (b : FVec Ideal SC .f32)
    (r : Fin 50000) (q : Fin 40) : EReal :=
  (∑ k : Fin 128, a (ix2 r k) * wl (ix2 k q)) + (∑ k : Fin 128, x (ix2 r k) * wr (ix2 k q)) + b (ix1 q)

/-- The maximum of forty extended reals, folded from `⊥`. -/
def rowMax (f : Fin 40 → EReal) : EReal := (Finset.univ : Finset (Fin 40)).fold max ⊥ f

/-- The read-out: each row shifted by its maximum, then by the logarithm of its sum of exponentials. -/
def logits (a x : FVec Ideal SNxD .f32) (wl wr : FVec Ideal SDxC .f32) (b : FVec Ideal SC .f32) :
    FVec Ideal SNxC .f32 :=
  fun i =>
    (lin40 a x wl wr b (i 0) (i 1) - rowMax (lin40 a x wl wr b (i 0)))
      - Ideal.log (∑ q : Fin 40, Ideal.exp (lin40 a x wl wr b (i 0) q - rowMax (lin40 a x wl wr b (i 0))))

/-- One hidden layer over the aggregation `agg`: the layer of `agg h` and `h`. -/
def step (agg : FVec Ideal SNxD .f32 → FVec Ideal SNxD .f32) (h : FVec Ideal SNxD .f32)
    (wl wr : FVec Ideal SDxD .f32) (b : FVec Ideal SD .f32) : FVec Ideal SNxD .f32 :=
  hidden (agg h) h wl wr b

/-- The read-out over the aggregation `agg`. -/
def readout (agg : FVec Ideal SNxD .f32 → FVec Ideal SNxD .f32) (h : FVec Ideal SNxD .f32)
    (wl wr : FVec Ideal SDxC .f32) (b : FVec Ideal SC .f32) : FVec Ideal SNxC .f32 :=
  logits (agg h) h wl wr b

/-- The whole network over an aggregation `agg`: three hidden layers, then the read-out. -/
def model (agg : FVec Ideal SNxD .f32 → FVec Ideal SNxD .f32) (x : FVec Ideal SNxD .f32)
    (eWl eWr : FVec Ideal SDxD .f32) (eb : FVec Ideal SD .f32)
    (w0l w0r : FVec Ideal SDxD .f32) (b0 : FVec Ideal SD .f32)
    (w1l w1r : FVec Ideal SDxD .f32) (b1 : FVec Ideal SD .f32)
    (dWl dWr : FVec Ideal SDxC .f32) (db : FVec Ideal SC .f32) : FVec Ideal SNxC .f32 :=
  readout agg (step agg (step agg (step agg x eWl eWr eb) w0l w0r b0) w1l w1r b1) dWl dWr db

end Cert.Sage

end
-- ==== Proof.KernelStages.lean ====
/-
  The contents of the idealized kernel program's buffers at each boundary between its host stretches and its four
  regions, as functions of the argument arrays.  Entering a region, the aggregated array is the mean aggregation of
  the previous layer's output; leaving it, the output array is the layer's function of the arrays it was entered
  with.  The edge rows, the reciprocal in-degree and the weights are computed once or sliced from the arguments
  and carried unchanged across the regions, which write only their own output arrays.
-/
import proofs.«152214_j24773371363384_1_alg».proof.Proof.Gen.KernelIdeal.Frame
import proofs.«152214_j24773371363384_1_alg».proof.Proof.KernelHost
import proofs.«152214_j24773371363384_1_alg».proof.Proof.Spec
import Idealize.ShloMosaic.Lib.StableHlo.Run
import Idealize.ShloMosaic.Lib.Pipeline.Value

set_option maxRecDepth 16384

noncomputable section

namespace Cert.KernelIdeal.KStage

open Cert.KernelIdeal Cert.KernelIdeal.Gen Cert.KernelIdeal.KHost
open Idealize.ShloMosaic Idealize.ShloMosaic.TcCoe Idealize.ShloMosaic.Tactic Idealize.ShloMosaic.StableHlo
open Idealize.ShloMosaic.ValueIdx
open Idealize.SL.Sem

/-- A bias vector viewed as a one-row matrix and read back along the row is the vector. -/
theorem row128_read (b : B1T) : (fun j : Cert.Sage.SD.Idx => row128 b (ix2 (0 : Fin 1) (j 0))) = b := by
  funext j
  unfold row128
  refine (shapeCast_addUnit_apply ![128] b _ (ix2 (0 : Fin 1) (j 0))).trans (congrArg b (funext fun a => ?_))
  match a with
  | ⟨0, _⟩ => rfl

/-- The same for the read-out's forty-entry bias. -/
theorem row40_read (b : C1T) : (fun j : Cert.Sage.SC.Idx => row40 b (ix2 (0 : Fin 1) (j 0))) = b := by
  funext j
  unfold row40
  refine (shapeCast_addUnit_apply ![40] b _ (ix2 (0 : Fin 1) (j 0))).trans (congrArg b (funext fun a => ?_))
  match a with
  | ⟨0, _⟩ => rfl

variable (m : (ℓ : Loc nD τ sig) → Buf (Elt Ideal) ℓ) (ρ : Dev nD → PrngReg) (c : Dev nD)

/-! ## The layers' outputs as functions of the arguments -/

/-- The first hidden layer's output. -/
def h1 : NodeT := Cert.Sage.hidden (agg (m ((c.tc : Thread nD τ).loc main_arg1)) (m ((c.tc : Thread nD τ).loc main_arg0))) (m ((c.tc : Thread nD τ).loc main_arg0)) (m ((c.tc : Thread nD τ).loc main_arg2)) (m ((c.tc : Thread nD τ).loc main_arg3)) (m ((c.tc : Thread nD τ).loc main_arg4))
/-- The second hidden layer's output. -/
def h2 : NodeT := Cert.Sage.hidden (agg (m ((c.tc : Thread nD τ).loc main_arg1)) (h1 m c)) (h1 m c) (wsl0 (m ((c.tc : Thread nD τ).loc main_arg5))) (wsl0 (m ((c.tc : Thread nD τ).loc main_arg6))) (bsl0 (m ((c.tc : Thread nD τ).loc main_arg7)))
/-- The third hidden layer's output. -/
def h3 : NodeT := Cert.Sage.hidden (agg (m ((c.tc : Thread nD τ).loc main_arg1)) (h2 m c)) (h2 m c) (wsl1 (m ((c.tc : Thread nD τ).loc main_arg5))) (wsl1 (m ((c.tc : Thread nD τ).loc main_arg6))) (bsl1 (m ((c.tc : Thread nD τ).loc main_arg7)))
/-- The read-out. -/
def out : (⟨S50000x40, .f32⟩ : BufTy).Contents (Elt Ideal) := Cert.Sage.logits (agg (m ((c.tc : Thread nD τ).loc main_arg1)) (h3 m c)) (h3 m c) (m ((c.tc : Thread nD τ).loc main_arg8)) (m ((c.tc : Thread nD τ).loc main_arg9)) (m ((c.tc : Thread nD τ).loc main_arg10))

/-- The read-out of the third layer is the specification's network over this program's aggregation. -/
theorem out_eq_model : out m c = Cert.Sage.model (agg (m ((c.tc : Thread nD τ).loc main_arg1))) (m ((c.tc : Thread nD τ).loc main_arg0)) (m ((c.tc : Thread nD τ).loc main_arg2)) (m ((c.tc : Thread nD τ).loc main_arg3)) (m ((c.tc : Thread nD τ).loc main_arg4))
    (wsl0 (m ((c.tc : Thread nD τ).loc main_arg5))) (wsl0 (m ((c.tc : Thread nD τ).loc main_arg6))) (bsl0 (m ((c.tc : Thread nD τ).loc main_arg7))) (wsl1 (m ((c.tc : Thread nD τ).loc main_arg5))) (wsl1 (m ((c.tc : Thread nD τ).loc main_arg6))) (bsl1 (m ((c.tc : Thread nD τ).loc main_arg7))) (m ((c.tc : Thread nD τ).loc main_arg8)) (m ((c.tc : Thread nD τ).loc main_arg9)) (m ((c.tc : Thread nD τ).loc main_arg10)) := rfl

/-! ## What each region leaves: the hypotheses this module is stated under (the regions' value theorems) -/

/-- Region 0's output array is the hidden layer of its five input arrays. -/
def Region0 : Prop := ∀ (V : (c : Dev nD) → (b : Ref sig .tc) → Buf (Elt Ideal) ((c : Thread nD τ).loc b)) (c : Dev nD),
  (Gen.dat0 V c).arrAt 5 cfg0.N = Cert.Sage.hidden (V c main_v24) (V c main_arg0) (V c main_arg2) (V c main_arg3) (fun j => V c main_v25 (ix2 (0 : Fin 1) (j 0)))
/-- Region 1's. -/
def Region1 : Prop := ∀ (V : (c : Dev nD) → (b : Ref sig .tc) → Buf (Elt Ideal) ((c : Thread nD τ).loc b)) (c : Dev nD),
  (Gen.dat1 V c).arrAt 5 cfg1.N = Cert.Sage.hidden (V c main_v38) (V c main_v26) (V c main_v40) (V c main_v42) (fun j => V c main_v45 (ix2 (0 : Fin 1) (j 0)))
/-- Region 2's. -/
def Region2 : Prop := ∀ (V : (c : Dev nD) → (b : Ref sig .tc) → Buf (Elt Ideal) ((c : Thread nD τ).loc b)) (c : Dev nD),
  (Gen.dat2 V c).arrAt 5 cfg2.N = Cert.Sage.hidden (V c main_v58) (V c main_v46) (V c main_v60) (V c main_v62) (fun j => V c main_v65 (ix2 (0 : Fin 1) (j 0)))
/-- Region 3's output array is the read-out of its five input arrays. -/
def Region3 : Prop := ∀ (V : (c : Dev nD) → (b : Ref sig .tc) → Buf (Elt Ideal) ((c : Thread nD τ).loc b)) (c : Dev nD),
  (Gen.dat3 V c).arrAt 5 cfg3.N = Cert.Sage.logits (V c main_v78) (V c main_v66) (V c main_arg8) (V c main_arg9) (fun j => V c main_v79 (ix2 (0 : Fin 1) (j 0)))

/-! ## After the first host stretch (region 0's entry) -/

set_option maxHeartbeats 4000000 in
theorem s1_v1 : W1 m ρ c (Proc.devRef .tc main_v1) = src (m ((c.tc : Thread nD τ).loc main_arg1)) := by
  dsimp only [W1, hostOps0]
  after_results_simp
  try rfl
set_option maxHeartbeats 4000000 in
theorem s1_v3 : W1 m ρ c (Proc.devRef .tc main_v3) = dst (m ((c.tc : Thread nD τ).loc main_arg1)) := by
  dsimp only [W1, hostOps0]
  after_results_simp
  try rfl
set_option maxHeartbeats 4000000 in
theorem s1_v12 : W1 m ρ c (Proc.devRef .tc main_v12) = invCnt (dst (m ((c.tc : Thread nD τ).loc main_arg1))) := by
  dsimp only [W1, hostOps0]
  after_results_simp
  try rfl
set_option maxHeartbeats 4000000 in
theorem s1_v24 : W1 m ρ c (Proc.devRef .tc main_v24) = agg (m ((c.tc : Thread nD τ).loc main_arg1)) (m ((c.tc : Thread nD τ).loc main_arg0)) := by
  dsimp only [W1, hostOps0]
  after_results_simp
  try rfl
set_option maxHeartbeats 4000000 in
theorem s1_v25 : W1 m ρ c (Proc.devRef .tc main_v25) = row128 (m ((c.tc : Thread nD τ).loc main_arg4)) := by
  dsimp only [W1, hostOps0]
  after_results_simp
  try rfl
set_option maxHeartbeats 4000000 in
theorem s1_arg0 : W1 m ρ c (Proc.devRef .tc main_arg0) = (m ((c.tc : Thread nD τ).loc main_arg0)) := by
  dsimp only [W1, hostOps0]
  after_results_simp
  try rfl
set_option maxHeartbeats 4000000 in
theorem s1_arg2 : W1 m ρ c (Proc.devRef .tc main_arg2) = (m ((c.tc : Thread nD τ).loc main_arg2)) := by
  dsimp only [W1, hostOps0]
  after_results_simp
  try rfl
set_option maxHeartbeats 4000000 in
theorem s1_arg3 : W1 m ρ c (Proc.devRef .tc main_arg3) = (m ((c.tc : Thread nD τ).loc main_arg3)) := by
  dsimp only [W1, hostOps0]
  after_results_simp
  try rfl
set_option maxHeartbeats 4000000 in
theorem s1_arg5 : W1 m ρ c (Proc.devRef .tc main_arg5) = (m ((c.tc : Thread nD τ).loc main_arg5)) := by
  dsimp only [W1, hostOps0]
  after_results_simp
  try rfl
set_option maxHeartbeats 4000000 in
theorem s1_arg6 : W1 m ρ c (Proc.devRef .tc main_arg6) = (m ((c.tc : Thread nD τ).loc main_arg6)) := by
  dsimp only [W1, hostOps0]
  after_results_simp
  try rfl
set_option maxHeartbeats 4000000 in
theorem s1_arg7 : W1 m ρ c (Proc.devRef .tc main_arg7) = (m ((c.tc : Thread nD τ).loc main_arg7)) := by
  dsimp only [W1, hostOps0]
  after_results_simp
  try rfl
set_option maxHeartbeats 4000000 in
theorem s1_arg8 : W1 m ρ c (Proc.devRef .tc main_arg8) = (m ((c.tc : Thread nD τ).loc main_arg8)) := by
  dsimp only [W1, hostOps0]
  after_results_simp
  try rfl
set_option maxHeartbeats 4000000 in
theorem s1_arg9 : W1 m ρ c (Proc.devRef .tc main_arg9) = (m ((c.tc : Thread nD τ).loc main_arg9)) := by
  dsimp only [W1, hostOps0]
  after_results_simp
  try rfl
set_option maxHeartbeats 4000000 in
theorem s1_arg10 : W1 m ρ c (Proc.devRef .tc main_arg10) = (m ((c.tc : Thread nD τ).loc main_arg10)) := by
  dsimp only [W1, hostOps0]
  after_results_simp
  try rfl

/-! ## After region 0 -/

theorem s2_v26 (hr0 : Region0) : W2 m ρ c (Proc.devRef .tc main_v26) = h1 m c := by
  refine (W2_arr m ρ c 5).trans ?_
  rw [hr0 (V1 m ρ) c]
  show Cert.Sage.hidden (W1 m ρ c (Proc.devRef .tc main_v24)) (W1 m ρ c (Proc.devRef .tc main_arg0)) (W1 m ρ c (Proc.devRef .tc main_arg2)) (W1 m ρ c (Proc.devRef .tc main_arg3))
      (fun j => W1 m ρ c (Proc.devRef .tc main_v25) (ix2 (0 : Fin 1) (j 0))) = _
  rw [s1_v24 m ρ c, s1_arg0 m ρ c, s1_arg2 m ρ c, s1_arg3 m ρ c, s1_v25 m ρ c, row128_read]
  rfl
theorem s2_v1 : W2 m ρ c (Proc.devRef .tc main_v1) = src (m ((c.tc : Thread nD τ).loc main_arg1)) := (W2_of_ne m ρ c main_v1 (by decide)).trans (s1_v1 m ρ c)
theorem s2_v3 : W2 m ρ c (Proc.devRef .tc main_v3) = dst (m ((c.tc : Thread nD τ).loc main_arg1)) := (W2_of_ne m ρ c main_v3 (by decide)).trans (s1_v3 m ρ c)
theorem s2_v12 : W2 m ρ c (Proc.devRef .tc main_v12) = invCnt (dst (m ((c.tc : Thread nD τ).loc main_arg1))) := (W2_of_ne m ρ c main_v12 (by decide)).trans (s1_v12 m ρ c)
theorem s2_arg5 : W2 m ρ c (Proc.devRef .tc main_arg5) = (m ((c.tc : Thread nD τ).loc main_arg5)) := (W2_of_ne m ρ c main_arg5 (by decide)).trans (s1_arg5 m ρ c)
theorem s2_arg6 : W2 m ρ c (Proc.devRef .tc main_arg6) = (m ((c.tc : Thread nD τ).loc main_arg6)) := (W2_of_ne m ρ c main_arg6 (by decide)).trans (s1_arg6 m ρ c)
theorem s2_arg7 : W2 m ρ c (Proc.devRef .tc main_arg7) = (m ((c.tc : Thread nD τ).loc main_arg7)) := (W2_of_ne m ρ c main_arg7 (by decide)).trans (s1_arg7 m ρ c)
theorem s2_arg8 : W2 m ρ c (Proc.devRef .tc main_arg8) = (m ((c.tc : Thread nD τ).loc main_arg8)) := (W2_of_ne m ρ c main_arg8 (by decide)).trans (s1_arg8 m ρ c)
theorem s2_arg9 : W2 m ρ c (Proc.devRef .tc main_arg9) = (m ((c.tc : Thread nD τ).loc main_arg9)) := (W2_of_ne m ρ c main_arg9 (by decide)).trans (s1_arg9 m ρ c)
theorem s2_arg10 : W2 m ρ c (Proc.devRef .tc main_arg10) = (m ((c.tc : Thread nD τ).loc main_arg10)) := (W2_of_ne m ρ c main_arg10 (by decide)).trans (s1_arg10 m ρ c)

/-! ## After the second host stretch (region 1's entry) -/

set_option maxHeartbeats 4000000 in
theorem s3_v38 (hr0 : Region0) : W3 m ρ c (Proc.devRef .tc main_v38) = agg (m ((c.tc : Thread nD τ).loc main_arg1)) (h1 m c) := by
  dsimp only [W3, hostOps1]
  after_results_simp
  simp only [s2_v1 m ρ c, s2_v3 m ρ c, s2_v12 m ρ c, s2_v26 m ρ c hr0]
  try rfl
set_option maxHeartbeats 4000000 in
theorem s3_v26 (hr0 : Region0) : W3 m ρ c (Proc.devRef .tc main_v26) = h1 m c := by
  dsimp only [W3, hostOps1]
  after_results_simp
  simp only [s2_v26 m ρ c hr0]
  try rfl
set_option maxHeartbeats 4000000 in
theorem s3_v40 : W3 m ρ c (Proc.devRef .tc main_v40) = wsl0 (m ((c.tc : Thread nD τ).loc main_arg5)) := by
  dsimp only [W3, hostOps1]
  after_results_simp
  simp only [s2_arg5 m ρ c]
  try rfl
set_option maxHeartbeats 4000000 in
theorem s3_v42 : W3 m ρ c (Proc.devRef .tc main_v42) = wsl0 (m ((c.tc : Thread nD τ).loc main_arg6)) := by
  dsimp only [W3, hostOps1]
  after_results_simp
  simp only [s2_arg6 m ρ c]
  try rfl
set_option maxHeartbeats 4000000 in
theorem s3_v45 : W3 m ρ c (Proc.devRef .tc main_v45) = row128 (bsl0 (m ((c.tc : Thread nD τ).loc main_arg7))) := by
  dsimp only [W3, hostOps1]
  after_results_simp
  simp only [s2_arg7 m ρ c]
  try rfl
set_option maxHeartbeats 4000000 in
theorem s3_v1 : W3 m ρ c (Proc.devRef .tc main_v1) = src (m ((c.tc : Thread nD τ).loc main_arg1)) := by
  dsimp only [W3, hostOps1]
  after_results_simp
  simp only [s2_v1 m ρ c]
  try rfl
set_option maxHeartbeats 4000000 in
theorem s3_v3 : W3 m ρ c (Proc.devRef .tc main_v3) = dst (m ((c.tc : Thread nD τ).loc main_arg1)) := by
  dsimp only [W3, hostOps1]
  after_results_simp
  simp only [s2_v3 m ρ c]
  try rfl
set_option maxHeartbeats 4000000 in
theorem s3_v12 : W3 m ρ c (Proc.devRef .tc main_v12) = invCnt (dst (m ((c.tc : Thread nD τ).loc main_arg1))) := by
  dsimp only [W3, hostOps1]
  after_results_simp
  simp only [s2_v12 m ρ c]
  try rfl
set_option maxHeartbeats 4000000 in
theorem s3_arg5 : W3 m ρ c (Proc.devRef .tc main_arg5) = (m ((c.tc : Thread nD τ).loc main_arg5)) := by
  dsimp only [W3, hostOps1]
  after_results_simp
  simp only [s2_arg5 m ρ c]
  try rfl
set_option maxHeartbeats 4000000 in
theorem s3_arg6 : W3 m ρ c (Proc.devRef .tc main_arg6) = (m ((c.tc : Thread nD τ).loc main_arg6)) := by
  dsimp only [W3, hostOps1]
  after_results_simp
  simp only [s2_arg6 m ρ c]
  try rfl
set_option maxHeartbeats 4000000 in
theorem s3_arg7 : W3 m ρ c (Proc.devRef .tc main_arg7) = (m ((c.tc : Thread nD τ).loc main_arg7)) := by
  dsimp only [W3, hostOps1]
  after_results_simp
  simp only [s2_arg7 m ρ c]
  try rfl
set_option maxHeartbeats 4000000 in
theorem s3_arg8 : W3 m ρ c (Proc.devRef .tc main_arg8) = (m ((c.tc : Thread nD τ).loc main_arg8)) := by
  dsimp only [W3, hostOps1]
  after_results_simp
  simp only [s2_arg8 m ρ c]
  try rfl
set_option maxHeartbeats 4000000 in
theorem s3_arg9 : W3 m ρ c (Proc.devRef .tc main_arg9) = (m ((c.tc : Thread nD τ).loc main_arg9)) := by
  dsimp only [W3, hostOps1]
  after_results_simp
  simp only [s2_arg9 m ρ c]
  try rfl
set_option maxHeartbeats 4000000 in
theorem s3_arg10 : W3 m ρ c (Proc.devRef .tc main_arg10) = (m ((c.tc : Thread nD τ).loc main_arg10)) := by
  dsimp only [W3, hostOps1]
  after_results_simp
  simp only [s2_arg10 m ρ c]
  try rfl

/-! ## After region 1 -/

theorem s4_v46 (hr0 : Region0) (hr1 : Region1) : W4 m ρ c (Proc.devRef .tc main_v46) = h2 m c := by
  refine (W4_arr m ρ c 5).trans ?_
  rw [hr1 (V3 m ρ) c]
  show Cert.Sage.hidden (W3 m ρ c (Proc.devRef .tc main_v38)) (W3 m ρ c (Proc.devRef .tc main_v26)) (W3 m ρ c (Proc.devRef .tc main_v40)) (W3 m ρ c (Proc.devRef .tc main_v42))
      (fun j => W3 m ρ c (Proc.devRef .tc main_v45) (ix2 (0 : Fin 1) (j 0))) = _
  rw [s3_v38 m ρ c hr0, s3_v26 m ρ c hr0, s3_v40 m ρ c, s3_v42 m ρ c, s3_v45 m ρ c, row128_read]
  rfl
theorem s4_v1 : W4 m ρ c (Proc.devRef .tc main_v1) = src (m ((c.tc : Thread nD τ).loc main_arg1)) := (W4_of_ne m ρ c main_v1 (by decide)).trans (s3_v1 m ρ c)
theorem s4_v3 : W4 m ρ c (Proc.devRef .tc main_v3) = dst (m ((c.tc : Thread nD τ).loc main_arg1)) := (W4_of_ne m ρ c main_v3 (by decide)).trans (s3_v3 m ρ c)
theorem s4_v12 : W4 m ρ c (Proc.devRef .tc main_v12) = invCnt (dst (m ((c.tc : Thread nD τ).loc main_arg1))) := (W4_of_ne m ρ c main_v12 (by decide)).trans (s3_v12 m ρ c)
theorem s4_arg5 : W4 m ρ c (Proc.devRef .tc main_arg5) = (m ((c.tc : Thread nD τ).loc main_arg5)) := (W4_of_ne m ρ c main_arg5 (by decide)).trans (s3_arg5 m ρ c)
theorem s4_arg6 : W4 m ρ c (Proc.devRef .tc main_arg6) = (m ((c.tc : Thread nD τ).loc main_arg6)) := (W4_of_ne m ρ c main_arg6 (by decide)).trans (s3_arg6 m ρ c)
theorem s4_arg7 : W4 m ρ c (Proc.devRef .tc main_arg7) = (m ((c.tc : Thread nD τ).loc main_arg7)) := (W4_of_ne m ρ c main_arg7 (by decide)).trans (s3_arg7 m ρ c)
theorem s4_arg8 : W4 m ρ c (Proc.devRef .tc main_arg8) = (m ((c.tc : Thread nD τ).loc main_arg8)) := (W4_of_ne m ρ c main_arg8 (by decide)).trans (s3_arg8 m ρ c)
theorem s4_arg9 : W4 m ρ c (Proc.devRef .tc main_arg9) = (m ((c.tc : Thread nD τ).loc main_arg9)) := (W4_of_ne m ρ c main_arg9 (by decide)).trans (s3_arg9 m ρ c)
theorem s4_arg10 : W4 m ρ c (Proc.devRef .tc main_arg10) = (m ((c.tc : Thread nD τ).loc main_arg10)) := (W4_of_ne m ρ c main_arg10 (by decide)).trans (s3_arg10 m ρ c)

/-! ## After the third host stretch (region 2's entry) -/

set_option maxHeartbeats 4000000 in
theorem s5_v58 (hr0 : Region0) (hr1 : Region1) : W5 m ρ c (Proc.devRef .tc main_v58) = agg (m ((c.tc : Thread nD τ).loc main_arg1)) (h2 m c) := by
  dsimp only [W5, hostOps2]
  after_results_simp
  simp only [s4_v1 m ρ c, s4_v3 m ρ c, s4_v12 m ρ c, s4_v46 m ρ c hr0 hr1]
  try rfl
set_option maxHeartbeats 4000000 in
theorem s5_v46 (hr0 : Region0) (hr1 : Region1) : W5 m ρ c (Proc.devRef .tc main_v46) = h2 m c := by
  dsimp only [W5, hostOps2]
  after_results_simp
  simp only [s4_v46 m ρ c hr0 hr1]
  try rfl
set_option maxHeartbeats 4000000 in
theorem s5_v60 : W5 m ρ c (Proc.devRef .tc main_v60) = wsl1 (m ((c.tc : Thread nD τ).loc main_arg5)) := by
  dsimp only [W5, hostOps2]
  after_results_simp
  simp only [s4_arg5 m ρ c]
  try rfl
set_option maxHeartbeats 4000000 in
theorem s5_v62 : W5 m ρ c (Proc.devRef .tc main_v62) = wsl1 (m ((c.tc : Thread nD τ).loc main_arg6)) := by
  dsimp only [W5, hostOps2]
  after_results_simp
  simp only [s4_arg6 m ρ c]
  try rfl
set_option maxHeartbeats 4000000 in
theorem s5_v65 : W5 m ρ c (Proc.devRef .tc main_v65) = row128 (bsl1 (m ((c.tc : Thread nD τ).loc main_arg7))) := by
  dsimp only [W5, hostOps2]
  after_results_simp
  simp only [s4_arg7 m ρ c]
  try rfl
set_option maxHeartbeats 4000000 in
theorem s5_v1 : W5 m ρ c (Proc.devRef .tc main_v1) = src (m ((c.tc : Thread nD τ).loc main_arg1)) := by
  dsimp only [W5, hostOps2]
  after_results_simp
  simp only [s4_v1 m ρ c]
  try rfl
set_option maxHeartbeats 4000000 in
theorem s5_v3 : W5 m ρ c (Proc.devRef .tc main_v3) = dst (m ((c.tc : Thread nD τ).loc main_arg1)) := by
  dsimp only [W5, hostOps2]
  after_results_simp
  simp only [s4_v3 m ρ c]
  try rfl
set_option maxHeartbeats 4000000 in
theorem s5_v12 : W5 m ρ c (Proc.devRef .tc main_v12) = invCnt (dst (m ((c.tc : Thread nD τ).loc main_arg1))) := by
  dsimp only [W5, hostOps2]
  after_results_simp
  simp only [s4_v12 m ρ c]
  try rfl
set_option maxHeartbeats 4000000 in
theorem s5_arg8 : W5 m ρ c (Proc.devRef .tc main_arg8) = (m ((c.tc : Thread nD τ).loc main_arg8)) := by
  dsimp only [W5, hostOps2]
  after_results_simp
  simp only [s4_arg8 m ρ c]
  try rfl
set_option maxHeartbeats 4000000 in
theorem s5_arg9 : W5 m ρ c (Proc.devRef .tc main_arg9) = (m ((c.tc : Thread nD τ).loc main_arg9)) := by
  dsimp only [W5, hostOps2]
  after_results_simp
  simp only [s4_arg9 m ρ c]
  try rfl
set_option maxHeartbeats 4000000 in
theorem s5_arg10 : W5 m ρ c (Proc.devRef .tc main_arg10) = (m ((c.tc : Thread nD τ).loc main_arg10)) := by
  dsimp only [W5, hostOps2]
  after_results_simp
  simp only [s4_arg10 m ρ c]
  try rfl

/-! ## After region 2 -/

theorem s6_v66 (hr0 : Region0) (hr1 : Region1) (hr2 : Region2) : W6 m ρ c (Proc.devRef .tc main_v66) = h3 m c := by
  refine (W6_arr m ρ c 5).trans ?_
  rw [hr2 (V5 m ρ) c]
  show Cert.Sage.hidden (W5 m ρ c (Proc.devRef .tc main_v58)) (W5 m ρ c (Proc.devRef .tc main_v46)) (W5 m ρ c (Proc.devRef .tc main_v60)) (W5 m ρ c (Proc.devRef .tc main_v62))
      (fun j => W5 m ρ c (Proc.devRef .tc main_v65) (ix2 (0 : Fin 1) (j 0))) = _
  rw [s5_v58 m ρ c hr0 hr1, s5_v46 m ρ c hr0 hr1, s5_v60 m ρ c, s5_v62 m ρ c, s5_v65 m ρ c, row128_read]
  rfl
theorem s6_v1 : W6 m ρ c (Proc.devRef .tc main_v1) = src (m ((c.tc : Thread nD τ).loc main_arg1)) := (W6_of_ne m ρ c main_v1 (by decide)).trans (s5_v1 m ρ c)
theorem s6_v3 : W6 m ρ c (Proc.devRef .tc main_v3) = dst (m ((c.tc : Thread nD τ).loc main_arg1)) := (W6_of_ne m ρ c main_v3 (by decide)).trans (s5_v3 m ρ c)
theorem s6_v12 : W6 m ρ c (Proc.devRef .tc main_v12) = invCnt (dst (m ((c.tc : Thread nD τ).loc main_arg1))) := (W6_of_ne m ρ c main_v12 (by decide)).trans (s5_v12 m ρ c)
theorem s6_arg8 : W6 m ρ c (Proc.devRef .tc main_arg8) = (m ((c.tc : Thread nD τ).loc main_arg8)) := (W6_of_ne m ρ c main_arg8 (by decide)).trans (s5_arg8 m ρ c)
theorem s6_arg9 : W6 m ρ c (Proc.devRef .tc main_arg9) = (m ((c.tc : Thread nD τ).loc main_arg9)) := (W6_of_ne m ρ c main_arg9 (by decide)).trans (s5_arg9 m ρ c)
theorem s6_arg10 : W6 m ρ c (Proc.devRef .tc main_arg10) = (m ((c.tc : Thread nD τ).loc main_arg10)) := (W6_of_ne m ρ c main_arg10 (by decide)).trans (s5_arg10 m ρ c)

/-! ## After the last host stretch (region 3's entry) -/

set_option maxHeartbeats 4000000 in
theorem s7_v78 (hr0 : Region0) (hr1 : Region1) (hr2 : Region2) : W7 m ρ c (Proc.devRef .tc main_v78) = agg (m ((c.tc : Thread nD τ).loc main_arg1)) (h3 m c) := by
  dsimp only [W7, hostOps3]
  after_results_simp
  simp only [s6_v1 m ρ c, s6_v3 m ρ c, s6_v12 m ρ c, s6_v66 m ρ c hr0 hr1 hr2]
  try rfl
set_option maxHeartbeats 4000000 in
theorem s7_v66 (hr0 : Region0) (hr1 : Region1) (hr2 : Region2) : W7 m ρ c (Proc.devRef .tc main_v66) = h3 m c := by
  dsimp only [W7, hostOps3]
  after_results_simp
  simp only [s6_v66 m ρ c hr0 hr1 hr2]
  try rfl
set_option maxHeartbeats 4000000 in
theorem s7_v79 : W7 m ρ c (Proc.devRef .tc main_v79) = row40 (m ((c.tc : Thread nD τ).loc main_arg10)) := by
  dsimp only [W7, hostOps3]
  after_results_simp
  simp only [s6_arg10 m ρ c]
  try rfl
set_option maxHeartbeats 4000000 in
theorem s7_arg8 : W7 m ρ c (Proc.devRef .tc main_arg8) = (m ((c.tc : Thread nD τ).loc main_arg8)) := by
  dsimp only [W7, hostOps3]
  after_results_simp
  simp only [s6_arg8 m ρ c]
  try rfl
set_option maxHeartbeats 4000000 in
theorem s7_arg9 : W7 m ρ c (Proc.devRef .tc main_arg9) = (m ((c.tc : Thread nD τ).loc main_arg9)) := by
  dsimp only [W7, hostOps3]
  after_results_simp
  simp only [s6_arg9 m ρ c]
  try rfl

/-! ## After region 3: the result -/

/-- The result buffer at the last boundary is the specification's network of the argument arrays, over this
    program's aggregation and weight slices. -/
theorem result (hr0 : Region0) (hr1 : Region1) (hr2 : Region2) (hr3 : Region3) :
    W8 m ρ c (Proc.devRef .tc main_v80) = Cert.Sage.model (agg (m ((c.tc : Thread nD τ).loc main_arg1))) (m ((c.tc : Thread nD τ).loc main_arg0)) (m ((c.tc : Thread nD τ).loc main_arg2)) (m ((c.tc : Thread nD τ).loc main_arg3)) (m ((c.tc : Thread nD τ).loc main_arg4))
      (wsl0 (m ((c.tc : Thread nD τ).loc main_arg5))) (wsl0 (m ((c.tc : Thread nD τ).loc main_arg6))) (bsl0 (m ((c.tc : Thread nD τ).loc main_arg7))) (wsl1 (m ((c.tc : Thread nD τ).loc main_arg5))) (wsl1 (m ((c.tc : Thread nD τ).loc main_arg6))) (bsl1 (m ((c.tc : Thread nD τ).loc main_arg7))) (m ((c.tc : Thread nD τ).loc main_arg8)) (m ((c.tc : Thread nD τ).loc main_arg9)) (m ((c.tc : Thread nD τ).loc main_arg10)) := by
  refine ((W8_arr m ρ c 5).trans ?_).trans (out_eq_model m c)
  rw [hr3 (V7 m ρ) c]
  show Cert.Sage.logits (W7 m ρ c (Proc.devRef .tc main_v78)) (W7 m ρ c (Proc.devRef .tc main_v66)) (W7 m ρ c (Proc.devRef .tc main_arg8)) (W7 m ρ c (Proc.devRef .tc main_arg9))
      (fun j => W7 m ρ c (Proc.devRef .tc main_v79) (ix2 (0 : Fin 1) (j 0))) = _
  rw [s7_v78 m ρ c hr0 hr1 hr2, s7_v66 m ρ c hr0 hr1 hr2, s7_arg8 m ρ c, s7_arg9 m ρ c, s7_v79 m ρ c, row40_read]
  rfl

end Cert.KernelIdeal.KStage

end
-- ==== Proof.RegionValueDot.lean ====
/-
  A contraction of a block of rows with a weight matrix, read at one entry of the result: the sum over the
  shared axis of the products.  Stated for the two pairs of extents the four layers use: 128 columns into 128,
  and 128 columns into 40.
-/
import proofs.«152214_j24773371363384_1_alg».proof.Proof.Gen.KernelIdeal.Skeleton
import Idealize.ShloMosaic.PureOps.Ideal.Laws
import Idealize.ShloMosaic.Lib.ValueLayout

noncomputable section

namespace Cert.KernelIdeal.RegionValue

open Cert.KernelIdeal Idealize.ShloMosaic Idealize.ShloMosaic.ValueIdx

/-! ## 128 columns into 128 -/

abbrev dotD := dot_S5000x128_S128x128_S5000x128_1_0_0_1_n_n

theorem dotD_lhs0 (i : S5000x128.Idx) (q : dotD.contr.Idx) : (dotD.lhsIdx i q 0).val = (i 0).val := by
  unfold DotDims.lhsIdx
  rw [dif_neg (show ¬(0 : Fin S5000x128.rank) ∈ dotD.lhsBatch by decide), dif_pos (show (0 : Fin S5000x128.rank) ∈ dotD.lhsNonContracting by decide)]
  rfl

theorem dotD_lhs1 (i : S5000x128.Idx) (q : dotD.contr.Idx) : (dotD.lhsIdx i q 1).val = (q ⟨0, by decide⟩).val :=
  dotD.lhsIdx_val_of_single rfl i q

theorem dotD_rhs0 (i : S5000x128.Idx) (q : dotD.contr.Idx) : (dotD.rhsIdx i q 0).val = (q ⟨0, by decide⟩).val :=
  dotD.rhsIdx_val_of_single rfl i q

theorem dotD_rhs1 (i : S5000x128.Idx) (q : dotD.contr.Idx) : (dotD.rhsIdx i q 1).val = (i 1).val := by
  unfold DotDims.rhsIdx
  rw [dif_neg (show ¬(1 : Fin S128x128.rank) ∈ dotD.rhsBatch by decide), dif_pos (show (1 : Fin S128x128.rank) ∈ dotD.rhsNonContracting by decide)]
  rfl

/-- Entry (p, q) of rows times a 128 by 128 matrix, accumulated from zero: the sum over k of row p at k times
    the matrix at (k, q). -/
theorem matmulD_apply {φ₁ φ₂ : FTy} (a : FVec Ideal S5000x128 φ₁) (w : FVec Ideal S128x128 φ₂) (p : Fin 5000) (q : Fin 128) :
    matmul dotD none a w (constant (F := Ideal) S5000x128 .f32 0x00000000#32) (ix2 p q)
      = ∑ k : Fin 128, a (ix2 p k) * w (ix2 k q) := by
  simp only [matmul]
  rw [Ideal.matmul_constant_zero_apply, ← Equiv.sum_comp (contrEquiv1 dotD 128 rfl rfl).symm]
  refine Finset.sum_congr rfl fun k _ => ?_
  have hk := contrEquiv1_symm_val dotD 128 rfl rfl k
  have el : dotD.lhsIdx (ix2 p q) ((contrEquiv1 dotD 128 rfl rfl).symm k) = ix2 p k := funext fun a => Fin.ext (by
    match a with
    | ⟨0, _⟩ => exact dotD_lhs0 _ _
    | ⟨1, _⟩ => exact (dotD_lhs1 _ _).trans hk)
  have er : dotD.rhsIdx (ix2 p q) ((contrEquiv1 dotD 128 rfl rfl).symm k) = ix2 k q := funext fun a => Fin.ext (by
    match a with
    | ⟨0, _⟩ => exact (dotD_rhs0 _ _).trans hk
    | ⟨1, _⟩ => exact dotD_rhs1 _ _)
  rw [el, er]

/-! ## 128 columns into 40 -/

abbrev dotC := dot_S5000x128_S128x40_S5000x40_1_0_0_1_n_n

theorem dotC_lhs0 (i : S5000x40.Idx) (q : dotC.contr.Idx) : (dotC.lhsIdx i q 0).val = (i 0).val := by
  unfold DotDims.lhsIdx
  rw [dif_neg (show ¬(0 : Fin S5000x128.rank) ∈ dotC.lhsBatch by decide), dif_pos (show (0 : Fin S5000x128.rank) ∈ dotC.lhsNonContracting by decide)]
  rfl

theorem dotC_lhs1 (i : S5000x40.Idx) (q : dotC.contr.Idx) : (dotC.lhsIdx i q 1).val = (q ⟨0, by decide⟩).val :=
  dotC.lhsIdx_val_of_single rfl i q

theorem dotC_rhs0 (i : S5000x40.Idx) (q : dotC.contr.Idx) : (dotC.rhsIdx i q 0).val = (q ⟨0, by decide⟩).val :=
  dotC.rhsIdx_val_of_single rfl i q

theorem dotC_rhs1 (i : S5000x40.Idx) (q : dotC.contr.Idx) : (dotC.rhsIdx i q 1).val = (i 1).val := by
  unfold DotDims.rhsIdx
  rw [dif_neg (show ¬(1 : Fin S128x40.rank) ∈ dotC.rhsBatch by decide), dif_pos (show (1 : Fin S128x40.rank) ∈ dotC.rhsNonContracting by decide)]
  rfl

/-- Entry (p, q) of rows times a 128 by 40 matrix, accumulated from zero. -/
theorem matmulC_apply {φ₁ φ₂ : FTy} (a : FVec Ideal S5000x128 φ₁) (w : FVec Ideal S128x40 φ₂) (p : Fin 5000) (q : Fin 40) :
    matmul dotC none a w (constant (F := Ideal) S5000x40 .f32 0x00000000#32) (ix2 p q)
      = ∑ k : Fin 128, a (ix2 p k) * w (ix2 k q) := by
  simp only [matmul]
  rw [Ideal.matmul_constant_zero_apply, ← Equiv.sum_comp (contrEquiv1 dotC 128 rfl rfl).symm]
  refine Finset.sum_congr rfl fun k _ => ?_
  have hk := contrEquiv1_symm_val dotC 128 rfl rfl k
  have el : dotC.lhsIdx (ix2 p q) ((contrEquiv1 dotC 128 rfl rfl).symm k) = ix2 p k := funext fun a => Fin.ext (by
    match a with
    | ⟨0, _⟩ => exact dotC_lhs0 _ _
    | ⟨1, _⟩ => exact (dotC_lhs1 _ _).trans hk)
  have er : dotC.rhsIdx (ix2 p q) ((contrEquiv1 dotC 128 rfl rfl).symm k) = ix2 k q := funext fun a => Fin.ext (by
    match a with
    | ⟨0, _⟩ => exact (dotC_rhs0 _ _).trans hk
    | ⟨1, _⟩ => exact dotC_rhs1 _ _)
  rw [el, er]

end Cert.KernelIdeal.RegionValue

end
-- ==== Proof.RegionValueHidden.lean ====
/-
  The value a hidden layer's body stores, read at one entry: the leaky rectifier of the affine form of the
  two row blocks, the two weight matrices and the bias row.  The three hidden layers' bodies differ only by
  identity reshapes, so they read alike.
-/
import proofs.«152214_j24773371363384_1_alg».proof.Proof.RegionValueDot
import proofs.«152214_j24773371363384_1_alg».proof.Proof.Spec

noncomputable section

namespace Cert.KernelIdeal.RegionValue

open Cert.KernelIdeal Idealize.ShloMosaic Idealize.ShloMosaic.ValueIdx

/-- Choosing `y` where `0 < y` and the slope times `y` elsewhere is the leaky rectifier. -/
theorem leaky_select (y : EReal) :
    Scalar.select (FloatOps.cmpf (F := Ideal) (φ := .f32) .ogt y (Ideal.ofBits .f32 0x00000000#32)) y (Ideal.ofBits .f32 0x3DCCCCCD#32 * y)
      = Cert.Sage.leaky y := by
  rw [Ideal.ofBits_zero_f32, ← Cert.Sage.leaky_of_lt]
  show (if BitVec.ofBool (decide ((0 : EReal) < y)) = 1#1 then y else Ideal.ofBits .f32 0x3DCCCCCD#32 * y) = _
  by_cases h : (0 : EReal) < y
  · rw [if_pos h, decide_eq_true h]; rfl
  · rw [if_neg h, decide_eq_false h]; rfl

/-- The affine form at entry (p, q) of a block. -/
abbrev affD (a x : Vec Ideal S5000x128 .f32) (wl wr : Vec Ideal S128x128 .f32) (b : Vec Ideal S1x128 .f32)
    (p : Fin 5000) (q : Fin 128) : EReal :=
  (∑ k : Fin 128, a (ix2 p k) * wl (ix2 k q)) + (∑ k : Fin 128, x (ix2 p k) * wr (ix2 k q)) + b (ix2 (0 : Fin 1) q)

theorem pay0_apply (x0 x1 : Vec Ideal S5000x128 .f32) (x2 x3 : Vec Ideal S128x128 .f32) (x4 : Vec Ideal S1x128 .f32)
    (p : Fin 5000) (q : Fin 128) :
    Gen.k0_pay1 x0 x1 x2 x3 x4 (ix2 p q) = Cert.Sage.leaky (affD x0 x1 x2 x3 x4 p q) := by
  unfold Gen.k0_pay1
  simp only [shapeCast_self]
  refine (leaky_select _).trans (congrArg Cert.Sage.leaky ?_)
  rw [addf_apply, addf_apply, matmulD_apply, matmulD_apply, broadcastTo_1b_ab_apply]
  rfl

theorem pay1_apply (x0 x1 : Vec Ideal S5000x128 .f32) (x2 x3 : Vec Ideal S128x128 .f32) (x4 : Vec Ideal S1x128 .f32)
    (p : Fin 5000) (q : Fin 128) :
    Gen.k1_pay1 x0 x1 x2 x3 x4 (ix2 p q) = Cert.Sage.leaky (affD x0 x1 x2 x3 x4 p q) := by
  unfold Gen.k1_pay1
  simp only [shapeCast_self]
  refine (leaky_select _).trans (congrArg Cert.Sage.leaky ?_)
  rw [addf_apply, addf_apply, matmulD_apply, matmulD_apply, broadcastTo_1b_ab_apply]
  rfl

theorem pay2_apply (x0 x1 : Vec Ideal S5000x128 .f32) (x2 x3 : Vec Ideal S128x128 .f32) (x4 : Vec Ideal S1x128 .f32)
    (p : Fin 5000) (q : Fin 128) :
    Gen.k2_pay1 x0 x1 x2 x3 x4 (ix2 p q) = Cert.Sage.leaky (affD x0 x1 x2 x3 x4 p q) := by
  unfold Gen.k2_pay1
  simp only [shapeCast_self]
  refine (leaky_select _).trans (congrArg Cert.Sage.leaky ?_)
  rw [addf_apply, addf_apply, matmulD_apply, matmulD_apply, broadcastTo_1b_ab_apply]
  rfl

/-- The affine form of a block of 5000 rows starting at row `t * 5000`, over blocks that are those rows of the
    arrays `A` and `X` and the whole of the weights and bias, is the specification's at the array's row. -/
theorem hidden_block (A X : FVec Ideal Cert.Sage.SNxD .f32) (Wl Wr : FVec Ideal Cert.Sage.SDxD .f32) (B : FVec Ideal S1x128 .f32)
    (x0 x1 : Vec Ideal S5000x128 .f32) (x2 x3 : Vec Ideal S128x128 .f32) (x4 : Vec Ideal S1x128 .f32) (t : Nat)
    (h0 : ∀ (p : Fin 5000) (k : Fin 128) (r : Fin 50000), r.val = t * 5000 + p.val → x0 (ix2 p k) = A (ix2 r k))
    (h1 : ∀ (p : Fin 5000) (k : Fin 128) (r : Fin 50000), r.val = t * 5000 + p.val → x1 (ix2 p k) = X (ix2 r k))
    (h2 : x2 = Wl) (h3 : x3 = Wr) (h4 : x4 = B)
    (p : Fin 5000) (q : Fin 128) (r : Fin 50000) (hr : r.val = t * 5000 + p.val) :
    affD x0 x1 x2 x3 x4 p q = Cert.Sage.lin128 A X Wl Wr (fun j => B (ix2 (0 : Fin 1) (j 0))) r q := by
  subst h2 h3 h4
  unfold Cert.Sage.lin128
  show (∑ k : Fin 128, x0 (ix2 p k) * x2 (ix2 k q)) + (∑ k : Fin 128, x1 (ix2 p k) * x3 (ix2 k q)) + x4 (ix2 (0 : Fin 1) q)
    = (∑ k : Fin 128, A (ix2 r k) * x2 (ix2 k q)) + (∑ k : Fin 128, X (ix2 r k) * x3 (ix2 k q)) + x4 (ix2 (0 : Fin 1) q)
  have e0 : (fun k : Fin 128 => x0 (ix2 p k) * x2 (ix2 k q)) = fun k => A (ix2 r k) * x2 (ix2 k q) :=
    funext fun k => by rw [h0 p k r hr]
  have e1 : (fun k : Fin 128 => x1 (ix2 p k) * x3 (ix2 k q)) = fun k => X (ix2 r k) * x3 (ix2 k q) :=
    funext fun k => by rw [h1 p k r hr]
  rw [e0, e1]

end Cert.KernelIdeal.RegionValue

end
-- ==== Proof.RegionValueArr0.lean ====
/-
  The first hidden layer's output array after its region.  At grid point `t` the body sees rows
  `5000 t … 5000 t + 4999` of the two row arrays and the whole of the weights and the bias row, and writes
  back that block of rows of the layer's value; the ten blocks cover the array, so the array ends holding the
  specification's hidden layer of the arrays the region is entered with.
-/
import proofs.«152214_j24773371363384_1_alg».proof.Proof.Gen.KernelIdeal.Frame
import proofs.«152214_j24773371363384_1_alg».proof.Proof.RegionValueHidden
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- The windows' index maps, decided over the ten grid points: the two row windows and the output move one block
    of rows per point; the weights and the bias row stay at block zero. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The specification's hidden layer of the arrays the region is entered with. -/
abbrev G0 (c : Dev nD) : Buf (Elt Ideal) ((c : Thread nD τ).loc main_v26) :=
  Cert.Sage.hidden (V c main_v24) (V c main_arg0) (V c main_arg2) (V c main_arg3) (fun j => V c main_v25 (ix2 (0 : Fin 1) (j 0)))

/-- The block of aggregated rows at point `t` is rows `5000 t …` of its array. -/
theorem rows0_0 (c : Dev nD) (t : Fin cfg0.N) (p : Fin 5000) (k : Fin 128) (r : Fin 50000) (hr : r.val = t.val * 5000 + p.val) :
    (iblk0 V c 0 t : Vec Ideal S5000x128 .f32) (ix2 p k) = (V c main_v24 : FVec Ideal Cert.Sage.SNxD .f32) (ix2 r k) := by
  obtain ⟨e0, e1, -⟩ := idx_facts0 t
  unfold iblk0
  rw [View.read_apply]
  show V c main_v24 _ = V c main_v24 _
  congr 1
  funext a
  apply Fin.ext
  match a with
  | ⟨0, _⟩ => show win0_0.index t (0 : Fin 2) * 5000 + 1 * p.val = r.val; omega
  | ⟨1, _⟩ => show win0_0.index t (1 : Fin 2) * 128 + 1 * k.val = k.val; omega

/-- The block of node rows at point `t` is rows `5000 t …` of its array. -/
theorem rows0_1 (c : Dev nD) (t : Fin cfg0.N) (p : Fin 5000) (k : Fin 128) (r : Fin 50000) (hr : r.val = t.val * 5000 + p.val) :
    (iblk0 V c 1 t : Vec Ideal S5000x128 .f32) (ix2 p k) = (V c main_arg0 : FVec Ideal Cert.Sage.SNxD .f32) (ix2 r k) := by
  obtain ⟨-, -, e0, e1, -⟩ := idx_facts0 t
  unfold iblk0
  rw [View.read_apply]
  show V c main_arg0 _ = V c main_arg0 _
  congr 1
  funext a
  apply Fin.ext
  match a with
  | ⟨0, _⟩ => show win0_1.index t (0 : Fin 2) * 5000 + 1 * p.val = r.val; omega
  | ⟨1, _⟩ => show win0_1.index t (1 : Fin 2) * 128 + 1 * k.val = k.val; omega

/-- The left weights' block is the whole matrix at every point. -/
theorem whole0_2 (c : Dev nD) (t : Fin cfg0.N) :
    (iblk0 V c 2 t : Vec Ideal S128x128 .f32) = (V c main_arg2 : FVec Ideal Cert.Sage.SDxD .f32) := by
  obtain ⟨-, -, -, -, e0, e1, -⟩ := idx_facts0 t
  unfold iblk0
  funext y
  rw [View.read_apply]
  show V c main_arg2 _ = V c main_arg2 _
  congr 1
  funext a
  apply Fin.ext
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The right weights' block is the whole matrix at every point. -/
theorem whole0_3 (c : Dev nD) (t : Fin cfg0.N) :
    (iblk0 V c 3 t : Vec Ideal S128x128 .f32) = (V c main_arg3 : FVec Ideal Cert.Sage.SDxD .f32) := by
  obtain ⟨-, -, -, -, -, -, e0, e1, -⟩ := idx_facts0 t
  unfold iblk0
  funext y
  rw [View.read_apply]
  show V c main_arg3 _ = V c main_arg3 _
  congr 1
  funext a
  apply Fin.ext
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The bias row's block is the whole row at every point. -/
theorem whole0_4 (c : Dev nD) (t : Fin cfg0.N) :
    (iblk0 V c 4 t : Vec Ideal S1x128 .f32) = (V c main_v25 : FVec Ideal S1x128 .f32) := by
  obtain ⟨-, -, -, -, -, -, -, -, e0, e1, -⟩ := idx_facts0 t
  unfold iblk0
  funext y
  rw [View.read_apply]
  show V c main_v25 _ = V c main_v25 _
  congr 1
  funext a
  apply Fin.ext
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- What point `t` writes back is block `t` of the specification's hidden layer. -/
theorem flushed0_eq (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero hz0]
  simp only [View.ld_unit_zero (S := S5000x128) hz0, View.ld_unit_zero (S := S128x128) hz0, View.ld_unit_zero (S := S1x128) hz0]
  obtain ⟨-, -, -, -, -, -, -, -, -, -, e0, e1⟩ := idx_facts0 t
  funext j
  obtain ⟨p, q, rfl⟩ : ∃ (p : Fin 5000) (q : Fin 128), j = ix2 p q := ⟨j 0, j 1, eq_ix2 j⟩
  rw [View.read_apply]
  have hp : p.val < 5000 := p.isLt
  have ht : t.val < 10 := Nat.lt_of_lt_of_eq t.isLt N_0
  have hi : ((cfg0.win 5).blk t).view.emb (ix2 p q)
      = (ix2 (⟨t.val * 5000 + p.val, by omega⟩ : Fin 50000) q : Cert.Sage.SNxD.Idx) := by
    funext a
    apply Fin.ext
    match a with
    | ⟨0, _⟩ => show win0_5.index t (0 : Fin 2) * 5000 + 1 * p.val = t.val * 5000 + p.val; omega
    | ⟨1, _⟩ => show win0_5.index t (1 : Fin 2) * 128 + 1 * q.val = q.val; omega
  rw [hi]
  show Gen.k0_pay1 (iblk0 V c 0 t) (iblk0 V c 1 t) (iblk0 V c 2 t) (iblk0 V c 3 t) (iblk0 V c 4 t) (ix2 p q)
    = Cert.Sage.leaky (Cert.Sage.lin128 (V c main_v24) (V c main_arg0) (V c main_arg2) (V c main_arg3)
        (fun j => V c main_v25 (ix2 (0 : Fin 1) (j 0))) (⟨t.val * 5000 + p.val, by omega⟩ : Fin 50000) q)
  refine (pay0_apply (iblk0 V c 0 t) (iblk0 V c 1 t) (iblk0 V c 2 t) (iblk0 V c 3 t) (iblk0 V c 4 t) p q).trans ?_
  exact congrArg Cert.Sage.leaky (hidden_block (V c main_v24) (V c main_arg0) (V c main_arg2) (V c main_arg3) (V c main_v25)
    (iblk0 V c 0 t) (iblk0 V c 1 t) (iblk0 V c 2 t) (iblk0 V c 3 t) (iblk0 V c 4 t) t.val
    (rows0_0 V c t) (rows0_1 V c t) (whole0_2 V c t) (whole0_3 V c t) (whole0_4 V c t) p q ⟨t.val * 5000 + p.val, by omega⟩ rfl)

/-- An index of the output array is in point `t`'s block iff each coordinate is in the block's range on its axis. -/
theorem mem_blk0 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v26).slice (win0_5.rect t)).set ↔ _
  rw [View.set_slice_whole, Rect.mem_set_unit]
  exact Iff.rfl

/-- Row `r` of the output lies in the block of point `r / 5000`: the ten blocks cover the array. -/
theorem cover0 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  have htlt : (i 0).val / 5000 < cfg0.N := by rw [hN]; omega
  obtain ⟨-, -, -, -, -, -, -, -, -, -, e0, e1⟩ := idx_facts0 ⟨(i 0).val / 5000, htlt⟩
  refine ⟨⟨(i 0).val / 5000, htlt⟩, flush0_5 _, ?_⟩
  rw [mem_blk0]
  intro a
  match a with
  | ⟨0, _⟩ =>
    show win0_5.index ⟨(i 0).val / 5000, htlt⟩ (0 : Fin 2) * 5000 ≤ (i 0).val
      ∧ (i 0).val < win0_5.index ⟨(i 0).val / 5000, htlt⟩ (0 : Fin 2) * 5000 + 5000
    rw [e0]
    show (i 0).val / 5000 * 5000 ≤ (i 0).val ∧ (i 0).val < (i 0).val / 5000 * 5000 + 5000
    omega
  | ⟨1, _⟩ =>
    show win0_5.index ⟨(i 0).val / 5000, htlt⟩ (1 : Fin 2) * 128 ≤ (i 1).val
      ∧ (i 1).val < win0_5.index ⟨(i 0).val / 5000, htlt⟩ (1 : Fin 2) * 128 + 128
    rw [e1]
    omega

/-- The output array after the region: the specification's hidden layer of the arrays the region is entered with. -/
theorem final0 (c : Dev nD) :
    (dat0 V c).arrAt 5 cfg0.N
      = Cert.Sage.hidden (V c main_v24) (V c main_arg0) (V c main_arg2) (V c main_arg3) (fun j => V c main_v25 (ix2 (0 : Fin 1) (j 0))) :=
  (dat0 V c).arrAt_eq_of_cover 5 (G0 V c) (fun t _ => flushed0_eq V c t) (cover0)

end Cert.KernelIdeal.RegionValue

end
-- ==== Proof.RegionValueArr1.lean ====
/-
  The second hidden layer's output array after its region.  At grid point `t` the body sees rows
  `5000 t … 5000 t + 4999` of the two row arrays and the whole of the weights and the bias row, and writes
  back that block of rows of the layer's value; the ten blocks cover the array, so the array ends holding the
  specification's hidden layer of the arrays the region is entered with.
-/
import proofs.«152214_j24773371363384_1_alg».proof.Proof.Gen.KernelIdeal.Frame
import proofs.«152214_j24773371363384_1_alg».proof.Proof.RegionValueHidden
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- The windows' index maps, decided over the ten grid points: the two row windows and the output move one block
    of rows per point; the weights and the bias row stay at block zero. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The specification's hidden layer of the arrays the region is entered with. -/
abbrev G1 (c : Dev nD) : Buf (Elt Ideal) ((c : Thread nD τ).loc main_v46) :=
  Cert.Sage.hidden (V c main_v38) (V c main_v26) (V c main_v40) (V c main_v42) (fun j => V c main_v45 (ix2 (0 : Fin 1) (j 0)))

/-- The block of aggregated rows at point `t` is rows `5000 t …` of its array. -/
theorem rows1_0 (c : Dev nD) (t : Fin cfg1.N) (p : Fin 5000) (k : Fin 128) (r : Fin 50000) (hr : r.val = t.val * 5000 + p.val) :
    (iblk1 V c 0 t : Vec Ideal S5000x128 .f32) (ix2 p k) = (V c main_v38 : FVec Ideal Cert.Sage.SNxD .f32) (ix2 r k) := by
  obtain ⟨e0, e1, -⟩ := idx_facts1 t
  unfold iblk1
  rw [View.read_apply]
  show V c main_v38 _ = V c main_v38 _
  congr 1
  funext a
  apply Fin.ext
  match a with
  | ⟨0, _⟩ => show win1_0.index t (0 : Fin 2) * 5000 + 1 * p.val = r.val; omega
  | ⟨1, _⟩ => show win1_0.index t (1 : Fin 2) * 128 + 1 * k.val = k.val; omega

/-- The block of node rows at point `t` is rows `5000 t …` of its array. -/
theorem rows1_1 (c : Dev nD) (t : Fin cfg1.N) (p : Fin 5000) (k : Fin 128) (r : Fin 50000) (hr : r.val = t.val * 5000 + p.val) :
    (iblk1 V c 1 t : Vec Ideal S5000x128 .f32) (ix2 p k) = (V c main_v26 : FVec Ideal Cert.Sage.SNxD .f32) (ix2 r k) := by
  obtain ⟨-, -, e0, e1, -⟩ := idx_facts1 t
  unfold iblk1
  rw [View.read_apply]
  show V c main_v26 _ = V c main_v26 _
  congr 1
  funext a
  apply Fin.ext
  match a with
  | ⟨0, _⟩ => show win1_1.index t (0 : Fin 2) * 5000 + 1 * p.val = r.val; omega
  | ⟨1, _⟩ => show win1_1.index t (1 : Fin 2) * 128 + 1 * k.val = k.val; omega

/-- The left weights' block is the whole matrix at every point. -/
theorem whole1_2 (c : Dev nD) (t : Fin cfg1.N) :
    (iblk1 V c 2 t : Vec Ideal S128x128 .f32) = (V c main_v40 : FVec Ideal Cert.Sage.SDxD .f32) := by
  obtain ⟨-, -, -, -, e0, e1, -⟩ := idx_facts1 t
  unfold iblk1
  funext y
  rw [View.read_apply]
  show V c main_v40 _ = V c main_v40 _
  congr 1
  funext a
  apply Fin.ext
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The right weights' block is the whole matrix at every point. -/
theorem whole1_3 (c : Dev nD) (t : Fin cfg1.N) :
    (iblk1 V c 3 t : Vec Ideal S128x128 .f32) = (V c main_v42 : FVec Ideal Cert.Sage.SDxD .f32) := by
  obtain ⟨-, -, -, -, -, -, e0, e1, -⟩ := idx_facts1 t
  unfold iblk1
  funext y
  rw [View.read_apply]
  show V c main_v42 _ = V c main_v42 _
  congr 1
  funext a
  apply Fin.ext
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- The bias row's block is the whole row at every point. -/
theorem whole1_4 (c : Dev nD) (t : Fin cfg1.N) :
    (iblk1 V c 4 t : Vec Ideal S1x128 .f32) = (V c main_v45 : FVec Ideal S1x128 .f32) := by
  obtain ⟨-, -, -, -, -, -, -, -, e0, e1, -⟩ := idx_facts1 t
  unfold iblk1
  funext y
  rw [View.read_apply]
  show V c main_v45 _ = V c main_v45 _
  congr 1
  funext a
  apply Fin.ext
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- What point `t` writes back is block `t` of the specification's hidden layer. -/
theorem flushed1_eq (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero hz1]
  simp only [View.ld_unit_zero (S := S5000x128) hz1, View.ld_unit_zero (S := S128x128) hz1, View.ld_unit_zero (S := S1x128) hz1]
  obtain ⟨-, -, -, -, -, -, -, -, -, -, e0, e1⟩ := idx_facts1 t
  funext j
  obtain ⟨p, q, rfl⟩ : ∃ (p : Fin 5000) (q : Fin 128), j = ix2 p q := ⟨j 0, j 1, eq_ix2 j⟩
  rw [View.read_apply]
  have hp : p.val < 5000 := p.isLt
  have ht : t.val < 10 := Nat.lt_of_lt_of_eq t.isLt N_1
  have hi : ((cfg1.win 5).blk t).view.emb (ix2 p q)
      = (ix2 (⟨t.val * 5000 + p.val, by omega⟩ : Fin 50000) q : Cert.Sage.SNxD.Idx) := by
    funext a
    apply Fin.ext
    match a with
    | ⟨0, _⟩ => show win1_5.index t (0 : Fin 2) * 5000 + 1 * p.val = t.val * 5000 + p.val; omega
    | ⟨1, _⟩ => show win1_5.index t (1 : Fin 2) * 128 + 1 * q.val = q.val; omega
  rw [hi]
  show Gen.k1_pay1 (iblk1 V c 0 t) (iblk1 V c 1 t) (iblk1 V c 2 t) (iblk1 V c 3 t) (iblk1 V c 4 t) (ix2 p q)
    = Cert.Sage.leaky (Cert.Sage.lin128 (V c main_v38) (V c main_v26) (V c main_v40) (V c main_v42)
        (fun j => V c main_v45 (ix2 (0 : Fin 1) (j 0))) (⟨t.val * 5000 + p.val, by omega⟩ : Fin 50000) q)
  refine (pay1_apply (iblk1 V c 0 t) (iblk1 V c 1 t) (iblk1 V c 2 t) (iblk1 V c 3 t) (iblk1 V c 4 t) p q).trans ?_
  exact congrArg Cert.Sage.leaky (hidden_block (V c main_v38) (V c main_v26) (V c main_v40) (V c main_v42) (V c main_v45)
    (iblk1 V c 0 t) (iblk1 V c 1 t) (iblk1 V c 2 t) (iblk1 V c 3 t) (iblk1 V c 4 t) t.val
    (rows1_0 V c t) (rows1_1 V c t) (whole1_2 V c t) (whole1_3 V c t) (whole1_4 V c t) p q ⟨t.val * 5000 + p.val, by omega⟩ rfl)

/-- An index of the output array is in point `t`'s block iff each coordinate is in the block's range on its axis. -/
theorem mem_blk1 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v46).slice (win1_5.rect t)).set ↔ _
  rw [View.set_slice_whole, Rect.mem_set_unit]
  exact Iff.rfl

/-- Row `r` of the output lies in the block of point `r / 5000`: the ten blocks cover the array. -/
theorem cover1 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  have htlt : (i 0).val / 5000 < cfg1.N := by rw [hN]; omega
  obtain ⟨-, -, -, -, -, -, -, -, -, -, e0, e1⟩ := idx_facts1 ⟨(i 0).val / 5000, htlt⟩
  refine ⟨⟨(i 0).val / 5000, htlt⟩, flush1_5 _, ?_⟩
  rw [mem_blk1]
  intro a
  match a with
  | ⟨0, _⟩ =>
    show win1_5.index ⟨(i 0).val / 5000, htlt⟩ (0 : Fin 2) * 5000 ≤ (i 0).val
      ∧ (i 0).val < win1_5.index ⟨(i 0).val / 5000, htlt⟩ (0 : Fin 2) * 5000 + 5000
    rw [e0]
    show (i 0).val / 5000 * 5000 ≤ (i 0).val ∧ (i 0).val < (i 0).val / 5000 * 5000 + 5000
    omega
  | ⟨1, _⟩ =>
    show win1_5.index ⟨(i 0).val / 5000, htlt⟩ (1 : Fin 2) * 128 ≤ (i 1).val
      ∧ (i 1).val < win1_5.index ⟨(i 0).val / 5000, htlt⟩ (1 : Fin 2) * 128 + 128
    rw [e1]
    omega

/-- The output array after the region: the specification's hidden layer of the arrays the region is entered with. -/
theorem final1 (c : Dev nD) :
    (dat1 V c).arrAt 5 cfg1.N
      = Cert.Sage.hidden (V c main_v38) (V c main_v26) (V c main_v40) (V c main_v42) (fun j => V c main_v45 (ix2 (0 : Fin 1) (j 0))) :=
  (dat1 V c).arrAt_eq_of_cover 5 (G1 V c) (fun t _ => flushed1_eq V c t) (cover1)

end Cert.KernelIdeal.RegionValue

end
-- ==== Proof.RegionValueArr2.lean ====
/-
  The third hidden layer's output array after its region.  At grid point `t` the body sees rows
  `5000 t … 5000 t + 4999` of the two row arrays and the whole of the weights and the bias row, and writes
  back that block of rows of the layer's value; the ten blocks cover the array, so the array ends holding the
  specification's hidden layer of the arrays the region is entered with.
-/
import proofs.«152214_j24773371363384_1_alg».proof.Proof.Gen.KernelIdeal.Frame
import proofs.«152214_j24773371363384_1_alg».proof.Proof.RegionValueHidden
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The windows' index maps, decided over the ten grid points: the two row windows and the output move one block
    of rows per point; the weights and the bias row stay at block zero. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The specification's hidden layer of the arrays the region is entered with. -/
abbrev G2 (c : Dev nD) : Buf (Elt Ideal) ((c : Thread nD τ).loc main_v66) :=
  Cert.Sage.hidden (V c main_v58) (V c main_v46) (V c main_v60) (V c main_v62) (fun j => V c main_v65 (ix2 (0 : Fin 1) (j 0)))

/-- The block of aggregated rows at point `t` is rows `5000 t …` of its array. -/
theorem rows2_0 (c : Dev nD) (t : Fin cfg2.N) (p : Fin 5000) (k : Fin 128) (r : Fin 50000) (hr : r.val = t.val * 5000 + p.val) :
    (iblk2 V c 0 t : Vec Ideal S5000x128 .f32) (ix2 p k) = (V c main_v58 : FVec Ideal Cert.Sage.SNxD .f32) (ix2 r k) := by
  obtain ⟨e0, e1, -⟩ := idx_facts2 t
  unfold iblk2
  rw [View.read_apply]
  show V c main_v58 _ = V c main_v58 _
  congr 1
  funext a
  apply Fin.ext
  match a with
  | ⟨0, _⟩ => show win2_0.index t (0 : Fin 2) * 5000 + 1 * p.val = r.val; omega
  | ⟨1, _⟩ => show win2_0.index t (1 : Fin 2) * 128 + 1 * k.val = k.val; omega

/-- The block of node rows at point `t` is rows `5000 t …` of its array. -/
theorem rows2_1 (c : Dev nD) (t : Fin cfg2.N) (p : Fin 5000) (k : Fin 128) (r : Fin 50000) (hr : r.val = t.val * 5000 + p.val) :
    (iblk2 V c 1 t : Vec Ideal S5000x128 .f32) (ix2 p k) = (V c main_v46 : FVec Ideal Cert.Sage.SNxD .f32) (ix2 r k) := by
  obtain ⟨-, -, e0, e1, -⟩ := idx_facts2 t
  unfold iblk2
  rw [View.read_apply]
  show V c main_v46 _ = V c main_v46 _
  congr 1
  funext a
  apply Fin.ext
  match a with
  | ⟨0, _⟩ => show win2_1.index t (0 : Fin 2) * 5000 + 1 * p.val = r.val; omega
  | ⟨1, _⟩ => show win2_1.index t (1 : Fin 2) * 128 + 1 * k.val = k.val; omega

/-- The left weights' block is the whole matrix at every point. -/
theorem whole2_2 (c : Dev nD) (t : Fin cfg2.N) :
    (iblk2 V c 2 t : Vec Ideal S128x128 .f32) = (V c main_v60 : FVec Ideal Cert.Sage.SDxD .f32) := by
  obtain ⟨-, -, -, -, e0, e1, -⟩ := idx_facts2 t
  unfold iblk2
  funext y
  rw [View.read_apply]
  show V c main_v60 _ = V c main_v60 _
  congr 1
  funext a
  apply Fin.ext
  match a with
  | ⟨0, _⟩ => show win2_2.index t (0 : Fin 2) * 128 + 1 * (y 0).val = (y 0).val; omega
  | ⟨1, _⟩ => show win2_2.index t (1 : Fin 2) * 128 + 1 * (y 1).val = (y 1).val; omega

/-- The right weights' block is the whole matrix at every point. -/
theorem whole2_3 (c : Dev nD) (t : Fin cfg2.N) :
    (iblk2 V c 3 t : Vec Ideal S128x128 .f32) = (V c main_v62 : FVec Ideal Cert.Sage.SDxD .f32) := by
  obtain ⟨-, -, -, -, -, -, e0, e1, -⟩ := idx_facts2 t
  unfold iblk2
  funext y
  rw [View.read_apply]
  show V c main_v62 _ = V c main_v62 _
  congr 1
  funext a
  apply Fin.ext
  match a with
  | ⟨0, _⟩ => show win2_3.index t (0 : Fin 2) * 128 + 1 * (y 0).val = (y 0).val; omega
  | ⟨1, _⟩ => show win2_3.index t (1 : Fin 2) * 128 + 1 * (y 1).val = (y 1).val; omega

/-- The bias row's block is the whole row at every point. -/
theorem whole2_4 (c : Dev nD) (t : Fin cfg2.N) :
    (iblk2 V c 4 t : Vec Ideal S1x128 .f32) = (V c main_v65 : FVec Ideal S1x128 .f32) := by
  obtain ⟨-, -, -, -, -, -, -, -, e0, e1, -⟩ := idx_facts2 t
  unfold iblk2
  funext y
  rw [View.read_apply]
  show V c main_v65 _ = V c main_v65 _
  congr 1
  funext a
  apply Fin.ext
  match a with
  | ⟨0, _⟩ => show win2_4.index t (0 : Fin 2) * 1 + 1 * (y 0).val = (y 0).val; omega
  | ⟨1, _⟩ => show win2_4.index t (1 : Fin 2) * 128 + 1 * (y 1).val = (y 1).val; omega

/-- What point `t` writes back is block `t` of the specification's hidden layer. -/
theorem flushed2_eq (c : Dev nD) (t : Fin cfg2.N) :
    (dat2 V c).flushed 5 t = ((cfg2.win 5).blk t).view.read (Elt Ideal) (G2 V c) := by
  show (cfg2.win 5).cut (grid2.coords t) ((dat2 V c).after 5 t) = _
  rw [after2_5]
  unfold out2_5
  rw [View.canon_unit_zero hz2]
  simp only [View.ld_unit_zero (S := S5000x128) hz2, View.ld_unit_zero (S := S128x128) hz2, View.ld_unit_zero (S := S1x128) hz2]
  obtain ⟨-, -, -, -, -, -, -, -, -, -, e0, e1⟩ := idx_facts2 t
  funext j
  obtain ⟨p, q, rfl⟩ : ∃ (p : Fin 5000) (q : Fin 128), j = ix2 p q := ⟨j 0, j 1, eq_ix2 j⟩
  rw [View.read_apply]
  have hp : p.val < 5000 := p.isLt
  have ht : t.val < 10 := Nat.lt_of_lt_of_eq t.isLt N_2
  have hi : ((cfg2.win 5).blk t).view.emb (ix2 p q)
      = (ix2 (⟨t.val * 5000 + p.val, by omega⟩ : Fin 50000) q : Cert.Sage.SNxD.Idx) := by
    funext a
    apply Fin.ext
    match a with
    | ⟨0, _⟩ => show win2_5.index t (0 : Fin 2) * 5000 + 1 * p.val = t.val * 5000 + p.val; omega
    | ⟨1, _⟩ => show win2_5.index t (1 : Fin 2) * 128 + 1 * q.val = q.val; omega
  rw [hi]
  show Gen.k2_pay1 (iblk2 V c 0 t) (iblk2 V c 1 t) (iblk2 V c 2 t) (iblk2 V c 3 t) (iblk2 V c 4 t) (ix2 p q)
    = Cert.Sage.leaky (Cert.Sage.lin128 (V c main_v58) (V c main_v46) (V c main_v60) (V c main_v62)
        (fun j => V c main_v65 (ix2 (0 : Fin 1) (j 0))) (⟨t.val * 5000 + p.val, by omega⟩ : Fin 50000) q)
  refine (pay2_apply (iblk2 V c 0 t) (iblk2 V c 1 t) (iblk2 V c 2 t) (iblk2 V c 3 t) (iblk2 V c 4 t) p q).trans ?_
  exact congrArg Cert.Sage.leaky (hidden_block (V c main_v58) (V c main_v46) (V c main_v60) (V c main_v62) (V c main_v65)
    (iblk2 V c 0 t) (iblk2 V c 1 t) (iblk2 V c 2 t) (iblk2 V c 3 t) (iblk2 V c 4 t) t.val
    (rows2_0 V c t) (rows2_1 V c t) (whole2_2 V c t) (whole2_3 V c t) (whole2_4 V c t) p q ⟨t.val * 5000 + p.val, by omega⟩ rfl)

/-- An index of the output array is in point `t`'s block iff each coordinate is in the block's range on its axis. -/
theorem mem_blk2 (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v66).slice (win2_5.rect t)).set ↔ _
  rw [View.set_slice_whole, Rect.mem_set_unit]
  exact Iff.rfl

/-- Row `r` of the output lies in the block of point `r / 5000`: the ten blocks cover the array. -/
theorem cover2 (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 10 := N_2
  have htlt : (i 0).val / 5000 < cfg2.N := by rw [hN]; omega
  obtain ⟨-, -, -, -, -, -, -, -, -, -, e0, e1⟩ := idx_facts2 ⟨(i 0).val / 5000, htlt⟩
  refine ⟨⟨(i 0).val / 5000, htlt⟩, flush2_5 _, ?_⟩
  rw [mem_blk2]
  intro a
  match a with
  | ⟨0, _⟩ =>
    show win2_5.index ⟨(i 0).val / 5000, htlt⟩ (0 : Fin 2) * 5000 ≤ (i 0).val
      ∧ (i 0).val < win2_5.index ⟨(i 0).val / 5000, htlt⟩ (0 : Fin 2) * 5000 + 5000
    rw [e0]
    show (i 0).val / 5000 * 5000 ≤ (i 0).val ∧ (i 0).val < (i 0).val / 5000 * 5000 + 5000
    omega
  | ⟨1, _⟩ =>
    show win2_5.index ⟨(i 0).val / 5000, htlt⟩ (1 : Fin 2) * 128 ≤ (i 1).val
      ∧ (i 1).val < win2_5.index ⟨(i 0).val / 5000, htlt⟩ (1 : Fin 2) * 128 + 128
    rw [e1]
    omega

/-- The output array after the region: the specification's hidden layer of the arrays the region is entered with. -/
theorem final2 (c : Dev nD) :
    (dat2 V c).arrAt 5 cfg2.N
      = Cert.Sage.hidden (V c main_v58) (V c main_v46) (V c main_v60) (V c main_v62) (fun j => V c main_v65 (ix2 (0 : Fin 1) (j 0))) :=
  (dat2 V c).arrAt_eq_of_cover 5 (G2 V c) (fun t _ => flushed2_eq V c t) (cover2)

end Cert.KernelIdeal.RegionValue

end
-- ==== Proof.Payload3.lean ====
/-
  The read-out body's arithmetic at an index.  With `y` the block of affine values
  `Σ_k a[p,k]·wl[k,q] + Σ_k x[p,k]·wr[k,q] + b[q]`, the body stores `y[p,q] − max_q y[p,·]` less the logarithm of the
  row's sum of exponentials of those differences: the row maximum is a fold of `max` from −∞ along the row, the
  sum a plain sum along the row, and the two keep-dimension casts put a row's value in every column of the row.
-/
import proofs.«152214_j24773371363384_1_alg».proof.Proof.RegionValueDot
import proofs.«152214_j24773371363384_1_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.RegionValue

open Cert.KernelIdeal Idealize.ShloMosaic Idealize.ShloMosaic.ValueIdx

/-- The binary32 word of negative infinity denotes `⊥`. -/
theorem ofBits_neg_inf : Ideal.ofBits .f32 4286578688#32 = (⊥ : EReal) := by simp [Ideal.ofBits, Ideal.ieee]

/-- A row index with a column inserted on axis 1 is the pair. -/
theorem lift_row (hr : S5000x40.Reduces [1] S5000) (p : Fin 5000) (q : Fin 40) : hr.lift (ix1 p) q = ix2 p q := by
  funext a
  match a with
  | ⟨0, _⟩ => rfl
  | ⟨1, _⟩ => rfl

/-- One value per row, viewed as a column and broadcast along the rows, reads the row's value. -/
theorem col_apply (v : FVec Ideal S5000 .f32) (h1 : S5000.ShapeCasts S5000x1) (h2 : S5000x1.Broadcasts S5000x40)
    (p : Fin 5000) (q : Fin 40) :
    broadcastTo S5000x40 (shapeCast S5000x1 v h1) h2 (ix2 p q) = v (ix1 p) := by
  refine (broadcastTo_apply (shapeCast S5000x1 v h1) h2 (ix2 p q) (ix2 p (0 : Fin 1)) (fun a => ?_)).trans ?_
  · match a with
    | ⟨0, _⟩ => rfl
    | ⟨1, _⟩ => rfl
  · exact shapeCast_apply v h1 (ix2 p (0 : Fin 1)) (ix1 p) (by simp [Shape.rowMajor_val_one, Shape.rowMajor_val_two])

/-- The same under a logarithm taken on the column. -/
theorem col_log_apply (v : FVec Ideal S5000 .f32) (h1 : S5000.ShapeCasts S5000x1) (h2 : S5000x1.Broadcasts S5000x40)
    (p : Fin 5000) (q : Fin 40) :
    broadcastTo S5000x40 (log (shapeCast S5000x1 v h1)) h2 (ix2 p q) = Ideal.log (v (ix1 p)) := by
  refine (broadcastTo_apply (log (shapeCast S5000x1 v h1)) h2 (ix2 p q) (ix2 p (0 : Fin 1)) (fun a => ?_)).trans ?_
  · match a with
    | ⟨0, _⟩ => rfl
    | ⟨1, _⟩ => rfl
  · show Ideal.log (shapeCast S5000x1 v h1 (ix2 p (0 : Fin 1))) = _
    exact congrArg Ideal.log (shapeCast_apply v h1 (ix2 p (0 : Fin 1)) (ix1 p) (by simp [Shape.rowMajor_val_one, Shape.rowMajor_val_two]))

/-- A row's maximum from −∞. -/
theorem rowmax_apply (y : FVec Ideal S5000x40 .f32) (hr : S5000x40.Reduces [1] S5000) (hφ : FTy.f32 = FTy.f32 ∨ FTy.f32 = FTy.bf16)
    (hacc : (4286578688#32 : BitVec 32) = 4286578688#32) (p : Fin 5000) :
    multiReduction .maximumf [1] S5000 y 4286578688#32 hr hφ hacc (ix1 p) = Cert.Sage.rowMax (fun q => y (ix2 p q)) := by
  refine (Ideal.multiReduction_maximumf_single y 4286578688#32 hr hφ hacc (ix1 p)).trans ?_
  rw [Ideal.ofBits_def, ofBits_neg_inf]
  exact congrArg (fun f : Fin 40 → EReal => Finset.fold max ⊥ f Finset.univ) (funext fun q => congrArg y (lift_row hr p q))

/-- A row's sum. -/
theorem rowsum_apply (y : FVec Ideal S5000x40 .f32) (hr : S5000x40.Reduces [1] S5000) (hφ : FTy.f32 = FTy.f32 ∨ FTy.f32 = FTy.bf16)
    (hacc : (0#32 : BitVec 32) = 0#32) (p : Fin 5000) :
    multiReduction .add [1] S5000 y 0#32 hr hφ hacc (ix1 p) = ∑ q : Fin 40, y (ix2 p q) := by
  refine (Ideal.multiReduction_add_single y 0#32 hr hφ hacc (ix1 p)).trans ?_
  exact Finset.sum_congr rfl fun q _ => congrArg y (lift_row hr p q)

/-- The log-softmax of a block along its rows, at an index. -/
theorem lsm_apply (y : FVec Ideal S5000x40 .f32) (hr : S5000x40.Reduces [1] S5000) (hφ : FTy.f32 = FTy.f32 ∨ FTy.f32 = FTy.bf16)
    (hm : (4286578688#32 : BitVec 32) = 4286578688#32) (hz : (0#32 : BitVec 32) = 0#32)
    (h1 : S5000.ShapeCasts S5000x1) (h2 : S5000x1.Broadcasts S5000x40) (p : Fin 5000) (q : Fin 40) :
    subf (subf y (broadcastTo S5000x40 (shapeCast S5000x1 (multiReduction .maximumf [1] S5000 y 4286578688#32 hr hφ hm) h1) h2))
        (broadcastTo S5000x40 (log (shapeCast S5000x1 (multiReduction .add [1] S5000
          (exp (subf y (broadcastTo S5000x40 (shapeCast S5000x1 (multiReduction .maximumf [1] S5000 y 4286578688#32 hr hφ hm) h1) h2)))
          0#32 hr hφ hz) h1)) h2) (ix2 p q)
      = (y (ix2 p q) - Cert.Sage.rowMax (fun q => y (ix2 p q)))
          - Ideal.log (∑ q' : Fin 40, Ideal.exp (y (ix2 p q') - Cert.Sage.rowMax (fun q => y (ix2 p q)))) := by
  rw [subf_apply, subf_apply, col_apply, col_log_apply, rowmax_apply, rowsum_apply]
  refine congrArg (fun s => _ - Ideal.log s) (Finset.sum_congr rfl fun q' _ => ?_)
  show Ideal.exp (subf y _ (ix2 p q')) = _
  rw [subf_apply, col_apply, rowmax_apply]

/-- The affine part of the read-out on a block, at row `p`, class `q`. -/
def lin3 (x0 x1 : Vec Ideal S5000x128 .f32) (x2 x3 : Vec Ideal S128x40 .f32) (x4 : Vec Ideal S1x40 .f32)
    (p : Fin 5000) (q : Fin 40) : EReal :=
  (∑ k : Fin 128, x0 (ix2 p k) * x2 (ix2 k q)) + (∑ k : Fin 128, x1 (ix2 p k) * x3 (ix2 k q)) + x4 (ix2 (0 : Fin 1) q)

/-- The read-out body's stored value at an index. -/
theorem pay3_apply (x0 x1 : Vec Ideal S5000x128 .f32) (x2 x3 : Vec Ideal S128x40 .f32) (x4 : Vec Ideal S1x40 .f32)
    (p : Fin 5000) (q : Fin 40) :
    Gen.k3_pay1 x0 x1 x2 x3 x4 (ix2 p q)
      = (lin3 x0 x1 x2 x3 x4 p q - Cert.Sage.rowMax (lin3 x0 x1 x2 x3 x4 p))
          - Ideal.log (∑ q' : Fin 40, Ideal.exp (lin3 x0 x1 x2 x3 x4 p q' - Cert.Sage.rowMax (lin3 x0 x1 x2 x3 x4 p))) := by
  unfold Gen.k3_pay1
  simp only [shapeCast_self]
  generalize hy : addf (F := Ideal) (s := S5000x40) (φ := .f32) (addf _ _) (broadcastTo (s := S1x40) S5000x40 x4 _) = y
  have hyv : ∀ (p : Fin 5000) (q : Fin 40), y (ix2 p q) = lin3 x0 x1 x2 x3 x4 p q := by
    intro p q
    rw [← hy, addf_apply, addf_apply, matmulC_apply, matmulC_apply, broadcastTo_1b_ab_apply]
    rfl
  refine (lsm_apply y _ _ _ _ _ _ p q).trans ?_
  simp only [hyv]

end Cert.KernelIdeal.RegionValue

end
-- ==== Proof.RegionValueArr3.lean ====
/-
  The read-out's output array after its region.  At grid point `t` the body sees rows `5000 t … 5000 t + 4999`
  of the two row arrays and the whole of the weights and the bias row, and writes back that block of rows of the
  row-wise log-softmax of the affine values; the ten blocks cover the array, so the array ends holding the
  specification's read-out of the arrays the region is entered with.
-/
import proofs.«152214_j24773371363384_1_alg».proof.Proof.Gen.KernelIdeal.Frame
import proofs.«152214_j24773371363384_1_alg».proof.Proof.Payload3
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-- The affine row of a block of 5000 rows starting at row `t * 5000`, over blocks that are those rows of the
    arrays `A` and `X` and the whole of the weights and bias, is the specification's at the array's row. -/
theorem logits_block (A X : FVec Ideal Cert.Sage.SNxD .f32) (Wl Wr : FVec Ideal Cert.Sage.SDxC .f32) (B : FVec Ideal S1x40 .f32)
    (x0 x1 : Vec Ideal S5000x128 .f32) (x2 x3 : Vec Ideal S128x40 .f32) (x4 : Vec Ideal S1x40 .f32) (t : Nat)
    (h0 : ∀ (p : Fin 5000) (k : Fin 128) (r : Fin 50000), r.val = t * 5000 + p.val → x0 (ix2 p k) = A (ix2 r k))
    (h1 : ∀ (p : Fin 5000) (k : Fin 128) (r : Fin 50000), r.val = t * 5000 + p.val → x1 (ix2 p k) = X (ix2 r k))
    (h2 : x2 = Wl) (h3 : x3 = Wr) (h4 : x4 = B)
    (p : Fin 5000) (r : Fin 50000) (hr : r.val = t * 5000 + p.val) :
    lin3 x0 x1 x2 x3 x4 p = Cert.Sage.lin40 A X Wl Wr (fun j => B (ix2 (0 : Fin 1) (j 0))) r := by
  subst h2 h3 h4
  funext q
  unfold lin3 Cert.Sage.lin40
  show (∑ k : Fin 128, x0 (ix2 p k) * x2 (ix2 k q)) + (∑ k : Fin 128, x1 (ix2 p k) * x3 (ix2 k q)) + x4 (ix2 (0 : Fin 1) q)
    = (∑ k : Fin 128, A (ix2 r k) * x2 (ix2 k q)) + (∑ k : Fin 128, X (ix2 r k) * x3 (ix2 k q)) + x4 (ix2 (0 : Fin 1) q)
  have e0 : (fun k : Fin 128 => x0 (ix2 p k) * x2 (ix2 k q)) = fun k => A (ix2 r k) * x2 (ix2 k q) :=
    funext fun k => by rw [h0 p k r hr]
  have e1 : (fun k : Fin 128 => x1 (ix2 p k) * x3 (ix2 k q)) = fun k => X (ix2 r k) * x3 (ix2 k q) :=
    funext fun k => by rw [h1 p k r hr]
  rw [e0, e1]

variable (V : (c : Dev nD) → (b : Ref sig .tc) → Buf (Elt Ideal) ((c : Thread nD τ).loc b))

theorem hz3 : (![0, 0] : Fin 2 → Nat) = fun _ => 0 := funext fun a => by fin_cases a <;> rfl

/-- The windows' index maps, decided over the ten grid points: the two row windows and the output move one block
    of rows per point; the weights and the bias row stay at block zero. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The specification's read-out of the arrays the region is entered with. -/
abbrev G3 (c : Dev nD) : Buf (Elt Ideal) ((c : Thread nD τ).loc main_v80) :=
  Cert.Sage.logits (V c main_v78) (V c main_v66) (V c main_arg8) (V c main_arg9) (fun j => V c main_v79 (ix2 (0 : Fin 1) (j 0)))

/-- The block of aggregated rows at point `t` is rows `5000 t …` of its array. -/
theorem rows3_0 (c : Dev nD) (t : Fin cfg3.N) (p : Fin 5000) (k : Fin 128) (r : Fin 50000) (hr : r.val = t.val * 5000 + p.val) :
    (iblk3 V c 0 t : Vec Ideal S5000x128 .f32) (ix2 p k) = (V c main_v78 : FVec Ideal Cert.Sage.SNxD .f32) (ix2 r k) := by
  obtain ⟨e0, e1, -⟩ := idx_facts3 t
  unfold iblk3
  rw [View.read_apply]
  show V c main_v78 _ = V c main_v78 _
  congr 1
  funext a
  apply Fin.ext
  match a with
  | ⟨0, _⟩ => show win3_0.index t (0 : Fin 2) * 5000 + 1 * p.val = r.val; omega
  | ⟨1, _⟩ => show win3_0.index t (1 : Fin 2) * 128 + 1 * k.val = k.val; omega

/-- The block of node rows at point `t` is rows `5000 t …` of its array. -/
theorem rows3_1 (c : Dev nD) (t : Fin cfg3.N) (p : Fin 5000) (k : Fin 128) (r : Fin 50000) (hr : r.val = t.val * 5000 + p.val) :
    (iblk3 V c 1 t : Vec Ideal S5000x128 .f32) (ix2 p k) = (V c main_v66 : FVec Ideal Cert.Sage.SNxD .f32) (ix2 r k) := by
  obtain ⟨-, -, e0, e1, -⟩ := idx_facts3 t
  unfold iblk3
  rw [View.read_apply]
  show V c main_v66 _ = V c main_v66 _
  congr 1
  funext a
  apply Fin.ext
  match a with
  | ⟨0, _⟩ => show win3_1.index t (0 : Fin 2) * 5000 + 1 * p.val = r.val; omega
  | ⟨1, _⟩ => show win3_1.index t (1 : Fin 2) * 128 + 1 * k.val = k.val; omega

/-- The left weights' block is the whole matrix at every point. -/
theorem whole3_2 (c : Dev nD) (t : Fin cfg3.N) :
    (iblk3 V c 2 t : Vec Ideal S128x40 .f32) = (V c main_arg8 : FVec Ideal Cert.Sage.SDxC .f32) := by
  obtain ⟨-, -, -, -, e0, e1, -⟩ := idx_facts3 t
  unfold iblk3
  funext y
  rw [View.read_apply]
  show V c main_arg8 _ = V c main_arg8 _
  congr 1
  funext a
  apply Fin.ext
  match a with
  | ⟨0, _⟩ => show win3_2.index t (0 : Fin 2) * 128 + 1 * (y 0).val = (y 0).val; omega
  | ⟨1, _⟩ => show win3_2.index t (1 : Fin 2) * 40 + 1 * (y 1).val = (y 1).val; omega

/-- The right weights' block is the whole matrix at every point. -/
theorem whole3_3 (c : Dev nD) (t : Fin cfg3.N) :
    (iblk3 V c 3 t : Vec Ideal S128x40 .f32) = (V c main_arg9 : FVec Ideal Cert.Sage.SDxC .f32) := by
  obtain ⟨-, -, -, -, -, -, e0, e1, -⟩ := idx_facts3 t
  unfold iblk3
  funext y
  rw [View.read_apply]
  show V c main_arg9 _ = V c main_arg9 _
  congr 1
  funext a
  apply Fin.ext
  match a with
  | ⟨0, _⟩ => show win3_3.index t (0 : Fin 2) * 128 + 1 * (y 0).val = (y 0).val; omega
  | ⟨1, _⟩ => show win3_3.index t (1 : Fin 2) * 40 + 1 * (y 1).val = (y 1).val; omega

/-- The bias row's block is the whole row at every point. -/
theorem whole3_4 (c : Dev nD) (t : Fin cfg3.N) :
    (iblk3 V c 4 t : Vec Ideal S1x40 .f32) = (V c main_v79 : FVec Ideal S1x40 .f32) := by
  obtain ⟨-, -, -, -, -, -, -, -, e0, e1, -⟩ := idx_facts3 t
  unfold iblk3
  funext y
  rw [View.read_apply]
  show V c main_v79 _ = V c main_v79 _
  congr 1
  funext a
  apply Fin.ext
  match a with
  | ⟨0, _⟩ => show win3_4.index t (0 : Fin 2) * 1 + 1 * (y 0).val = (y 0).val; omega
  | ⟨1, _⟩ => show win3_4.index t (1 : Fin 2) * 40 + 1 * (y 1).val = (y 1).val; omega

/-- What point `t` writes back is block `t` of the specification's read-out. -/
theorem flushed3_eq (c : Dev nD) (t : Fin cfg3.N) :
    (dat3 V c).flushed 5 t = ((cfg3.win 5).blk t).view.read (Elt Ideal) (G3 V c) := by
  show (cfg3.win 5).cut (grid3.coords t) ((dat3 V c).after 5 t) = _
  rw [after3_5]
  unfold out3_5
  rw [View.canon_unit_zero hz3]
  simp only [View.ld_unit_zero (S := S5000x128) hz3, View.ld_unit_zero (S := S128x40) hz3, View.ld_unit_zero (S := S1x40) hz3]
  obtain ⟨-, -, -, -, -, -, -, -, -, -, e0, e1⟩ := idx_facts3 t
  funext j
  obtain ⟨p, q, rfl⟩ : ∃ (p : Fin 5000) (q : Fin 40), j = ix2 p q := ⟨j 0, j 1, eq_ix2 j⟩
  rw [View.read_apply]
  have hp : p.val < 5000 := p.isLt
  have ht : t.val < 10 := Nat.lt_of_lt_of_eq t.isLt N_3
  have hi : ((cfg3.win 5).blk t).view.emb (ix2 p q)
      = (ix2 (⟨t.val * 5000 + p.val, by omega⟩ : Fin 50000) q : Cert.Sage.SNxC.Idx) := by
    funext a
    apply Fin.ext
    match a with
    | ⟨0, _⟩ => show win3_5.index t (0 : Fin 2) * 5000 + 1 * p.val = t.val * 5000 + p.val; omega
    | ⟨1, _⟩ => show win3_5.index t (1 : Fin 2) * 40 + 1 * q.val = q.val; omega
  rw [hi]
  show Gen.k3_pay1 (iblk3 V c 0 t) (iblk3 V c 1 t) (iblk3 V c 2 t) (iblk3 V c 3 t) (iblk3 V c 4 t) (ix2 p q)
    = Cert.Sage.logits (V c main_v78) (V c main_v66) (V c main_arg8) (V c main_arg9)
        (fun j => V c main_v79 (ix2 (0 : Fin 1) (j 0))) (ix2 (⟨t.val * 5000 + p.val, by omega⟩ : Fin 50000) q)
  refine (pay3_apply (iblk3 V c 0 t) (iblk3 V c 1 t) (iblk3 V c 2 t) (iblk3 V c 3 t) (iblk3 V c 4 t) p q).trans ?_
  rw [logits_block (V c main_v78) (V c main_v66) (V c main_arg8) (V c main_arg9) (V c main_v79)
    (iblk3 V c 0 t) (iblk3 V c 1 t) (iblk3 V c 2 t) (iblk3 V c 3 t) (iblk3 V c 4 t) t.val
    (rows3_0 V c t) (rows3_1 V c t) (whole3_2 V c t) (whole3_3 V c t) (whole3_4 V c t) p ⟨t.val * 5000 + p.val, by omega⟩ rfl]
  rfl

/-- An index of the output array is in point `t`'s block iff each coordinate is in the block's range on its axis. -/
theorem mem_blk3 (t : Fin cfg3.N) (i : S50000x40.Idx) :
    i ∈ ((cfg3.win 5).blk t).view.set ↔ ∀ a : Fin 2, win3_5.index t a * S5000x40.size a ≤ (i a).val ∧ (i a).val < win3_5.index t a * S5000x40.size a + S5000x40.size a := by
  show i ∈ ((View.whole main_v80).slice (win3_5.rect t)).set ↔ _
  rw [View.set_slice_whole, Rect.mem_set_unit]
  exact Iff.rfl

/-- Row `r` of the output lies in the block of point `r / 5000`: the ten blocks cover the array. -/
theorem cover3 (i : S50000x40.Idx) :
    ∃ t : Fin cfg3.N, (cfg3.win 5).flush t = true ∧ i ∈ ((cfg3.win 5).blk t).view.set := by
  have hi0 : (i 0).val < 50000 := (i 0).isLt
  have hi1 : (i 1).val < 40 := (i 1).isLt
  have hN : cfg3.N = 10 := N_3
  have htlt : (i 0).val / 5000 < cfg3.N := by rw [hN]; omega
  obtain ⟨-, -, -, -, -, -, -, -, -, -, e0, e1⟩ := idx_facts3 ⟨(i 0).val / 5000, htlt⟩
  refine ⟨⟨(i 0).val / 5000, htlt⟩, flush3_5 _, ?_⟩
  rw [mem_blk3]
  intro a
  match a with
  | ⟨0, _⟩ =>
    show win3_5.index ⟨(i 0).val / 5000, htlt⟩ (0 : Fin 2) * 5000 ≤ (i 0).val
      ∧ (i 0).val < win3_5.index ⟨(i 0).val / 5000, htlt⟩ (0 : Fin 2) * 5000 + 5000
    rw [e0]
    show (i 0).val / 5000 * 5000 ≤ (i 0).val ∧ (i 0).val < (i 0).val / 5000 * 5000 + 5000
    omega
  | ⟨1, _⟩ =>
    show win3_5.index ⟨(i 0).val / 5000, htlt⟩ (1 : Fin 2) * 40 ≤ (i 1).val
      ∧ (i 1).val < win3_5.index ⟨(i 0).val / 5000, htlt⟩ (1 : Fin 2) * 40 + 40
    rw [e1]
    omega

/-- The output array after the region: the specification's read-out of the arrays the region is entered with. -/
theorem final3 (c : Dev nD) :
    (dat3 V c).arrAt 5 cfg3.N
      = Cert.Sage.logits (V c main_v78) (V c main_v66) (V c main_arg8) (V c main_arg9) (fun j => V c main_v79 (ix2 (0 : Fin 1) (j 0))) :=
  (dat3 V c).arrAt_eq_of_cover 5 (G3 V c) (fun t _ => flushed3_eq V c t) (cover3)

end Cert.KernelIdeal.RegionValue

end
-- ==== Proof.RefRun.lean ====
/-
  The reference network's @main as a list of its host operations, the outlined rectifier and log-softmax
  written out at their call sites, and its run read back: every weakly fair execution terminates with each
  buffer at the operations' fold over the launch contents.  The list is cut at the layers' boundaries: the edge
  endpoints and the inverse in-degree; the three hidden layers; the read-out.
-/
import proofs.«152214_j24773371363384_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The edge endpoints (rows 0 and 1 of the edge array) and the inverse of the in-degree clamped below at one. -/
abbrev opsA : List (HloOp τ sig (Elt F)) :=
  [ StableHlo.unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v2 main_v3 rfl shapeCasts_S1x600000_S600000,
    StableHlo.nullary main_cst (constant S_ .f32 0x3F800000#32),
    StableHlo.unary main_cst main_v4 (broadcastInDim S600000 ![] bcast_S_S600000 : (⟨S_, .f32⟩ : BufTy).Contents (Elt F) → (⟨S600000, .f32⟩ : BufTy).Contents (Elt F)),
    StableHlo.nullary main_cst_0 (constant S_ .f32 0x00000000#32),
    StableHlo.unary main_cst_0 main_v5 (broadcastInDim S50000 ![] bcast_S_S50000 : (⟨S_, .f32⟩ : BufTy).Contents (Elt F) → (⟨S50000, .f32⟩ : BufTy).Contents (Elt F)),
    StableHlo.unary main_v3 main_v6 (broadcastInDim S600000x1 ![0] bcast_S600000_S600000x1_0 : (⟨S600000, .i32⟩ : BufTy).Contents (Elt F) → (⟨S600000x1, .i32⟩ : BufTy).Contents (Elt F)),
    StableHlo.ternary main_v5 main_v6 main_v4 main_v7 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    StableHlo.nullary main_cst_1 (constant S_ .f32 0x3F800000#32),
    StableHlo.unary main_cst_1 main_v8 (broadcastInDim S50000 ![] bcast_S_S50000 : (⟨S_, .f32⟩ : BufTy).Contents (Elt F) → (⟨S50000, .f32⟩ : BufTy).Contents (Elt F)),
    StableHlo.binary main_v7 main_v8 main_v9 (maximumf : (⟨S50000, .f32⟩ : BufTy).Contents (Elt F) → (⟨S50000, .f32⟩ : BufTy).Contents (Elt F) → (⟨S50000, .f32⟩ : BufTy).Contents (Elt F)),
    StableHlo.nullary main_cst_2 (constant S_ .f32 0x3F800000#32),
    StableHlo.unary main_cst_2 main_v10 (broadcastInDim S50000 ![] bcast_S_S50000 : (⟨S_, .f32⟩ : BufTy).Contents (Elt F) → (⟨S50000, .f32⟩ : BufTy).Contents (Elt F)),
    StableHlo.binary main_v10 main_v9 main_v11 (Host.divf : (⟨S50000, .f32⟩ : BufTy).Contents (Elt F) → (⟨S50000, .f32⟩ : BufTy).Contents (Elt F) → (⟨S50000, .f32⟩ : BufTy).Contents (Elt F)),
    StableHlo.unary main_v11 main_v12 (broadcastInDim S50000x1 ![0] bcast_S50000_S50000x1_0 : (⟨S50000, .f32⟩ : BufTy).Contents (Elt F) → (⟨S50000x1, .f32⟩ : BufTy).Contents (Elt F)) ]

/-- The first hidden layer: the source indices wrapped, the gather, the sum into the targets, the division by the degree, the two products with the weights, the bias, the rectifier. -/
abbrev opsL0 : List (HloOp τ sig (Elt F)) :=
  [ StableHlo.nullary main_c (constantI S_ 32 0#32),
    StableHlo.unary main_c main_v13 (broadcastInDim S600000 ![] bcast_S_S600000 : (⟨S_, .i32⟩ : BufTy).Contents (Elt F) → (⟨S600000, .i32⟩ : BufTy).Contents (Elt F)),
    StableHlo.binary main_v1 main_v13 main_v14 (cmpi .slt : (⟨S600000, .i32⟩ : BufTy).Contents (Elt F) → (⟨S600000, .i32⟩ : BufTy).Contents (Elt F) → (⟨S600000, .i1⟩ : BufTy).Contents (Elt F)),
    StableHlo.nullary main_c_3 (constantI S_ 32 50000#32),
    StableHlo.unary main_c_3 main_v15 (broadcastInDim S600000 ![] bcast_S_S600000 : (⟨S_, .i32⟩ : BufTy).Contents (Elt F) → (⟨S600000, .i32⟩ : BufTy).Contents (Elt F)),
    StableHlo.binary main_v1 main_v15 main_v16 (addi : (⟨S600000, .i32⟩ : BufTy).Contents (Elt F) → (⟨S600000, .i32⟩ : BufTy).Contents (Elt F) → (⟨S600000, .i32⟩ : BufTy).Contents (Elt F)),
    StableHlo.ternary main_v14 main_v16 main_v1 main_v17 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v17 main_v18 (broadcastInDim S600000x1 ![0] bcast_S600000_S600000x1_0 : (⟨S600000, .i32⟩ : BufTy).Contents (Elt F) → (⟨S600000x1, .i32⟩ : BufTy).Contents (Elt F)),
    StableHlo.binary main_arg0 main_v18 main_v19 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst_4 (constant S_ .f32 0x00000000#32),
    StableHlo.unary main_cst_4 main_v20 (broadcastInDim S50000x128 ![] bcast_S_S50000x128 : (⟨S_, .f32⟩ : BufTy).Contents (Elt F) → (⟨S50000x128, .f32⟩ : BufTy).Contents (Elt F)),
    StableHlo.unary main_v3 main_v21 (broadcastInDim S600000x1 ![0] bcast_S600000_S600000x1_0 : (⟨S600000, .i32⟩ : BufTy).Contents (Elt F) → (⟨S600000x1, .i32⟩ : BufTy).Contents (Elt F)),
    StableHlo.ternary main_v20 main_v21 main_v19 main_v22 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.unary main_v12 main_v23 (broadcastInDim S50000x128 ![0, 1] bcast_S50000x1_S50000x128_0_1 : (⟨S50000x1, .f32⟩ : BufTy).Contents (Elt F) → (⟨S50000x128, .f32⟩ : BufTy).Contents (Elt F)),
    StableHlo.binary main_v22 main_v23 main_v24 (mulf : (⟨S50000x128, .f32⟩ : BufTy).Contents (Elt F) → (⟨S50000x128, .f32⟩ : BufTy).Contents (Elt F) → (⟨S50000x128, .f32⟩ : BufTy).Contents (Elt F)),
    StableHlo.binary main_v24 main_arg2 main_v25 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_arg0 main_arg3 main_v26 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v25 main_v26 main_v27 (addf : (⟨S50000x128, .f32⟩ : BufTy).Contents (Elt F) → (⟨S50000x128, .f32⟩ : BufTy).Contents (Elt F) → (⟨S50000x128, .f32⟩ : BufTy).Contents (Elt F)),
    StableHlo.unary main_arg4 main_v28 (broadcastInDim S1x128 ![1] bcast_S128_S1x128_1 : (⟨S128, .f32⟩ : BufTy).Contents (Elt F) → (⟨S1x128, .f32⟩ : BufTy).Contents (Elt F)),
    StableHlo.unary main_v28 main_v29 (broadcastInDim S50000x128 ![0, 1] bcast_S1x128_S50000x128_0_1 : (⟨S1x128, .f32⟩ : BufTy).Contents (Elt F) → (⟨S50000x128, .f32⟩ : BufTy).Contents (Elt F)),
    StableHlo.binary main_v27 main_v29 main_v30 (addf : (⟨S50000x128, .f32⟩ : BufTy).Contents (Elt F) → (⟨S50000x128, .f32⟩ : BufTy).Contents (Elt F) → (⟨S50000x128, .f32⟩ : BufTy).Contents (Elt F)),
    StableHlo.nullary main_cst_5 (constant S_ .f32 0x3DCCCCCD#32),
    StableHlo.TRef.nullary main_call0.cst (constant S_ .f32 0x00000000#32),
    StableHlo.TRef.unary main_call0.cst main_call0.v0 (broadcastInDim S50000x128 ![] bcast_S_S50000x128),
    StableHlo.TRef.binary (.of main_v30 : StableHlo.TRef sig ⟨S50000x128, .f32⟩) main_call0.v0 main_call0.v1 (cmpf .oge),
    StableHlo.TRef.unary (.of main_cst_5 : StableHlo.TRef sig ⟨S_, .f32⟩) main_call0.v2 id,
    StableHlo.TRef.unary main_call0.v2 main_call0.v3 (broadcastInDim S50000x128 ![] bcast_S_S50000x128),
    StableHlo.TRef.binary main_call0.v3 (.of main_v30 : StableHlo.TRef sig ⟨S50000x128, .f32⟩) main_call0.v4 mulf,
    StableHlo.TRef.ternary main_call0.v1 (.of main_v30 : StableHlo.TRef sig ⟨S50000x128, .f32⟩) main_call0.v4 main_call0.call0.v0 select ]

/-- The second hidden layer, up to the broadcast of the inverse degree: the weights' and the bias's first slices, the gather and the sum. -/
abbrev opsL1a : List (HloOp τ sig (Elt F)) :=
  [ StableHlo.unary main_arg5 main_v32 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v32 main_v33 rfl shapeCasts_S1x128x128_S128x128,
    StableHlo.unary main_arg6 main_v34 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v34 main_v35 rfl shapeCasts_S1x128x128_S128x128,
    StableHlo.unary main_arg7 main_v36 ((extractStridedSlice S1x128 ![0, 0] · slices_S2x128_S1x128_0_0) : (⟨S2x128, .f32⟩ : BufTy).Contents (Elt F) → (⟨S1x128, .f32⟩ : BufTy).Contents (Elt F)),
    StableHlo.reshape main_v36 main_v37 rfl shapeCasts_S1x128_S128,
    StableHlo.nullary main_c_6 (constantI S_ 32 0#32),
    StableHlo.unary main_c_6 main_v38 (broadcastInDim S600000 ![] bcast_S_S600000 : (⟨S_, .i32⟩ : BufTy).Contents (Elt F) → (⟨S600000, .i32⟩ : BufTy).Contents (Elt F)),
    StableHlo.binary main_v1 main_v38 main_v39 (cmpi .slt : (⟨S600000, .i32⟩ : BufTy).Contents (Elt F) → (⟨S600000, .i32⟩ : BufTy).Contents (Elt F) → (⟨S600000, .i1⟩ : BufTy).Contents (Elt F)),
    StableHlo.nullary main_c_7 (constantI S_ 32 50000#32),
    StableHlo.unary main_c_7 main_v40 (broadcastInDim S600000 ![] bcast_S_S600000 : (⟨S_, .i32⟩ : BufTy).Contents (Elt F) → (⟨S600000, .i32⟩ : BufTy).Contents (Elt F)),
    StableHlo.binary main_v1 main_v40 main_v41 (addi : (⟨S600000, .i32⟩ : BufTy).Contents (Elt F) → (⟨S600000, .i32⟩ : BufTy).Contents (Elt F) → (⟨S600000, .i32⟩ : BufTy).Contents (Elt F)),
    StableHlo.ternary main_v39 main_v41 main_v1 main_v42 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v42 main_v43 (broadcastInDim S600000x1 ![0] bcast_S600000_S600000x1_0 : (⟨S600000, .i32⟩ : BufTy).Contents (Elt F) → (⟨S600000x1, .i32⟩ : BufTy).Contents (Elt F)),
    StableHlo.binary main_v31 main_v43 main_v44 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst_8 (constant S_ .f32 0x00000000#32),
    StableHlo.unary main_cst_8 main_v45 (broadcastInDim S50000x128 ![] bcast_S_S50000x128 : (⟨S_, .f32⟩ : BufTy).Contents (Elt F) → (⟨S50000x128, .f32⟩ : BufTy).Contents (Elt F)),
    StableHlo.unary main_v3 main_v46 (broadcastInDim S600000x1 ![0] bcast_S600000_S600000x1_0 : (⟨S600000, .i32⟩ : BufTy).Contents (Elt F) → (⟨S600000x1, .i32⟩ : BufTy).Contents (Elt F)),
    StableHlo.ternary main_v45 main_v46 main_v44 main_v47 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.unary main_v12 main_v48 (broadcastInDim S50000x128 ![0, 1] bcast_S50000x1_S50000x128_0_1 : (⟨S50000x1, .f32⟩ : BufTy).Contents (Elt F) → (⟨S50000x128, .f32⟩ : BufTy).Contents (Elt F)) ]

/-- The second hidden layer, from the division by the degree on. -/
abbrev opsL1b : List (HloOp τ sig (Elt F)) :=
  [ StableHlo.binary main_v47 main_v48 main_v49 (mulf : (⟨S50000x128, .f32⟩ : BufTy).Contents (Elt F) → (⟨S50000x128, .f32⟩ : BufTy).Contents (Elt F) → (⟨S50000x128, .f32⟩ : BufTy).Contents (Elt F)),
    StableHlo.binary main_v49 main_v33 main_v50 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v31 main_v35 main_v51 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v50 main_v51 main_v52 (addf : (⟨S50000x128, .f32⟩ : BufTy).Contents (Elt F) → (⟨S50000x128, .f32⟩ : BufTy).Contents (Elt F) → (⟨S50000x128, .f32⟩ : BufTy).Contents (Elt F)),
    StableHlo.unary main_v37 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S50000x128 ![0, 1] bcast_S1x128_S50000x128_0_1 : (⟨S1x128, .f32⟩ : BufTy).Contents (Elt F) → (⟨S50000x128, .f32⟩ : BufTy).Contents (Elt F)),
    StableHlo.binary main_v52 main_v54 main_v55 (addf : (⟨S50000x128, .f32⟩ : BufTy).Contents (Elt F) → (⟨S50000x128, .f32⟩ : BufTy).Contents (Elt F) → (⟨S50000x128, .f32⟩ : BufTy).Contents (Elt F)),
    StableHlo.nullary main_cst_9 (constant S_ .f32 0x3DCCCCCD#32),
    StableHlo.TRef.nullary main_call1.cst (constant S_ .f32 0x00000000#32),
    StableHlo.TRef.unary main_call1.cst main_call1.v0 (broadcastInDim S50000x128 ![] bcast_S_S50000x128),
    StableHlo.TRef.binary (.of main_v55 : StableHlo.TRef sig ⟨S50000x128, .f32⟩) main_call1.v0 main_call1.v1 (cmpf .oge),
    StableHlo.TRef.unary (.of main_cst_9 : StableHlo.TRef sig ⟨S_, .f32⟩) main_call1.v2 id,
    StableHlo.TRef.unary main_call1.v2 main_call1.v3 (broadcastInDim S50000x128 ![] bcast_S_S50000x128),
    StableHlo.TRef.binary main_call1.v3 (.of main_v55 : StableHlo.TRef sig ⟨S50000x128, .f32⟩) main_call1.v4 mulf,
    StableHlo.TRef.ternary main_call1.v1 (.of main_v55 : StableHlo.TRef sig ⟨S50000x128, .f32⟩) main_call1.v4 main_call1.call0.v0 select ]

/-- The third hidden layer, over the second slices of the weights and the bias. -/
abbrev opsL2 : List (HloOp τ sig (Elt F)) :=
  [ StableHlo.unary main_arg5 main_v57 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v57 main_v58 rfl shapeCasts_S1x128x128_S128x128,
    StableHlo.unary main_arg6 main_v59 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v59 main_v60 rfl shapeCasts_S1x128x128_S128x128,
    StableHlo.unary main_arg7 main_v61 ((extractStridedSlice S1x128 ![1, 0] · slices_S2x128_S1x128_1_0) : (⟨S2x128, .f32⟩ : BufTy).Contents (Elt F) → (⟨S1x128, .f32⟩ : BufTy).Contents (Elt F)),
    StableHlo.reshape main_v61 main_v62 rfl shapeCasts_S1x128_S128,
    StableHlo.nullary main_c_10 (constantI S_ 32 0#32),
    StableHlo.unary main_c_10 main_v63 (broadcastInDim S600000 ![] bcast_S_S600000 : (⟨S_, .i32⟩ : BufTy).Contents (Elt F) → (⟨S600000, .i32⟩ : BufTy).Contents (Elt F)),
    StableHlo.binary main_v1 main_v63 main_v64 (cmpi .slt : (⟨S600000, .i32⟩ : BufTy).Contents (Elt F) → (⟨S600000, .i32⟩ : BufTy).Contents (Elt F) → (⟨S600000, .i1⟩ : BufTy).Contents (Elt F)),
    StableHlo.nullary main_c_11 (constantI S_ 32 50000#32),
    StableHlo.unary main_c_11 main_v65 (broadcastInDim S600000 ![] bcast_S_S600000 : (⟨S_, .i32⟩ : BufTy).Contents (Elt F) → (⟨S600000, .i32⟩ : BufTy).Contents (Elt F)),
    StableHlo.binary main_v1 main_v65 main_v66 (addi : (⟨S600000, .i32⟩ : BufTy).Contents (Elt F) → (⟨S600000, .i32⟩ : BufTy).Contents (Elt F) → (⟨S600000, .i32⟩ : BufTy).Contents (Elt F)),
    StableHlo.ternary main_v64 main_v66 main_v1 main_v67 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v67 main_v68 (broadcastInDim S600000x1 ![0] bcast_S600000_S600000x1_0 : (⟨S600000, .i32⟩ : BufTy).Contents (Elt F) → (⟨S600000x1, .i32⟩ : BufTy).Contents (Elt F)),
    StableHlo.binary main_v56 main_v68 main_v69 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst_12 (constant S_ .f32 0x00000000#32),
    StableHlo.unary main_cst_12 main_v70 (broadcastInDim S50000x128 ![] bcast_S_S50000x128 : (⟨S_, .f32⟩ : BufTy).Contents (Elt F) → (⟨S50000x128, .f32⟩ : BufTy).Contents (Elt F)),
    StableHlo.unary main_v3 main_v71 (broadcastInDim S600000x1 ![0] bcast_S600000_S600000x1_0 : (⟨S600000, .i32⟩ : BufTy).Contents (Elt F) → (⟨S600000x1, .i32⟩ : BufTy).Contents (Elt F)),
    StableHlo.ternary main_v70 main_v71 main_v69 main_v72 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.unary main_v12 main_v73 (broadcastInDim S50000x128 ![0, 1] bcast_S50000x1_S50000x128_0_1 : (⟨S50000x1, .f32⟩ : BufTy).Contents (Elt F) → (⟨S50000x128, .f32⟩ : BufTy).Contents (Elt F)),
    StableHlo.binary main_v72 main_v73 main_v74 (mulf : (⟨S50000x128, .f32⟩ : BufTy).Contents (Elt F) → (⟨S50000x128, .f32⟩ : BufTy).Contents (Elt F) → (⟨S50000x128, .f32⟩ : BufTy).Contents (Elt F)),
    StableHlo.binary main_v74 main_v58 main_v75 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v56 main_v60 main_v76 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v75 main_v76 main_v77 (addf : (⟨S50000x128, .f32⟩ : BufTy).Contents (Elt F) → (⟨S50000x128, .f32⟩ : BufTy).Contents (Elt F) → (⟨S50000x128, .f32⟩ : BufTy).Contents (Elt F)),
    StableHlo.unary main_v62 main_v78 (broadcastInDim S1x128 ![1] bcast_S128_S1x128_1 : (⟨S128, .f32⟩ : BufTy).Contents (Elt F) → (⟨S1x128, .f32⟩ : BufTy).Contents (Elt F)),
    StableHlo.unary main_v78 main_v79 (broadcastInDim S50000x128 ![0, 1] bcast_S1x128_S50000x128_0_1 : (⟨S1x128, .f32⟩ : BufTy).Contents (Elt F) → (⟨S50000x128, .f32⟩ : BufTy).Contents (Elt F)),
    StableHlo.binary main_v77 main_v79 main_v80 (addf : (⟨S50000x128, .f32⟩ : BufTy).Contents (Elt F) → (⟨S50000x128, .f32⟩ : BufTy).Contents (Elt F) → (⟨S50000x128, .f32⟩ : BufTy).Contents (Elt F)),
    StableHlo.nullary main_cst_13 (constant S_ .f32 0x3DCCCCCD#32),
    StableHlo.TRef.nullary main_call2.cst (constant S_ .f32 0x00000000#32),
    StableHlo.TRef.unary main_call2.cst main_call2.v0 (broadcastInDim S50000x128 ![] bcast_S_S50000x128),
    StableHlo.TRef.binary (.of main_v80 : StableHlo.TRef sig ⟨S50000x128, .f32⟩) main_call2.v0 main_call2.v1 (cmpf .oge),
    StableHlo.TRef.unary (.of main_cst_13 : StableHlo.TRef sig ⟨S_, .f32⟩) main_call2.v2 id,
    StableHlo.TRef.unary main_call2.v2 main_call2.v3 (broadcastInDim S50000x128 ![] bcast_S_S50000x128),
    StableHlo.TRef.binary main_call2.v3 (.of main_v80 : StableHlo.TRef sig ⟨S50000x128, .f32⟩) main_call2.v4 mulf,
    StableHlo.TRef.ternary main_call2.v1 (.of main_v80 : StableHlo.TRef sig ⟨S50000x128, .f32⟩) main_call2.v4 main_call2.call0.v0 select ]

/-- The read-out: the aggregation, the affine form into forty classes, and the log-softmax written out. -/
abbrev opsL3 : List (HloOp τ sig (Elt F)) :=
  [ StableHlo.nullary main_c_14 (constantI S_ 32 0#32),
    StableHlo.unary main_c_14 main_v82 (broadcastInDim S600000 ![] bcast_S_S600000 : (⟨S_, .i32⟩ : BufTy).Contents (Elt F) → (⟨S600000, .i32⟩ : BufTy).Contents (Elt F)),
    StableHlo.binary main_v1 main_v82 main_v83 (cmpi .slt : (⟨S600000, .i32⟩ : BufTy).Contents (Elt F) → (⟨S600000, .i32⟩ : BufTy).Contents (Elt F) → (⟨S600000, .i1⟩ : BufTy).Contents (Elt F)),
    StableHlo.nullary main_c_15 (constantI S_ 32 50000#32),
    StableHlo.unary main_c_15 main_v84 (broadcastInDim S600000 ![] bcast_S_S600000 : (⟨S_, .i32⟩ : BufTy).Contents (Elt F) → (⟨S600000, .i32⟩ : BufTy).Contents (Elt F)),
    StableHlo.binary main_v1 main_v84 main_v85 (addi : (⟨S600000, .i32⟩ : BufTy).Contents (Elt F) → (⟨S600000, .i32⟩ : BufTy).Contents (Elt F) → (⟨S600000, .i32⟩ : BufTy).Contents (Elt F)),
    StableHlo.ternary main_v83 main_v85 main_v1 main_v86 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v86 main_v87 (broadcastInDim S600000x1 ![0] bcast_S600000_S600000x1_0 : (⟨S600000, .i32⟩ : BufTy).Contents (Elt F) → (⟨S600000x1, .i32⟩ : BufTy).Contents (Elt F)),
    StableHlo.binary main_v81 main_v87 main_v88 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst_16 (constant S_ .f32 0x00000000#32),
    StableHlo.unary main_cst_16 main_v89 (broadcastInDim S50000x128 ![] bcast_S_S50000x128 : (⟨S_, .f32⟩ : BufTy).Contents (Elt F) → (⟨S50000x128, .f32⟩ : BufTy).Contents (Elt F)),
    StableHlo.unary main_v3 main_v90 (broadcastInDim S600000x1 ![0] bcast_S600000_S600000x1_0 : (⟨S600000, .i32⟩ : BufTy).Contents (Elt F) → (⟨S600000x1, .i32⟩ : BufTy).Contents (Elt F)),
    StableHlo.ternary main_v89 main_v90 main_v88 main_v91 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.unary main_v12 main_v92 (broadcastInDim S50000x128 ![0, 1] bcast_S50000x1_S50000x128_0_1 : (⟨S50000x1, .f32⟩ : BufTy).Contents (Elt F) → (⟨S50000x128, .f32⟩ : BufTy).Contents (Elt F)),
    StableHlo.binary main_v91 main_v92 main_v93 (mulf : (⟨S50000x128, .f32⟩ : BufTy).Contents (Elt F) → (⟨S50000x128, .f32⟩ : BufTy).Contents (Elt F) → (⟨S50000x128, .f32⟩ : BufTy).Contents (Elt F)),
    StableHlo.binary main_v93 main_arg8 main_v94 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)),
    StableHlo.binary main_v81 main_arg9 main_v95 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)),
    StableHlo.binary main_v94 main_v95 main_v96 (addf : (⟨S50000x40, .f32⟩ : BufTy).Contents (Elt F) → (⟨S50000x40, .f32⟩ : BufTy).Contents (Elt F) → (⟨S50000x40, .f32⟩ : BufTy).Contents (Elt F)),
    StableHlo.unary main_arg10 main_v97 (broadcastInDim S1x40 ![1] bcast_S40_S1x40_1 : (⟨S40, .f32⟩ : BufTy).Contents (Elt F) → (⟨S1x40, .f32⟩ : BufTy).Contents (Elt F)),
    StableHlo.unary main_v97 main_v98 (broadcastInDim S50000x40 ![0, 1] bcast_S1x40_S50000x40_0_1 : (⟨S1x40, .f32⟩ : BufTy).Contents (Elt F) → (⟨S50000x40, .f32⟩ : BufTy).Contents (Elt F)),
    StableHlo.binary main_v96 main_v98 main_v99 (addf : (⟨S50000x40, .f32⟩ : BufTy).Contents (Elt F) → (⟨S50000x40, .f32⟩ : BufTy).Contents (Elt F) → (⟨S50000x40, .f32⟩ : BufTy).Contents (Elt F)),
    StableHlo.TRef.nullary main_call3.cst (constant S_ .f32 0xFF800000#32),
    StableHlo.TRef.binary (.of main_v99 : StableHlo.TRef sig ⟨S50000x40, .f32⟩) main_call3.cst main_call3.v0 (fun x v => Host.reduce FloatOps.maximumf x v reducesTo_S50000x40_S50000_d1 h_S_),
    StableHlo.TRef.nullary main_call3.cst_0 (constant S_ .f32 0xFF800000#32),
    StableHlo.TRef.unary main_call3.cst_0 main_call3.v1 (broadcastInDim S50000 ![] bcast_S_S50000),
    StableHlo.TRef.binary main_call3.v1 main_call3.v0 main_call3.v2 maximumf,
    StableHlo.TRef.unary main_call3.v2 main_call3.v3 (broadcastInDim S50000x1 ![0] bcast_S50000_S50000x1_0),
    StableHlo.TRef.unary main_call3.v3 main_call3.v4 (broadcastInDim S50000x40 ![0, 1] bcast_S50000x1_S50000x40_0_1),
    StableHlo.TRef.binary (.of main_v99 : StableHlo.TRef sig ⟨S50000x40, .f32⟩) main_call3.v4 main_call3.v5 subf,
    StableHlo.TRef.unary main_call3.v5 main_call3.v6 Host.exp,
    StableHlo.TRef.nullary main_call3.cst_1 (constant S_ .f32 0x00000000#32),
    StableHlo.TRef.binary main_call3.v6 main_call3.cst_1 main_call3.v7 (fun x v => Host.reduceAdd x v reducesTo_S50000x40_S50000_d1 h_S_),
    StableHlo.TRef.unary main_call3.v7 main_call3.v8 (broadcastInDim S50000x1 ![0] bcast_S50000_S50000x1_0),
    StableHlo.TRef.unary main_call3.v8 main_call3.v9 Host.log,
    StableHlo.TRef.unary main_call3.v9 main_call3.v10 (broadcastInDim S50000x40 ![0, 1] bcast_S50000x1_S50000x40_0_1),
    StableHlo.TRef.binary main_call3.v5 main_call3.v10 main_call3.v11 subf ]

/-- @main's operations, in order. -/
abbrev ops : List (HloOp τ sig (Elt F)) := opsA ++ (opsL0 ++ (opsL1a ++ (opsL1b ++ (opsL2 ++ opsL3))))

set_option maxRecDepth 4096 in
/-- The first window of @main is the first three stretches. -/
theorem part0_eq (c : Dev nD) : main_part0 (F := F) c = seq (opsA ++ (opsL0 ++ opsL1a)) := by
  simp only [main_part0, fn_leaky_relu.body, fn_where.body, bind_assoc, pure_bind]
  rfl

set_option maxRecDepth 4096 in
/-- The second window of @main is the last three stretches. -/
theorem part1_eq (c : Dev nD) : main_part1 (F := F) c = seq (opsL1b ++ (opsL2 ++ opsL3)) := by
  simp only [main_part1, fn_leaky_relu.body, fn_where.body, fn_log_softmax.body, bind_assoc, pure_bind]
  rfl

/-- @main is the straight line of its operations. -/
theorem main_eq (c : Dev nD) : main (F := F) c = seq ops := by
  have e : (ops : List (HloOp τ sig (Elt F))) = (opsA ++ (opsL0 ++ opsL1a)) ++ (opsL1b ++ (opsL2 ++ opsL3)) := by
    simp only [ops, List.append_assoc]
  rw [e, seq_append, ← part0_eq c, ← part1_eq c]
  simp only [main, main_part2, bind_assoc, pure_bind, bind_pure]
  rfl

theorem opsA_sub : (opsA : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub ..⟩

theorem opsL0_sub : (opsL0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., binary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

theorem opsL1a_sub : (opsL1a : List (HloOp τ sig (Elt F))).Forall fun op => op.bufs ⊆ tcRefs τ sig :=
  ⟨unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub ..⟩

theorem opsL1b_sub : (opsL1b : List (HloOp τ sig (Elt F))).Forall fun op => op.bufs ⊆ tcRefs τ sig :=
  ⟨binary_bufs_sub .., binary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

theorem opsL2_sub : (opsL2 : List (HloOp τ sig (Elt F))).Forall fun op => op.bufs ⊆ tcRefs τ sig :=
  ⟨unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., binary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

theorem opsL3_sub : (opsL3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., binary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, List.forall_append]
  exact ⟨opsA_sub, opsL0_sub, opsL1a_sub, opsL1b_sub, opsL2_sub, opsL3_sub⟩

theorem opsA_fresh : ∀ op ∈ (opsA : List (HloOp τ sig (Elt F))), op.fresh = ∅ := by
  intro _ h; (repeat (cases h with | head => rfl | tail _ h => ?_)); exact nomatch h

theorem opsL0_fresh : ∀ op ∈ (opsL0 : List (HloOp τ sig (Elt F))), op.fresh = ∅ := by
  intro _ h; (repeat (cases h with | head => rfl | tail _ h => ?_)); exact nomatch h

theorem opsL1a_fresh : ∀ op ∈ (opsL1a : List (HloOp τ sig (Elt F))), op.fresh = ∅ := by
  intro _ h; (repeat (cases h with | head => rfl | tail _ h => ?_)); exact nomatch h

theorem opsL1b_fresh : ∀ op ∈ (opsL1b : List (HloOp τ sig (Elt F))), op.fresh = ∅ := by
  intro _ h; (repeat (cases h with | head => rfl | tail _ h => ?_)); exact nomatch h

theorem opsL2_fresh : ∀ op ∈ (opsL2 : List (HloOp τ sig (Elt F))), op.fresh = ∅ := by
  intro _ h; (repeat (cases h with | head => rfl | tail _ h => ?_)); exact nomatch h

theorem opsL3_fresh : ∀ op ∈ (opsL3 : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  simp only [ops, List.mem_append] at h
  rcases h with h | h | h | h | h | h
  exacts [opsA_fresh op h, opsL0_fresh op h, opsL1a_fresh op h, opsL1b_fresh op h, opsL2_fresh op h, opsL3_fresh op h]

/-- At the compiled mesh, for any float values, from any memory with zero counters: every weakly fair execution of
    @main terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefRunHost.lean ====
/-
  The reference network's host pieces at the extended reals, each the printed operations composed: the edge
  endpoints, the wrapped source indices, the inverse in-degree, the neighbourhood mean, the slices of the stacked
  weights and biases, and the terms of a hidden layer and of the read-out over given aggregated and node rows.
-/
import proofs.«152214_j24773371363384_1_alg».proof.Proof.Gen.ReferenceIdeal
import Idealize.ShloMosaic.PureOps.Ideal

noncomputable section

namespace Cert.ReferenceIdeal.RefRun

open Cert.ReferenceIdeal Cert.ReferenceIdeal.Gen Idealize.ShloMosaic

/-! ## The edges -/

/-- The source node of every edge: row 0 of the edge array. -/
def src (e : IVec S2x600000 32) : IVec S600000 32 :=
  shapeCast S600000 (extractStridedSlice S1x600000 ![0, 0] e slices_S2x600000_S1x600000_0_0) shapeCasts_S1x600000_S600000

/-- The target node of every edge: row 1 of the edge array. -/
def dst (e : IVec S2x600000 32) : IVec S600000 32 :=
  shapeCast S600000 (extractStridedSlice S1x600000 ![1, 0] e slices_S2x600000_S1x600000_1_0) shapeCasts_S1x600000_S600000

/-- An index vector with its negative entries moved up by the number of nodes. -/
def wrap (s : IVec S600000 32) : IVec S600000 32 :=
  select (cmpi .slt s (broadcastInDim S600000 ![] bcast_S_S600000 (constantI S_ 32 0#32)))
    (addi s (broadcastInDim S600000 ![] bcast_S_S600000 (constantI S_ 32 50000#32))) s

/-- The source indices, a negative one counted from the end. -/
def srcWrapped (e : IVec S2x600000 32) : IVec S600000 32 :=
  select (cmpi .slt (src e) (broadcastInDim S600000 ![] bcast_S_S600000 (constantI S_ 32 0#32)))
    (addi (src e) (broadcastInDim S600000 ![] bcast_S_S600000 (constantI S_ 32 50000#32))) (src e)

theorem srcWrapped_eq (e : IVec S2x600000 32) : srcWrapped e = wrap (src e) := rfl

/-- One over the in-degree clamped below at one, as a column, from the target indices. -/
def invOf (d : IVec S600000 32) : FVec Ideal S50000x1 .f32 :=
  broadcastInDim S50000x1 ![0] bcast_S50000_S50000x1_0
    (Host.divf (broadcastInDim S50000 ![] bcast_S_S50000 (constant (F := Ideal) S_ .f32 0x3F800000#32))
      (maximumf
        (Host.scatterAdd scatter_S50000_S600000x1_S600000_n_0_0_1
          (broadcastInDim S50000 ![] bcast_S_S50000 (constant (F := Ideal) S_ .f32 0x00000000#32))
          (broadcastInDim S600000x1 ![0] bcast_S600000_S600000x1_0 d)
          (broadcastInDim S600000 ![] bcast_S_S600000 (constant (F := Ideal) S_ .f32 0x3F800000#32)))
        (broadcastInDim S50000 ![] bcast_S_S50000 (constant (F := Ideal) S_ .f32 0x3F800000#32))))

/-- One over the in-degree clamped below at one, as a column. -/
def invCnt (e : IVec S2x600000 32) : FVec Ideal S50000x1 .f32 :=
  broadcastInDim S50000x1 ![0] bcast_S50000_S50000x1_0
    (Host.divf (broadcastInDim S50000 ![] bcast_S_S50000 (constant (F := Ideal) S_ .f32 0x3F800000#32))
      (maximumf
        (Host.scatterAdd scatter_S50000_S600000x1_S600000_n_0_0_1
          (broadcastInDim S50000 ![] bcast_S_S50000 (constant (F := Ideal) S_ .f32 0x00000000#32))
          (broadcastInDim S600000x1 ![0] bcast_S600000_S600000x1_0 (dst e))
          (broadcastInDim S600000 ![] bcast_S_S600000 (constant (F := Ideal) S_ .f32 0x3F800000#32)))
        (broadcastInDim S50000 ![] bcast_S_S50000 (constant (F := Ideal) S_ .f32 0x3F800000#32))))

theorem invCnt_eq (e : IVec S2x600000 32) : invCnt e = invOf (dst e) := rfl

/-- The neighbourhood mean from the source indices, the target indices and the inverse degree: the rows gathered at
    the wrapped sources, summed into the targets, scaled by the inverse degree. -/
def aggOf (s d : IVec S600000 32) (ic : FVec Ideal S50000x1 .f32) (h : FVec Ideal S50000x128 .f32) :
    FVec Ideal S50000x128 .f32 :=
  mulf
    (Host.scatterAdd scatter_S50000x128_S600000x1_S600000x128_1_0_0_1
      (broadcastInDim S50000x128 ![] bcast_S_S50000x128 (constant (F := Ideal) S_ .f32 0x00000000#32))
      (broadcastInDim S600000x1 ![0] bcast_S600000_S600000x1_0 d)
      (Host.gather gather_S50000x128_S600000x1_S600000x128_1_0_n_n_0_1_1128 h
        (broadcastInDim S600000x1 ![0] bcast_S600000_S600000x1_0 (wrap s))))
    (broadcastInDim S50000x128 ![0, 1] bcast_S50000x1_S50000x128_0_1 ic)

/-- The neighbourhood mean of the rows `h` along the edges `e`. -/
def agg (e : IVec S2x600000 32) (h : FVec Ideal S50000x128 .f32) : FVec Ideal S50000x128 .f32 :=
  mulf
    (Host.scatterAdd scatter_S50000x128_S600000x1_S600000x128_1_0_0_1
      (broadcastInDim S50000x128 ![] bcast_S_S50000x128 (constant (F := Ideal) S_ .f32 0x00000000#32))
      (broadcastInDim S600000x1 ![0] bcast_S600000_S600000x1_0 (dst e))
      (Host.gather gather_S50000x128_S600000x1_S600000x128_1_0_n_n_0_1_1128 h
        (broadcastInDim S600000x1 ![0] bcast_S600000_S600000x1_0 (srcWrapped e))))
    (broadcastInDim S50000x128 ![0, 1] bcast_S50000x1_S50000x128_0_1 (invCnt e))

theorem agg_eq (e : IVec S2x600000 32) (h : FVec Ideal S50000x128 .f32) :
    agg e h = aggOf (src e) (dst e) (invCnt e) h := rfl

/-! ## The stacked weights and biases -/

/-- The first of two stacked square weight matrices. -/
def wsl0 (w : FVec Ideal S2x128x128 .f32) : FVec Ideal S128x128 .f32 :=
  shapeCast S128x128 (extractStridedSlice S1x128x128 ![0, 0, 0] w slices_S2x128x128_S1x128x128_0_0_0) shapeCasts_S1x128x128_S128x128

/-- The second of two stacked square weight matrices. -/
def wsl1 (w : FVec Ideal S2x128x128 .f32) : FVec Ideal S128x128 .f32 :=
  shapeCast S128x128 (extractStridedSlice S1x128x128 ![1, 0, 0] w slices_S2x128x128_S1x128x128_1_0_0) shapeCasts_S1x128x128_S128x128

/-- The first of two stacked bias rows. -/
def bsl0 (b : FVec Ideal S2x128 .f32) : FVec Ideal S128 .f32 :=
  shapeCast S128 (extractStridedSlice S1x128 ![0, 0] b slices_S2x128_S1x128_0_0) shapeCasts_S1x128_S128

/-- The second of two stacked bias rows. -/
def bsl1 (b : FVec Ideal S2x128 .f32) : FVec Ideal S128 .f32 :=
  shapeCast S128 (extractStridedSlice S1x128 ![1, 0] b slices_S2x128_S1x128_1_0) shapeCasts_S1x128_S128

/-! ## A hidden layer's term -/

/-- The affine form into 128 columns: the aggregated rows times the left weights, the node rows times the right
    weights, the bias along every row. -/
def affine (a x : FVec Ideal S50000x128 .f32) (wl wr : FVec Ideal S128x128 .f32) (b : FVec Ideal S128 .f32) :
    FVec Ideal S50000x128 .f32 :=
  addf
    (addf (Host.dotGeneral dot_S50000x128_S128x128_S50000x128_1_0_0_1_n_n none a wl)
      (Host.dotGeneral dot_S50000x128_S128x128_S50000x128_1_0_0_1_n_n none x wr))
    (broadcastInDim S50000x128 ![0, 1] bcast_S1x128_S50000x128_0_1 (broadcastInDim S1x128 ![1] bcast_S128_S1x128_1 b))

/-- The rectifier as the reference computes it: where `y ≥ 0` the entry, elsewhere the slope times the entry. -/
def rect (y : FVec Ideal S50000x128 .f32) : FVec Ideal S50000x128 .f32 :=
  select (cmpf .oge y (broadcastInDim S50000x128 ![] bcast_S_S50000x128 (constant (F := Ideal) S_ .f32 0x00000000#32))) y
    (mulf (broadcastInDim S50000x128 ![] bcast_S_S50000x128 (id (constant (F := Ideal) S_ .f32 0x3DCCCCCD#32))) y)

/-- A hidden layer's term. -/
def hiddenT (a x : FVec Ideal S50000x128 .f32) (wl wr : FVec Ideal S128x128 .f32) (b : FVec Ideal S128 .f32) :
    FVec Ideal S50000x128 .f32 :=
  rect (affine a x wl wr b)

/-! ## The read-out's term -/

/-- The affine form into forty classes. -/
def affine40 (a x : FVec Ideal S50000x128 .f32) (wl wr : FVec Ideal S128x40 .f32) (b : FVec Ideal S40 .f32) :
    FVec Ideal S50000x40 .f32 :=
  addf
    (addf (Host.dotGeneral dot_S50000x128_S128x40_S50000x40_1_0_0_1_n_n none a wl)
      (Host.dotGeneral dot_S50000x128_S128x40_S50000x40_1_0_0_1_n_n none x wr))
    (broadcastInDim S50000x40 ![0, 1] bcast_S1x40_S50000x40_0_1 (broadcastInDim S1x40 ![1] bcast_S40_S1x40_1 b))

/-- Each row's maximum, folded from minus infinity and then bounded below by minus infinity once more. -/
def lsmMax (z : FVec Ideal S50000x40 .f32) : FVec Ideal S50000 .f32 :=
  maximumf (broadcastInDim S50000 ![] bcast_S_S50000 (constant (F := Ideal) S_ .f32 0xFF800000#32))
    (Host.reduce FloatOps.maximumf z (constant (F := Ideal) S_ .f32 0xFF800000#32) reducesTo_S50000x40_S50000_d1 h_S_)

/-- Each row less its maximum. -/
def lsmShift (z : FVec Ideal S50000x40 .f32) : FVec Ideal S50000x40 .f32 :=
  subf z (broadcastInDim S50000x40 ![0, 1] bcast_S50000x1_S50000x40_0_1
    (broadcastInDim S50000x1 ![0] bcast_S50000_S50000x1_0 (lsmMax z)))

/-- The log-softmax along the rows as the reference computes it. -/
def lsm (z : FVec Ideal S50000x40 .f32) : FVec Ideal S50000x40 .f32 :=
  subf (lsmShift z) (broadcastInDim S50000x40 ![0, 1] bcast_S50000x1_S50000x40_0_1
    (Host.log (broadcastInDim S50000x1 ![0] bcast_S50000_S50000x1_0
      (Host.reduceAdd (Host.exp (lsmShift z)) (constant (F := Ideal) S_ .f32 0x00000000#32) reducesTo_S50000x40_S50000_d1 h_S_))))

/-- The read-out's term. -/
def logitsT (a x : FVec Ideal S50000x128 .f32) (wl wr : FVec Ideal S128x40 .f32) (b : FVec Ideal S40 .f32) :
    FVec Ideal S50000x40 .f32 :=
  lsm (affine40 a x wl wr b)

end Cert.ReferenceIdeal.RefRun

end
-- ==== Proof.RefRunLayer.lean ====
/-
  The reference's hidden layer and read-out, read index by index over the extended reals, are the specification's
  `hidden` and `logits`: a product of matrices at (r, q) is the sum over the contracted coordinate, the bias is
  broadcast along the rows, the comparison with zero and the select are the rectifier, and the log-softmax's row
  maximum, shift, sum of exponentials and logarithm are the specification's, term for term.
-/
import proofs.«152214_j24773371363384_1_alg».proof.Proof.RefRunHost
import proofs.«152214_j24773371363384_1_alg».proof.Proof.Spec
import Idealize.ShloMosaic.Lib.StackMember
import Idealize.ShloMosaic.Lib.ValueIdx
import Idealize.ShloMosaic.PureOps.Ideal.Laws
import Idealize.ShloMosaic.PureOps.Reduce

noncomputable section

namespace Cert.ReferenceIdeal.RefRun

open Cert.ReferenceIdeal Cert.ReferenceIdeal.Gen Idealize.ShloMosaic Idealize.ShloMosaic.ValueIdx
open scoped BigOperators

/-! ## Words -/

theorem ofBits_neg_inf_f32 : Ideal.ofBits .f32 0xFF800000#32 = (⊥ : EReal) := by
  simp [Ideal.ofBits, Ideal.ieee]

/-! ## The products and the broadcasts at an index -/

/-- The 128-column product at (r, q): the sum over the contracted coordinate. -/
theorem dot128_apply (A : FVec Ideal S50000x128 .f32) (B : FVec Ideal S128x128 .f32) (r : Fin 50000) (q : Fin 128) :
    Host.dotGeneral dot_S50000x128_S128x128_S50000x128_1_0_0_1_n_n none A B (ix2 r q)
      = ∑ k : Fin 128, A (ix2 r k) * B (ix2 k q) :=
  StackMember.dotGeneral_plain_apply (m := 50000) (k := 128) (n := 128) none A B r q

/-- The 40-column product at (r, q). -/
theorem dot40_apply (A : FVec Ideal S50000x128 .f32) (B : FVec Ideal S128x40 .f32) (r : Fin 50000) (q : Fin 40) :
    Host.dotGeneral dot_S50000x128_S128x40_S50000x40_1_0_0_1_n_n none A B (ix2 r q)
      = ∑ k : Fin 128, A (ix2 r k) * B (ix2 k q) :=
  StackMember.dotGeneral_plain_apply (m := 50000) (k := 128) (n := 40) none A B r q

/-- A row vector of 128 entries broadcast along 50000 rows reads its entry at the column. -/
theorem bias128_apply {α : Type} (b : S128.Idx → α) (r : Fin 50000) (q : Fin 128) :
    broadcastInDim S50000x128 ![0, 1] bcast_S1x128_S50000x128_0_1 (broadcastInDim S1x128 ![1] bcast_S128_S1x128_1 b) (ix2 r q)
      = b (ix1 q) := by
  show b _ = b _
  congr 1
  funext a
  match a with
  | ⟨0, _⟩ => exact Fin.ext rfl

/-- A row vector of 40 entries broadcast along 50000 rows reads its entry at the column. -/
theorem bias40_apply {α : Type} (b : S40.Idx → α) (r : Fin 50000) (q : Fin 40) :
    broadcastInDim S50000x40 ![0, 1] bcast_S1x40_S50000x40_0_1 (broadcastInDim S1x40 ![1] bcast_S40_S1x40_1 b) (ix2 r q)
      = b (ix1 q) := by
  show b _ = b _
  congr 1
  funext a
  match a with
  | ⟨0, _⟩ => exact Fin.ext rfl

/-- A column broadcast along forty columns reads its entry at the row. -/
theorem col40_apply {α : Type} (w : S50000x1.Idx → α) (r : Fin 50000) (q : Fin 40) :
    broadcastInDim S50000x40 ![0, 1] bcast_S50000x1_S50000x40_0_1 w (ix2 r q) = w (ix2 r (0 : Fin 1)) := by
  show w _ = w _
  congr 1
  funext a
  match a with
  | ⟨0, _⟩ => exact Fin.ext rfl
  | ⟨1, _⟩ => exact Fin.ext rfl

/-- A vector over the rows as a column reads its entry at the row. -/
theorem asCol_apply {α : Type} (v : S50000.Idx → α) (r : Fin 50000) :
    broadcastInDim S50000x1 ![0] bcast_S50000_S50000x1_0 v (ix2 r (0 : Fin 1)) = v (ix1 r) := by
  show v _ = v _
  congr 1
  funext a
  match a with
  | ⟨0, _⟩ => exact Fin.ext rfl

/-! ## A hidden layer -/

/-- The affine form at (r, q). -/
theorem affine_apply (a x : FVec Ideal S50000x128 .f32) (wl wr : FVec Ideal S128x128 .f32) (b : FVec Ideal S128 .f32)
    (r : Fin 50000) (q : Fin 128) : affine a x wl wr b (ix2 r q) = Cert.Sage.lin128 a x wl wr b r q := by
  unfold affine
  rw [addf_apply, addf_apply, dot128_apply, dot128_apply, bias128_apply]
  rfl

/-- The reference's rectifier at an index. -/
theorem rect_apply (y : FVec Ideal S50000x128 .f32) (i : S50000x128.Idx) : rect y i = Cert.Sage.leaky (y i) := by
  show Scalar.select (Ideal.cmp .oge (y i) (Ideal.ofBits .f32 0x00000000#32)) (y i) (Ideal.ofBits .f32 0x3DCCCCCD#32 * y i) = _
  rw [Ideal.ofBits_zero_f32]
  have hc : Ideal.cmp .oge (y i) 0 = BitVec.ofBool (decide ((0 : EReal) ≤ y i)) := rfl
  rw [hc]
  show _ = if (0 : EReal) ≤ y i then y i else Ideal.ofBits .f32 0x3DCCCCCD#32 * y i
  by_cases h : (0 : EReal) ≤ y i
  · rw [if_pos h, decide_eq_true h]; exact select_one _ _
  · rw [if_neg h, decide_eq_false h]; exact select_zero _ _

/-- The reference's hidden layer is the specification's. -/
theorem hiddenT_eq (a x : FVec Ideal S50000x128 .f32) (wl wr : FVec Ideal S128x128 .f32) (b : FVec Ideal S128 .f32) :
    hiddenT a x wl wr b = Cert.Sage.hidden a x wl wr b := by
  funext i
  obtain ⟨r, q, rfl⟩ : ∃ (r : Fin 50000) (q : Fin 128), i = ix2 r q := ⟨i 0, i 1, eq_ix2 i⟩
  show rect (affine a x wl wr b) (ix2 r q) = Cert.Sage.leaky (Cert.Sage.lin128 a x wl wr b r q)
  rw [rect_apply, affine_apply]

/-! ## The read-out -/

/-- The affine form into forty classes at (r, q). -/
theorem affine40_apply (a x : FVec Ideal S50000x128 .f32) (wl wr : FVec Ideal S128x40 .f32) (b : FVec Ideal S40 .f32)
    (r : Fin 50000) (q : Fin 40) : affine40 a x wl wr b (ix2 r q) = Cert.Sage.lin40 a x wl wr b r q := by
  unfold affine40
  rw [addf_apply, addf_apply, dot40_apply, dot40_apply, bias40_apply]
  rfl

/-- The reduced index (r) with the class q inserted is (r, q). -/
theorem lift40 (h : S50000x40.Reduces [1] S50000) (r : Fin 50000) (q : Fin 40) : h.lift (ix1 r) q = ix2 r q := by
  funext c
  match c with
  | ⟨0, _⟩ => exact Fin.ext rfl
  | ⟨1, _⟩ => exact Fin.ext rfl

theorem reduces40 : S50000x40.Reduces [1] S50000 := by decide

/-- Each row's maximum is the fold of `max` from `⊥` over the forty classes. -/
theorem lsmMax_apply (z : FVec Ideal S50000x40 .f32) (r : Fin 50000) :
    lsmMax z (ix1 r) = Cert.Sage.rowMax fun q => z (ix2 r q) := by
  haveI : Std.Commutative (FloatOps.maximumf (F := Ideal) (φ := .f32)) := ⟨fun a b => max_comm a b⟩
  haveI : Std.Associative (FloatOps.maximumf (F := Ideal) (φ := .f32)) := ⟨fun a b c => max_assoc a b c⟩
  unfold lsmMax
  rw [maximumf_apply, Host.reduce_eq_fold_single FloatOps.maximumf z _ reducesTo_S50000x40_S50000_d1 reduces40 h_S_ (ix1 r)]
  have e : (z ∘ reduces40.lift (ix1 r)) = fun q : Fin 40 => z (ix2 r q) := funext fun q => congrArg z (lift40 reduces40 r q)
  rw [e]
  show max (Ideal.ofBits .f32 0xFF800000#32) ((Finset.univ : Finset (Fin 40)).fold max (Ideal.ofBits .f32 0xFF800000#32) fun q => z (ix2 r q)) = _
  rw [ofBits_neg_inf_f32]
  exact max_eq_right bot_le

/-- The shifted row at (r, q). -/
theorem lsmShift_apply (z : FVec Ideal S50000x40 .f32) (r : Fin 50000) (q : Fin 40) :
    lsmShift z (ix2 r q) = z (ix2 r q) - Cert.Sage.rowMax fun q' => z (ix2 r q') := by
  unfold lsmShift
  rw [subf_apply, col40_apply, asCol_apply, lsmMax_apply]

/-- The host's logarithm and exponential at an index. -/
theorem hostLog_apply {s : Shape} (w : FVec Ideal s .f32) (i : s.Idx) : Host.log w i = Ideal.log (w i) := rfl
theorem hostExp_apply {s : Shape} (w : FVec Ideal s .f32) (i : s.Idx) : Host.exp w i = Ideal.exp (w i) := rfl

/-- The host's sum over the classes from zero, at row r. -/
theorem reduceAdd40_apply (x : FVec Ideal S50000x40 .f32) (r : Fin 50000) :
    Host.reduceAdd x (constant (F := Ideal) S_ .f32 0x00000000#32) reducesTo_S50000x40_S50000_d1 h_S_ (ix1 r)
      = ∑ q : Fin 40, x (ix2 r q) := by
  show Ideal.hostReduceAdd reducesTo_S50000x40_S50000_d1 x (Ideal.ofBits .f32 0x00000000#32) (ix1 r) = _
  rw [Ideal.hostReduceAdd_single reducesTo_S50000x40_S50000_d1 reduces40, Ideal.ofBits_zero_f32, zero_add]
  exact Finset.sum_congr rfl fun q _ => congrArg x (lift40 reduces40 r q)

/-- The log-softmax at (r, q). -/
theorem lsm_apply (z : FVec Ideal S50000x40 .f32) (r : Fin 50000) (q : Fin 40) :
    lsm z (ix2 r q) = (z (ix2 r q) - Cert.Sage.rowMax fun q' => z (ix2 r q'))
      - Ideal.log (∑ q' : Fin 40, Ideal.exp (z (ix2 r q') - Cert.Sage.rowMax fun q'' => z (ix2 r q''))) := by
  unfold lsm
  rw [subf_apply, col40_apply, lsmShift_apply, hostLog_apply, asCol_apply, reduceAdd40_apply]
  simp only [hostExp_apply, lsmShift_apply]

/-- The reference's read-out is the specification's. -/
theorem logitsT_eq (a x : FVec Ideal S50000x128 .f32) (wl wr : FVec Ideal S128x40 .f32) (b : FVec Ideal S40 .f32) :
    logitsT a x wl wr b = Cert.Sage.logits a x wl wr b := by
  funext i
  obtain ⟨r, q, rfl⟩ : ∃ (r : Fin 50000) (q : Fin 40), i = ix2 r q := ⟨i 0, i 1, eq_ix2 i⟩
  have e : (fun q' : Fin 40 => affine40 a x wl wr b (ix2 r q')) = Cert.Sage.lin40 a x wl wr b r :=
    funext fun q' => affine40_apply a x wl wr b r q'
  show lsm (affine40 a x wl wr b) (ix2 r q) = _
  rw [lsm_apply, e, affine40_apply]
  simp only [affine40_apply]
  rfl

end Cert.ReferenceIdeal.RefRun

end
-- ==== Proof.RefRunAsm.lean ====
/-
  The reference's run assembled: the fold of @main's operations over the launch contents, read stretch by
  stretch.  After the first stretch the edge endpoints and the inverse in-degree are functions of the edge array;
  no later stretch writes them or an argument; each hidden stretch leaves the specification's layer of the rows
  before it, and the read-out stretch its log-softmax.  So the result buffer ends at the specification's network
  over the neighbourhood mean, and the arguments end as launched.
-/
import proofs.«152214_j24773371363384_1_alg».proof.Proof.RefRun
import proofs.«152214_j24773371363384_1_alg».proof.Proof.RefRunLayer

noncomputable section

namespace Cert.ReferenceIdeal.RefRun

open Cert.ReferenceIdeal Cert.ReferenceIdeal.Gen Idealize.ShloMosaic Idealize.ShloMosaic.TcCoe Idealize.SL.Sem Idealize.ShloMosaic.StableHlo

attribute [local irreducible] Host.scatterAdd Host.gather Host.reduce Host.reduceAdd Host.divf

/-! ## What each stretch writes -/

section Writes
variable {F : FTy → Type} [FloatOps F]

/-- An operation that writes the one buffer `y`, a member of the list `W`, writes within `W`. -/
theorem ws {W : List (Ref sig .tc)} {op : HloOp τ sig (Elt F)} (y : Ref sig .tc)
    (h : op.writes = {Proc.devRef .tc y}) (hy : y ∈ W) : op.writes ⊆ (W.map (Proc.devRef (τ := τ) .tc)).toFinset := by
  rw [h]
  exact Finset.singleton_subset_iff.mpr (List.mem_toFinset.mpr (List.mem_map.mpr ⟨y, hy, rfl⟩))

abbrev WA : List (Ref sig .tc) := [main_v0, main_v1, main_v2, main_v3, main_cst, main_v4, main_cst_0, main_v5, main_v6, main_v7, main_cst_1, main_v8, main_v9, main_cst_2, main_v10, main_v11, main_v12]
theorem writesA : (opsA : List (HloOp τ sig (Elt F))).Forall fun op => op.writes ⊆ ((WA).map (Proc.devRef (τ := τ) .tc)).toFinset :=
  ⟨ws main_v0 rfl (by decide), ws main_v1 rfl (by decide), ws main_v2 rfl (by decide), ws main_v3 rfl (by decide), ws main_cst rfl (by decide), ws main_v4 rfl (by decide), ws main_cst_0 rfl (by decide), ws main_v5 rfl (by decide), ws main_v6 rfl (by decide), ws main_v7 rfl (by decide), ws main_cst_1 rfl (by decide), ws main_v8 rfl (by decide), ws main_v9 rfl (by decide), ws main_cst_2 rfl (by decide), ws main_v10 rfl (by decide), ws main_v11 rfl (by decide), ws main_v12 rfl (by decide)⟩

abbrev WL0 : List (Ref sig .tc) := [main_c, main_v13, main_v14, main_c_3, main_v15, main_v16, main_v17, main_v18, main_v19, main_cst_4, main_v20, main_v21, main_v22, main_v23, main_v24, main_v25, main_v26, main_v27, main_v28, main_v29, main_v30, main_cst_5, main_call0_cst, main_call0_v0, main_call0_v1, main_call0_v2, main_call0_v3, main_call0_v4, main_v31]
theorem writesL0 : (opsL0 : List (HloOp τ sig (Elt F))).Forall fun op => op.writes ⊆ ((WL0).map (Proc.devRef (τ := τ) .tc)).toFinset :=
  ⟨ws main_c rfl (by decide), ws main_v13 rfl (by decide), ws main_v14 rfl (by decide), ws main_c_3 rfl (by decide), ws main_v15 rfl (by decide), ws main_v16 rfl (by decide), ws main_v17 rfl (by decide), ws main_v18 rfl (by decide), ws main_v19 rfl (by decide), ws main_cst_4 rfl (by decide), ws main_v20 rfl (by decide), ws main_v21 rfl (by decide), ws main_v22 rfl (by decide), ws main_v23 rfl (by decide), ws main_v24 rfl (by decide), ws main_v25 rfl (by decide), ws main_v26 rfl (by decide), ws main_v27 rfl (by decide), ws main_v28 rfl (by decide), ws main_v29 rfl (by decide), ws main_v30 rfl (by decide), ws main_cst_5 rfl (by decide), ws main_call0_cst rfl (by decide), ws main_call0_v0 rfl (by decide), ws main_call0_v1 rfl (by decide), ws main_call0_v2 rfl (by decide), ws main_call0_v3 rfl (by decide), ws main_call0_v4 rfl (by decide), ws main_v31 rfl (by decide)⟩

abbrev WL1a : List (Ref sig .tc) := [main_v32, main_v33, main_v34, main_v35, main_v36, main_v37, main_c_6, main_v38, main_v39, main_c_7, main_v40, main_v41, main_v42, main_v43, main_v44, main_cst_8, main_v45, main_v46, main_v47, main_v48]
theorem writesL1a : (opsL1a : List (HloOp τ sig (Elt F))).Forall fun op => op.writes ⊆ ((WL1a).map (Proc.devRef (τ := τ) .tc)).toFinset :=
  ⟨ws main_v32 rfl (by decide), ws main_v33 rfl (by decide), ws main_v34 rfl (by decide), ws main_v35 rfl (by decide), ws main_v36 rfl (by decide), ws main_v37 rfl (by decide), ws main_c_6 rfl (by decide), ws main_v38 rfl (by decide), ws main_v39 rfl (by decide), ws main_c_7 rfl (by decide), ws main_v40 rfl (by decide), ws main_v41 rfl (by decide), ws main_v42 rfl (by decide), ws main_v43 rfl (by decide), ws main_v44 rfl (by decide), ws main_cst_8 rfl (by decide), ws main_v45 rfl (by decide), ws main_v46 rfl (by decide), ws main_v47 rfl (by decide), ws main_v48 rfl (by decide)⟩

abbrev WL1b : List (Ref sig .tc) := [main_v49, main_v50, main_v51, main_v52, main_v53, main_v54, main_v55, main_cst_9, main_call1_cst, main_call1_v0, main_call1_v1, main_call1_v2, main_call1_v3, main_call1_v4, main_v56]
theorem writesL1b : (opsL1b : List (HloOp τ sig (Elt F))).Forall fun op => op.writes ⊆ ((WL1b).map (Proc.devRef (τ := τ) .tc)).toFinset :=
  ⟨ws main_v49 rfl (by decide), ws main_v50 rfl (by decide), ws main_v51 rfl (by decide), ws main_v52 rfl (by decide), ws main_v53 rfl (by decide), ws main_v54 rfl (by decide), ws main_v55 rfl (by decide), ws main_cst_9 rfl (by decide), ws main_call1_cst rfl (by decide), ws main_call1_v0 rfl (by decide), ws main_call1_v1 rfl (by decide), ws main_call1_v2 rfl (by decide), ws main_call1_v3 rfl (by decide), ws main_call1_v4 rfl (by decide), ws main_v56 rfl (by decide)⟩

abbrev WL2 : List (Ref sig .tc) := [main_v57, main_v58, main_v59, main_v60, main_v61, main_v62, main_c_10, main_v63, main_v64, main_c_11, main_v65, main_v66, main_v67, main_v68, main_v69, main_cst_12, main_v70, main_v71, main_v72, main_v73, main_v74, main_v75, main_v76, main_v77, main_v78, main_v79, main_v80, main_cst_13, main_call2_cst, main_call2_v0, main_call2_v1, main_call2_v2, main_call2_v3, main_call2_v4, main_v81]
theorem writesL2 : (opsL2 : List (HloOp τ sig (Elt F))).Forall fun op => op.writes ⊆ ((WL2).map (Proc.devRef (τ := τ) .tc)).toFinset :=
  ⟨ws main_v57 rfl (by decide), ws main_v58 rfl (by decide), ws main_v59 rfl (by decide), ws main_v60 rfl (by decide), ws main_v61 rfl (by decide), ws main_v62 rfl (by decide), ws main_c_10 rfl (by decide), ws main_v63 rfl (by decide), ws main_v64 rfl (by decide), ws main_c_11 rfl (by decide), ws main_v65 rfl (by decide), ws main_v66 rfl (by decide), ws main_v67 rfl (by decide), ws main_v68 rfl (by decide), ws main_v69 rfl (by decide), ws main_cst_12 rfl (by decide), ws main_v70 rfl (by decide), ws main_v71 rfl (by decide), ws main_v72 rfl (by decide), ws main_v73 rfl (by decide), ws main_v74 rfl (by decide), ws main_v75 rfl (by decide), ws main_v76 rfl (by decide), ws main_v77 rfl (by decide), ws main_v78 rfl (by decide), ws main_v79 rfl (by decide), ws main_v80 rfl (by decide), ws main_cst_13 rfl (by decide), ws main_call2_cst rfl (by decide), ws main_call2_v0 rfl (by decide), ws main_call2_v1 rfl (by decide), ws main_call2_v2 rfl (by decide), ws main_call2_v3 rfl (by decide), ws main_call2_v4 rfl (by decide), ws main_v81 rfl (by decide)⟩

abbrev WL3 : List (Ref sig .tc) := [main_c_14, main_v82, main_v83, main_c_15, main_v84, main_v85, main_v86, main_v87, main_v88, main_cst_16, main_v89, main_v90, main_v91, main_v92, main_v93, main_v94, main_v95, main_v96, main_v97, main_v98, main_v99, main_call3_cst, main_call3_v0, main_call3_cst_0, main_call3_v1, main_call3_v2, main_call3_v3, main_call3_v4, main_call3_v5, main_call3_v6, main_call3_cst_1, main_call3_v7, main_call3_v8, main_call3_v9, main_call3_v10, main_v100]
theorem writesL3 : (opsL3 : List (HloOp τ sig (Elt F))).Forall fun op => op.writes ⊆ ((WL3).map (Proc.devRef (τ := τ) .tc)).toFinset :=
  ⟨ws main_c_14 rfl (by decide), ws main_v82 rfl (by decide), ws main_v83 rfl (by decide), ws main_c_15 rfl (by decide), ws main_v84 rfl (by decide), ws main_v85 rfl (by decide), ws main_v86 rfl (by decide), ws main_v87 rfl (by decide), ws main_v88 rfl (by decide), ws main_cst_16 rfl (by decide), ws main_v89 rfl (by decide), ws main_v90 rfl (by decide), ws main_v91 rfl (by decide), ws main_v92 rfl (by decide), ws main_v93 rfl (by decide), ws main_v94 rfl (by decide), ws main_v95 rfl (by decide), ws main_v96 rfl (by decide), ws main_v97 rfl (by decide), ws main_v98 rfl (by decide), ws main_v99 rfl (by decide), ws main_call3_cst rfl (by decide), ws main_call3_v0 rfl (by decide), ws main_call3_cst_0 rfl (by decide), ws main_call3_v1 rfl (by decide), ws main_call3_v2 rfl (by decide), ws main_call3_v3 rfl (by decide), ws main_call3_v4 rfl (by decide), ws main_call3_v5 rfl (by decide), ws main_call3_v6 rfl (by decide), ws main_call3_cst_1 rfl (by decide), ws main_call3_v7 rfl (by decide), ws main_call3_v8 rfl (by decide), ws main_call3_v9 rfl (by decide), ws main_call3_v10 rfl (by decide), ws main_v100 rfl (by decide)⟩

/-- A buffer outside a list holding every buffer a stretch writes keeps its contents over the stretch. -/
theorem keptOf {F : FTy → Type} [FloatOps F] (l : List (HloOp τ sig (Elt F))) (Wl : List (Ref sig .tc))
    (hw : l.Forall fun op => op.writes ⊆ (Wl.map (Proc.devRef (τ := τ) .tc)).toFinset) (V : Valuation τ sig (Elt F))
    (r : Ref sig .tc) (hr : r ∉ Wl) : after l V (Proc.devRef .tc r) = V (Proc.devRef .tc r) :=
  after_of_writes_sub l V hw hr

end Writes

/-! ## The outlined functions' operations over the buffers themselves

An operation of an outlined function is stated over typed references; at a literal reference the transport along the
type equation is the identity, so each is the plain operation over the buffer. -/

section Plain
variable {F : FTy → Type} [FloatOps F]

/-- The stretch `opsL0` with the outlined functions' operations written over the buffers themselves. -/
abbrev opsL0p : List (HloOp τ sig (Elt F)) :=
  [ StableHlo.nullary main_c (constantI S_ 32 0#32),
    StableHlo.unary main_c main_v13 (broadcastInDim S600000 ![] bcast_S_S600000 : (⟨S_, .i32⟩ : BufTy).Contents (Elt F) → (⟨S600000, .i32⟩ : BufTy).Contents (Elt F)),
    StableHlo.binary main_v1 main_v13 main_v14 (cmpi .slt : (⟨S600000, .i32⟩ : BufTy).Contents (Elt F) → (⟨S600000, .i32⟩ : BufTy).Contents (Elt F) → (⟨S600000, .i1⟩ : BufTy).Contents (Elt F)),
    StableHlo.nullary main_c_3 (constantI S_ 32 50000#32),
    StableHlo.unary main_c_3 main_v15 (broadcastInDim S600000 ![] bcast_S_S600000 : (⟨S_, .i32⟩ : BufTy).Contents (Elt F) → (⟨S600000, .i32⟩ : BufTy).Contents (Elt F)),
    StableHlo.binary main_v1 main_v15 main_v16 (addi : (⟨S600000, .i32⟩ : BufTy).Contents (Elt F) → (⟨S600000, .i32⟩ : BufTy).Contents (Elt F) → (⟨S600000, .i32⟩ : BufTy).Contents (Elt F)),
    StableHlo.ternary main_v14 main_v16 main_v1 main_v17 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v17 main_v18 (broadcastInDim S600000x1 ![0] bcast_S600000_S600000x1_0 : (⟨S600000, .i32⟩ : BufTy).Contents (Elt F) → (⟨S600000x1, .i32⟩ : BufTy).Contents (Elt F)),
    StableHlo.binary main_arg0 main_v18 main_v19 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst_4 (constant S_ .f32 0x00000000#32),
    StableHlo.unary main_cst_4 main_v20 (broadcastInDim S50000x128 ![] bcast_S_S50000x128 : (⟨S_, .f32⟩ : BufTy).Contents (Elt F) → (⟨S50000x128, .f32⟩ : BufTy).Contents (Elt F)),
    StableHlo.unary main_v3 main_v21 (broadcastInDim S600000x1 ![0] bcast_S600000_S600000x1_0 : (⟨S600000, .i32⟩ : BufTy).Contents (Elt F) → (⟨S600000x1, .i32⟩ : BufTy).Contents (Elt F)),
    StableHlo.ternary main_v20 main_v21 main_v19 main_v22 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.unary main_v12 main_v23 (broadcastInDim S50000x128 ![0, 1] bcast_S50000x1_S50000x128_0_1 : (⟨S50000x1, .f32⟩ : BufTy).Contents (Elt F) → (⟨S50000x128, .f32⟩ : BufTy).Contents (Elt F)),
    StableHlo.binary main_v22 main_v23 main_v24 (mulf : (⟨S50000x128, .f32⟩ : BufTy).Contents (Elt F) → (⟨S50000x128, .f32⟩ : BufTy).Contents (Elt F) → (⟨S50000x128, .f32⟩ : BufTy).Contents (Elt F)),
    StableHlo.binary main_v24 main_arg2 main_v25 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_arg0 main_arg3 main_v26 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v25 main_v26 main_v27 (addf : (⟨S50000x128, .f32⟩ : BufTy).Contents (Elt F) → (⟨S50000x128, .f32⟩ : BufTy).Contents (Elt F) → (⟨S50000x128, .f32⟩ : BufTy).Contents (Elt F)),
    StableHlo.unary main_arg4 main_v28 (broadcastInDim S1x128 ![1] bcast_S128_S1x128_1 : (⟨S128, .f32⟩ : BufTy).Contents (Elt F) → (⟨S1x128, .f32⟩ : BufTy).Contents (Elt F)),
    StableHlo.unary main_v28 main_v29 (broadcastInDim S50000x128 ![0, 1] bcast_S1x128_S50000x128_0_1 : (⟨S1x128, .f32⟩ : BufTy).Contents (Elt F) → (⟨S50000x128, .f32⟩ : BufTy).Contents (Elt F)),
    StableHlo.binary main_v27 main_v29 main_v30 (addf : (⟨S50000x128, .f32⟩ : BufTy).Contents (Elt F) → (⟨S50000x128, .f32⟩ : BufTy).Contents (Elt F) → (⟨S50000x128, .f32⟩ : BufTy).Contents (Elt F)),
    StableHlo.nullary main_cst_5 (constant S_ .f32 0x3DCCCCCD#32),
    StableHlo.nullary main_call0_cst (constant S_ .f32 0x00000000#32),
    StableHlo.unary main_call0_cst main_call0_v0 (broadcastInDim S50000x128 ![] bcast_S_S50000x128 : (⟨S_, .f32⟩ : BufTy).Contents (Elt F) → (⟨S50000x128, .f32⟩ : BufTy).Contents (Elt F)),
    StableHlo.binary main_v30 main_call0_v0 main_call0_v1 (cmpf .oge : (⟨S50000x128, .f32⟩ : BufTy).Contents (Elt F) → (⟨S50000x128, .f32⟩ : BufTy).Contents (Elt F) → (⟨S50000x128, .i1⟩ : BufTy).Contents (Elt F)),
    StableHlo.unary main_cst_5 main_call0_v2 (id : (⟨S_, .f32⟩ : BufTy).Contents (Elt F) → (⟨S_, .f32⟩ : BufTy).Contents (Elt F)),
    StableHlo.unary main_call0_v2 main_call0_v3 (broadcastInDim S50000x128 ![] bcast_S_S50000x128 : (⟨S_, .f32⟩ : BufTy).Contents (Elt F) → (⟨S50000x128, .f32⟩ : BufTy).Contents (Elt F)),
    StableHlo.binary main_call0_v3 main_v30 main_call0_v4 (mulf : (⟨S50000x128, .f32⟩ : BufTy).Contents (Elt F) → (⟨S50000x128, .f32⟩ : BufTy).Contents (Elt F) → (⟨S50000x128, .f32⟩ : BufTy).Contents (Elt F)),
    StableHlo.ternary main_call0_v1 main_v30 main_call0_v4 main_v31 (select : (⟨S50000x128, .i1⟩ : BufTy).Contents (Elt F) → (⟨S50000x128, .f32⟩ : BufTy).Contents (Elt F) → (⟨S50000x128, .f32⟩ : BufTy).Contents (Elt F) → (⟨S50000x128, .f32⟩ : BufTy).Contents (Elt F)) ]

set_option maxRecDepth 8192 in
theorem opsL0_plain : (opsL0 : List (HloOp τ sig (Elt F))) = opsL0p := rfl

/-- The stretch `opsL1b` with the outlined functions' operations written over the buffers themselves. -/
abbrev opsL1bp : List (HloOp τ sig (Elt F)) :=
  [ StableHlo.binary main_v47 main_v48 main_v49 (mulf : (⟨S50000x128, .f32⟩ : BufTy).Contents (Elt F) → (⟨S50000x128, .f32⟩ : BufTy).Contents (Elt F) → (⟨S50000x128, .f32⟩ : BufTy).Contents (Elt F)),
    StableHlo.binary main_v49 main_v33 main_v50 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v31 main_v35 main_v51 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v50 main_v51 main_v52 (addf : (⟨S50000x128, .f32⟩ : BufTy).Contents (Elt F) → (⟨S50000x128, .f32⟩ : BufTy).Contents (Elt F) → (⟨S50000x128, .f32⟩ : BufTy).Contents (Elt F)),
    StableHlo.unary main_v37 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S50000x128 ![0, 1] bcast_S1x128_S50000x128_0_1 : (⟨S1x128, .f32⟩ : BufTy).Contents (Elt F) → (⟨S50000x128, .f32⟩ : BufTy).Contents (Elt F)),
    StableHlo.binary main_v52 main_v54 main_v55 (addf : (⟨S50000x128, .f32⟩ : BufTy).Contents (Elt F) → (⟨S50000x128, .f32⟩ : BufTy).Contents (Elt F) → (⟨S50000x128, .f32⟩ : BufTy).Contents (Elt F)),
    StableHlo.nullary main_cst_9 (constant S_ .f32 0x3DCCCCCD#32),
    StableHlo.nullary main_call1_cst (constant S_ .f32 0x00000000#32),
    StableHlo.unary main_call1_cst main_call1_v0 (broadcastInDim S50000x128 ![] bcast_S_S50000x128 : (⟨S_, .f32⟩ : BufTy).Contents (Elt F) → (⟨S50000x128, .f32⟩ : BufTy).Contents (Elt F)),
    StableHlo.binary main_v55 main_call1_v0 main_call1_v1 (cmpf .oge : (⟨S50000x128, .f32⟩ : BufTy).Contents (Elt F) → (⟨S50000x128, .f32⟩ : BufTy).Contents (Elt F) → (⟨S50000x128, .i1⟩ : BufTy).Contents (Elt F)),
    StableHlo.unary main_cst_9 main_call1_v2 (id : (⟨S_, .f32⟩ : BufTy).Contents (Elt F) → (⟨S_, .f32⟩ : BufTy).Contents (Elt F)),
    StableHlo.unary main_call1_v2 main_call1_v3 (broadcastInDim S50000x128 ![] bcast_S_S50000x128 : (⟨S_, .f32⟩ : BufTy).Contents (Elt F) → (⟨S50000x128, .f32⟩ : BufTy).Contents (Elt F)),
    StableHlo.binary main_call1_v3 main_v55 main_call1_v4 (mulf : (⟨S50000x128, .f32⟩ : BufTy).Contents (Elt F) → (⟨S50000x128, .f32⟩ : BufTy).Contents (Elt F) → (⟨S50000x128, .f32⟩ : BufTy).Contents (Elt F)),
    StableHlo.ternary main_call1_v1 main_v55 main_call1_v4 main_v56 (select : (⟨S50000x128, .i1⟩ : BufTy).Contents (Elt F) → (⟨S50000x128, .f32⟩ : BufTy).Contents (Elt F) → (⟨S50000x128, .f32⟩ : BufTy).Contents (Elt F) → (⟨S50000x128, .f32⟩ : BufTy).Contents (Elt F)) ]

set_option maxRecDepth 8192 in
theorem opsL1b_plain : (opsL1b : List (HloOp τ sig (Elt F))) = opsL1bp := rfl

/-- The stretch `opsL2` with the outlined functions' operations written over the buffers themselves. -/
abbrev opsL2p : List (HloOp τ sig (Elt F)) :=
  [ StableHlo.unary main_arg5 main_v57 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v57 main_v58 rfl shapeCasts_S1x128x128_S128x128,
    StableHlo.unary main_arg6 main_v59 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v59 main_v60 rfl shapeCasts_S1x128x128_S128x128,
    StableHlo.unary main_arg7 main_v61 ((extractStridedSlice S1x128 ![1, 0] · slices_S2x128_S1x128_1_0) : (⟨S2x128, .f32⟩ : BufTy).Contents (Elt F) → (⟨S1x128, .f32⟩ : BufTy).Contents (Elt F)),
    StableHlo.reshape main_v61 main_v62 rfl shapeCasts_S1x128_S128,
    StableHlo.nullary main_c_10 (constantI S_ 32 0#32),
    StableHlo.unary main_c_10 main_v63 (broadcastInDim S600000 ![] bcast_S_S600000 : (⟨S_, .i32⟩ : BufTy).Contents (Elt F) → (⟨S600000, .i32⟩ : BufTy).Contents (Elt F)),
    StableHlo.binary main_v1 main_v63 main_v64 (cmpi .slt : (⟨S600000, .i32⟩ : BufTy).Contents (Elt F) → (⟨S600000, .i32⟩ : BufTy).Contents (Elt F) → (⟨S600000, .i1⟩ : BufTy).Contents (Elt F)),
    StableHlo.nullary main_c_11 (constantI S_ 32 50000#32),
    StableHlo.unary main_c_11 main_v65 (broadcastInDim S600000 ![] bcast_S_S600000 : (⟨S_, .i32⟩ : BufTy).Contents (Elt F) → (⟨S600000, .i32⟩ : BufTy).Contents (Elt F)),
    StableHlo.binary main_v1 main_v65 main_v66 (addi : (⟨S600000, .i32⟩ : BufTy).Contents (Elt F) → (⟨S600000, .i32⟩ : BufTy).Contents (Elt F) → (⟨S600000, .i32⟩ : BufTy).Contents (Elt F)),
    StableHlo.ternary main_v64 main_v66 main_v1 main_v67 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v67 main_v68 (broadcastInDim S600000x1 ![0] bcast_S600000_S600000x1_0 : (⟨S600000, .i32⟩ : BufTy).Contents (Elt F) → (⟨S600000x1, .i32⟩ : BufTy).Contents (Elt F)),
    StableHlo.binary main_v56 main_v68 main_v69 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst_12 (constant S_ .f32 0x00000000#32),
    StableHlo.unary main_cst_12 main_v70 (broadcastInDim S50000x128 ![] bcast_S_S50000x128 : (⟨S_, .f32⟩ : BufTy).Contents (Elt F) → (⟨S50000x128, .f32⟩ : BufTy).Contents (Elt F)),
    StableHlo.unary main_v3 main_v71 (broadcastInDim S600000x1 ![0] bcast_S600000_S600000x1_0 : (⟨S600000, .i32⟩ : BufTy).Contents (Elt F) → (⟨S600000x1, .i32⟩ : BufTy).Contents (Elt F)),
    StableHlo.ternary main_v70 main_v71 main_v69 main_v72 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.unary main_v12 main_v73 (broadcastInDim S50000x128 ![0, 1] bcast_S50000x1_S50000x128_0_1 : (⟨S50000x1, .f32⟩ : BufTy).Contents (Elt F) → (⟨S50000x128, .f32⟩ : BufTy).Contents (Elt F)),
    StableHlo.binary main_v72 main_v73 main_v74 (mulf : (⟨S50000x128, .f32⟩ : BufTy).Contents (Elt F) → (⟨S50000x128, .f32⟩ : BufTy).Contents (Elt F) → (⟨S50000x128, .f32⟩ : BufTy).Contents (Elt F)),
    StableHlo.binary main_v74 main_v58 main_v75 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v56 main_v60 main_v76 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v75 main_v76 main_v77 (addf : (⟨S50000x128, .f32⟩ : BufTy).Contents (Elt F) → (⟨S50000x128, .f32⟩ : BufTy).Contents (Elt F) → (⟨S50000x128, .f32⟩ : BufTy).Contents (Elt F)),
    StableHlo.unary main_v62 main_v78 (broadcastInDim S1x128 ![1] bcast_S128_S1x128_1 : (⟨S128, .f32⟩ : BufTy).Contents (Elt F) → (⟨S1x128, .f32⟩ : BufTy).Contents (Elt F)),
    StableHlo.unary main_v78 main_v79 (broadcastInDim S50000x128 ![0, 1] bcast_S1x128_S50000x128_0_1 : (⟨S1x128, .f32⟩ : BufTy).Contents (Elt F) → (⟨S50000x128, .f32⟩ : BufTy).Contents (Elt F)),
    StableHlo.binary main_v77 main_v79 main_v80 (addf : (⟨S50000x128, .f32⟩ : BufTy).Contents (Elt F) → (⟨S50000x128, .f32⟩ : BufTy).Contents (Elt F) → (⟨S50000x128, .f32⟩ : BufTy).Contents (Elt F)),
    StableHlo.nullary main_cst_13 (constant S_ .f32 0x3DCCCCCD#32),
    StableHlo.nullary main_call2_cst (constant S_ .f32 0x00000000#32),
    StableHlo.unary main_call2_cst main_call2_v0 (broadcastInDim S50000x128 ![] bcast_S_S50000x128 : (⟨S_, .f32⟩ : BufTy).Contents (Elt F) → (⟨S50000x128, .f32⟩ : BufTy).Contents (Elt F)),
    StableHlo.binary main_v80 main_call2_v0 main_call2_v1 (cmpf .oge : (⟨S50000x128, .f32⟩ : BufTy).Contents (Elt F) → (⟨S50000x128, .f32⟩ : BufTy).Contents (Elt F) → (⟨S50000x128, .i1⟩ : BufTy).Contents (Elt F)),
    StableHlo.unary main_cst_13 main_call2_v2 (id : (⟨S_, .f32⟩ : BufTy).Contents (Elt F) → (⟨S_, .f32⟩ : BufTy).Contents (Elt F)),
    StableHlo.unary main_call2_v2 main_call2_v3 (broadcastInDim S50000x128 ![] bcast_S_S50000x128 : (⟨S_, .f32⟩ : BufTy).Contents (Elt F) → (⟨S50000x128, .f32⟩ : BufTy).Contents (Elt F)),
    StableHlo.binary main_call2_v3 main_v80 main_call2_v4 (mulf : (⟨S50000x128, .f32⟩ : BufTy).Contents (Elt F) → (⟨S50000x128, .f32⟩ : BufTy).Contents (Elt F) → (⟨S50000x128, .f32⟩ : BufTy).Contents (Elt F)),
    StableHlo.ternary main_call2_v1 main_v80 main_call2_v4 main_v81 (select : (⟨S50000x128, .i1⟩ : BufTy).Contents (Elt F) → (⟨S50000x128, .f32⟩ : BufTy).Contents (Elt F) → (⟨S50000x128, .f32⟩ : BufTy).Contents (Elt F) → (⟨S50000x128, .f32⟩ : BufTy).Contents (Elt F)) ]

set_option maxRecDepth 8192 in
theorem opsL2_plain : (opsL2 : List (HloOp τ sig (Elt F))) = opsL2p := rfl

/-- The stretch `opsL3` with the outlined functions' operations written over the buffers themselves. -/
abbrev opsL3p : List (HloOp τ sig (Elt F)) :=
  [ StableHlo.nullary main_c_14 (constantI S_ 32 0#32),
    StableHlo.unary main_c_14 main_v82 (broadcastInDim S600000 ![] bcast_S_S600000 : (⟨S_, .i32⟩ : BufTy).Contents (Elt F) → (⟨S600000, .i32⟩ : BufTy).Contents (Elt F)),
    StableHlo.binary main_v1 main_v82 main_v83 (cmpi .slt : (⟨S600000, .i32⟩ : BufTy).Contents (Elt F) → (⟨S600000, .i32⟩ : BufTy).Contents (Elt F) → (⟨S600000, .i1⟩ : BufTy).Contents (Elt F)),
    StableHlo.nullary main_c_15 (constantI S_ 32 50000#32),
    StableHlo.unary main_c_15 main_v84 (broadcastInDim S600000 ![] bcast_S_S600000 : (⟨S_, .i32⟩ : BufTy).Contents (Elt F) → (⟨S600000, .i32⟩ : BufTy).Contents (Elt F)),
    StableHlo.binary main_v1 main_v84 main_v85 (addi : (⟨S600000, .i32⟩ : BufTy).Contents (Elt F) → (⟨S600000, .i32⟩ : BufTy).Contents (Elt F) → (⟨S600000, .i32⟩ : BufTy).Contents (Elt F)),
    StableHlo.ternary main_v83 main_v85 main_v1 main_v86 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v86 main_v87 (broadcastInDim S600000x1 ![0] bcast_S600000_S600000x1_0 : (⟨S600000, .i32⟩ : BufTy).Contents (Elt F) → (⟨S600000x1, .i32⟩ : BufTy).Contents (Elt F)),
    StableHlo.binary main_v81 main_v87 main_v88 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst_16 (constant S_ .f32 0x00000000#32),
    StableHlo.unary main_cst_16 main_v89 (broadcastInDim S50000x128 ![] bcast_S_S50000x128 : (⟨S_, .f32⟩ : BufTy).Contents (Elt F) → (⟨S50000x128, .f32⟩ : BufTy).Contents (Elt F)),
    StableHlo.unary main_v3 main_v90 (broadcastInDim S600000x1 ![0] bcast_S600000_S600000x1_0 : (⟨S600000, .i32⟩ : BufTy).Contents (Elt F) → (⟨S600000x1, .i32⟩ : BufTy).Contents (Elt F)),
    StableHlo.ternary main_v89 main_v90 main_v88 main_v91 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.unary main_v12 main_v92 (broadcastInDim S50000x128 ![0, 1] bcast_S50000x1_S50000x128_0_1 : (⟨S50000x1, .f32⟩ : BufTy).Contents (Elt F) → (⟨S50000x128, .f32⟩ : BufTy).Contents (Elt F)),
    StableHlo.binary main_v91 main_v92 main_v93 (mulf : (⟨S50000x128, .f32⟩ : BufTy).Contents (Elt F) → (⟨S50000x128, .f32⟩ : BufTy).Contents (Elt F) → (⟨S50000x128, .f32⟩ : BufTy).Contents (Elt F)),
    StableHlo.binary main_v93 main_arg8 main_v94 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)),
    StableHlo.binary main_v81 main_arg9 main_v95 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)),
    StableHlo.binary main_v94 main_v95 main_v96 (addf : (⟨S50000x40, .f32⟩ : BufTy).Contents (Elt F) → (⟨S50000x40, .f32⟩ : BufTy).Contents (Elt F) → (⟨S50000x40, .f32⟩ : BufTy).Contents (Elt F)),
    StableHlo.unary main_arg10 main_v97 (broadcastInDim S1x40 ![1] bcast_S40_S1x40_1 : (⟨S40, .f32⟩ : BufTy).Contents (Elt F) → (⟨S1x40, .f32⟩ : BufTy).Contents (Elt F)),
    StableHlo.unary main_v97 main_v98 (broadcastInDim S50000x40 ![0, 1] bcast_S1x40_S50000x40_0_1 : (⟨S1x40, .f32⟩ : BufTy).Contents (Elt F) → (⟨S50000x40, .f32⟩ : BufTy).Contents (Elt F)),
    StableHlo.binary main_v96 main_v98 main_v99 (addf : (⟨S50000x40, .f32⟩ : BufTy).Contents (Elt F) → (⟨S50000x40, .f32⟩ : BufTy).Contents (Elt F) → (⟨S50000x40, .f32⟩ : BufTy).Contents (Elt F)),
    StableHlo.nullary main_call3_cst (constant S_ .f32 0xFF800000#32),
    StableHlo.binary main_v99 main_call3_cst main_call3_v0 ((fun x v => Host.reduce FloatOps.maximumf x v reducesTo_S50000x40_S50000_d1 h_S_) : (⟨S50000x40, .f32⟩ : BufTy).Contents (Elt F) → (⟨S_, .f32⟩ : BufTy).Contents (Elt F) → (⟨S50000, .f32⟩ : BufTy).Contents (Elt F)),
    StableHlo.nullary main_call3_cst_0 (constant S_ .f32 0xFF800000#32),
    StableHlo.unary main_call3_cst_0 main_call3_v1 (broadcastInDim S50000 ![] bcast_S_S50000 : (⟨S_, .f32⟩ : BufTy).Contents (Elt F) → (⟨S50000, .f32⟩ : BufTy).Contents (Elt F)),
    StableHlo.binary main_call3_v1 main_call3_v0 main_call3_v2 (maximumf : (⟨S50000, .f32⟩ : BufTy).Contents (Elt F) → (⟨S50000, .f32⟩ : BufTy).Contents (Elt F) → (⟨S50000, .f32⟩ : BufTy).Contents (Elt F)),
    StableHlo.unary main_call3_v2 main_call3_v3 (broadcastInDim S50000x1 ![0] bcast_S50000_S50000x1_0 : (⟨S50000, .f32⟩ : BufTy).Contents (Elt F) → (⟨S50000x1, .f32⟩ : BufTy).Contents (Elt F)),
    StableHlo.unary main_call3_v3 main_call3_v4 (broadcastInDim S50000x40 ![0, 1] bcast_S50000x1_S50000x40_0_1 : (⟨S50000x1, .f32⟩ : BufTy).Contents (Elt F) → (⟨S50000x40, .f32⟩ : BufTy).Contents (Elt F)),
    StableHlo.binary main_v99 main_call3_v4 main_call3_v5 (subf : (⟨S50000x40, .f32⟩ : BufTy).Contents (Elt F) → (⟨S50000x40, .f32⟩ : BufTy).Contents (Elt F) → (⟨S50000x40, .f32⟩ : BufTy).Contents (Elt F)),
    StableHlo.unary main_call3_v5 main_call3_v6 (Host.exp : (⟨S50000x40, .f32⟩ : BufTy).Contents (Elt F) → (⟨S50000x40, .f32⟩ : BufTy).Contents (Elt F)),
    StableHlo.nullary main_call3_cst_1 (constant S_ .f32 0x00000000#32),
    StableHlo.binary main_call3_v6 main_call3_cst_1 main_call3_v7 ((fun x v => Host.reduceAdd x v reducesTo_S50000x40_S50000_d1 h_S_) : (⟨S50000x40, .f32⟩ : BufTy).Contents (Elt F) → (⟨S_, .f32⟩ : BufTy).Contents (Elt F) → (⟨S50000, .f32⟩ : BufTy).Contents (Elt F)),
    StableHlo.unary main_call3_v7 main_call3_v8 (broadcastInDim S50000x1 ![0] bcast_S50000_S50000x1_0 : (⟨S50000, .f32⟩ : BufTy).Contents (Elt F) → (⟨S50000x1, .f32⟩ : BufTy).Contents (Elt F)),
    StableHlo.unary main_call3_v8 main_call3_v9 (Host.log : (⟨S50000x1, .f32⟩ : BufTy).Contents (Elt F) → (⟨S50000x1, .f32⟩ : BufTy).Contents (Elt F)),
    StableHlo.unary main_call3_v9 main_call3_v10 (broadcastInDim S50000x40 ![0, 1] bcast_S50000x1_S50000x40_0_1 : (⟨S50000x1, .f32⟩ : BufTy).Contents (Elt F) → (⟨S50000x40, .f32⟩ : BufTy).Contents (Elt F)),
    StableHlo.binary main_call3_v5 main_call3_v10 main_v100 (subf : (⟨S50000x40, .f32⟩ : BufTy).Contents (Elt F) → (⟨S50000x40, .f32⟩ : BufTy).Contents (Elt F) → (⟨S50000x40, .f32⟩ : BufTy).Contents (Elt F)) ]

set_option maxRecDepth 8192 in
theorem opsL3_plain : (opsL3 : List (HloOp τ sig (Elt F))) = opsL3p := rfl

end Plain

/-- The buffers every later stretch reads but none writes: the edge endpoints, the inverse in-degree, the arguments. -/
abbrev keepList : List (Ref sig .tc) := [main_v1, main_v3, main_v12, main_arg0, main_arg1, main_arg2, main_arg3, main_arg4, main_arg5, main_arg6, main_arg7, main_arg8, main_arg9, main_arg10]

/-! ## Each stretch's result, over any contents before it -/

section Values
variable (V : Valuation τ sig (Elt Ideal))

set_option maxRecDepth 8192 in
theorem A_v1 : after opsA V (main_v1 : DevRef τ sig) = src (V (main_arg1 : DevRef τ sig)) := by
  after_results_simp
  rfl

set_option maxRecDepth 8192 in
theorem A_v3 : after opsA V (main_v3 : DevRef τ sig) = dst (V (main_arg1 : DevRef τ sig)) := by
  after_results_simp
  rfl

set_option maxRecDepth 8192 in
theorem A_v12 : after opsA V (main_v12 : DevRef τ sig) = invCnt (V (main_arg1 : DevRef τ sig)) := by
  after_results_simp
  rfl

set_option maxRecDepth 8192 in
set_option maxHeartbeats 1000000 in
theorem L0_v31 : after opsL0 V (main_v31 : DevRef τ sig)
    = hiddenT (aggOf (V (main_v1 : DevRef τ sig)) (V (main_v3 : DevRef τ sig)) (V (main_v12 : DevRef τ sig)) (V (main_arg0 : DevRef τ sig))) (V (main_arg0 : DevRef τ sig))
        (V (main_arg2 : DevRef τ sig)) (V (main_arg3 : DevRef τ sig)) (V (main_arg4 : DevRef τ sig)) := by
  rw [opsL0_plain]
  after_results_simp
  unfold hiddenT rect affine aggOf wrap
  rfl

set_option maxRecDepth 8192 in
set_option maxHeartbeats 1000000 in
theorem L1_v56 : after opsL1b (after opsL1a V) (main_v56 : DevRef τ sig)
    = hiddenT (aggOf (V (main_v1 : DevRef τ sig)) (V (main_v3 : DevRef τ sig)) (V (main_v12 : DevRef τ sig)) (V (main_v31 : DevRef τ sig))) (V (main_v31 : DevRef τ sig))
        (wsl0 (V (main_arg5 : DevRef τ sig))) (wsl0 (V (main_arg6 : DevRef τ sig))) (bsl0 (V (main_arg7 : DevRef τ sig))) := by
  rw [opsL1b_plain]
  after_results_simp
  unfold hiddenT rect affine aggOf wrap wsl0 bsl0
  rfl

set_option maxRecDepth 8192 in
set_option maxHeartbeats 1000000 in
theorem L2_v81 : after opsL2 V (main_v81 : DevRef τ sig)
    = hiddenT (aggOf (V (main_v1 : DevRef τ sig)) (V (main_v3 : DevRef τ sig)) (V (main_v12 : DevRef τ sig)) (V (main_v56 : DevRef τ sig))) (V (main_v56 : DevRef τ sig))
        (wsl1 (V (main_arg5 : DevRef τ sig))) (wsl1 (V (main_arg6 : DevRef τ sig))) (bsl1 (V (main_arg7 : DevRef τ sig))) := by
  rw [opsL2_plain]
  after_results_simp
  unfold hiddenT rect affine aggOf wrap wsl1 bsl1
  rfl

set_option maxRecDepth 8192 in
set_option maxHeartbeats 1000000 in
theorem L3_v100 : after opsL3 V (main_v100 : DevRef τ sig)
    = logitsT (aggOf (V (main_v1 : DevRef τ sig)) (V (main_v3 : DevRef τ sig)) (V (main_v12 : DevRef τ sig)) (V (main_v81 : DevRef τ sig))) (V (main_v81 : DevRef τ sig))
        (V (main_arg8 : DevRef τ sig)) (V (main_arg9 : DevRef τ sig)) (V (main_arg10 : DevRef τ sig)) := by
  rw [opsL3_plain]
  after_results_simp
  unfold logitsT lsm lsmShift lsmMax affine40 aggOf wrap
  rfl

end Values

/-! ## What stays put

After the first stretch the edge endpoints and the inverse in-degree are functions of the edge array; no later
stretch writes them, nor an argument. -/

/-- The contents `W` hold the edge endpoints and the inverse in-degree of `V`'s edge array, and `V`'s arguments. -/
structure Inv (V W : Valuation τ sig (Elt Ideal)) : Prop where
  v1 : W (main_v1 : DevRef τ sig) = src (V (main_arg1 : DevRef τ sig))
  v3 : W (main_v3 : DevRef τ sig) = dst (V (main_arg1 : DevRef τ sig))
  v12 : W (main_v12 : DevRef τ sig) = invCnt (V (main_arg1 : DevRef τ sig))
  a0 : W (main_arg0 : DevRef τ sig) = V (main_arg0 : DevRef τ sig)
  a1 : W (main_arg1 : DevRef τ sig) = V (main_arg1 : DevRef τ sig)
  a2 : W (main_arg2 : DevRef τ sig) = V (main_arg2 : DevRef τ sig)
  a3 : W (main_arg3 : DevRef τ sig) = V (main_arg3 : DevRef τ sig)
  a4 : W (main_arg4 : DevRef τ sig) = V (main_arg4 : DevRef τ sig)
  a5 : W (main_arg5 : DevRef τ sig) = V (main_arg5 : DevRef τ sig)
  a6 : W (main_arg6 : DevRef τ sig) = V (main_arg6 : DevRef τ sig)
  a7 : W (main_arg7 : DevRef τ sig) = V (main_arg7 : DevRef τ sig)
  a8 : W (main_arg8 : DevRef τ sig) = V (main_arg8 : DevRef τ sig)
  a9 : W (main_arg9 : DevRef τ sig) = V (main_arg9 : DevRef τ sig)
  a10 : W (main_arg10 : DevRef τ sig) = V (main_arg10 : DevRef τ sig)

theorem inv_A (V : Valuation τ sig (Elt Ideal)) : Inv V (after opsA V) :=
  ⟨A_v1 V, A_v3 V, A_v12 V, keptOf opsA WA writesA V main_arg0 (by decide),
    keptOf opsA WA writesA V main_arg1 (by decide),
    keptOf opsA WA writesA V main_arg2 (by decide),
    keptOf opsA WA writesA V main_arg3 (by decide),
    keptOf opsA WA writesA V main_arg4 (by decide),
    keptOf opsA WA writesA V main_arg5 (by decide),
    keptOf opsA WA writesA V main_arg6 (by decide),
    keptOf opsA WA writesA V main_arg7 (by decide),
    keptOf opsA WA writesA V main_arg8 (by decide),
    keptOf opsA WA writesA V main_arg9 (by decide),
    keptOf opsA WA writesA V main_arg10 (by decide)⟩

/-- A stretch that writes none of the kept buffers keeps the invariant. -/
theorem Inv.step {V W : Valuation τ sig (Elt Ideal)} (i : Inv V W) (l : List (HloOp τ sig (Elt Ideal))) (Wl : List (Ref sig .tc))
    (hw : l.Forall fun op => op.writes ⊆ (Wl.map (Proc.devRef (τ := τ) .tc)).toFinset)
    (hd : ∀ r ∈ keepList, r ∉ Wl) : Inv V (after l W) :=
  ⟨(keptOf l Wl hw W main_v1 (hd main_v1 (by decide))).trans i.v1,
    (keptOf l Wl hw W main_v3 (hd main_v3 (by decide))).trans i.v3,
    (keptOf l Wl hw W main_v12 (hd main_v12 (by decide))).trans i.v12,
    (keptOf l Wl hw W main_arg0 (hd main_arg0 (by decide))).trans i.a0,
    (keptOf l Wl hw W main_arg1 (hd main_arg1 (by decide))).trans i.a1,
    (keptOf l Wl hw W main_arg2 (hd main_arg2 (by decide))).trans i.a2,
    (keptOf l Wl hw W main_arg3 (hd main_arg3 (by decide))).trans i.a3,
    (keptOf l Wl hw W main_arg4 (hd main_arg4 (by decide))).trans i.a4,
    (keptOf l Wl hw W main_arg5 (hd main_arg5 (by decide))).trans i.a5,
    (keptOf l Wl hw W main_arg6 (hd main_arg6 (by decide))).trans i.a6,
    (keptOf l Wl hw W main_arg7 (hd main_arg7 (by decide))).trans i.a7,
    (keptOf l Wl hw W main_arg8 (hd main_arg8 (by decide))).trans i.a8,
    (keptOf l Wl hw W main_arg9 (hd main_arg9 (by decide))).trans i.a9,
    (keptOf l Wl hw W main_arg10 (hd main_arg10 (by decide))).trans i.a10⟩

/-! ## Each stretch over the invariant -/

section Steps
variable {V W : Valuation τ sig (Elt Ideal)}

theorem aggOf_inv (i : Inv V W) (h : FVec Ideal S50000x128 .f32) :
    aggOf (W (main_v1 : DevRef τ sig)) (W (main_v3 : DevRef τ sig)) (W (main_v12 : DevRef τ sig)) h = agg (V (main_arg1 : DevRef τ sig)) h := by
  rw [i.v1, i.v3, i.v12]
  exact (agg_eq _ h).symm

theorem L0_out (i : Inv V W) : after opsL0 W (main_v31 : DevRef τ sig)
    = Cert.Sage.step (agg (V (main_arg1 : DevRef τ sig))) (V (main_arg0 : DevRef τ sig)) (V (main_arg2 : DevRef τ sig)) (V (main_arg3 : DevRef τ sig)) (V (main_arg4 : DevRef τ sig)) := by
  rw [L0_v31, aggOf_inv i, i.a0, i.a2, i.a3, i.a4, hiddenT_eq]
  rfl

theorem L1_out (i : Inv V W) {h : FVec Ideal S50000x128 .f32} (hh : W (main_v31 : DevRef τ sig) = h) :
    after opsL1b (after opsL1a W) (main_v56 : DevRef τ sig)
      = Cert.Sage.step (agg (V (main_arg1 : DevRef τ sig))) h (wsl0 (V (main_arg5 : DevRef τ sig))) (wsl0 (V (main_arg6 : DevRef τ sig))) (bsl0 (V (main_arg7 : DevRef τ sig))) := by
  rw [L1_v56, aggOf_inv i, hh, i.a5, i.a6, i.a7, hiddenT_eq]
  rfl

theorem L2_out (i : Inv V W) {h : FVec Ideal S50000x128 .f32} (hh : W (main_v56 : DevRef τ sig) = h) :
    after opsL2 W (main_v81 : DevRef τ sig)
      = Cert.Sage.step (agg (V (main_arg1 : DevRef τ sig))) h (wsl1 (V (main_arg5 : DevRef τ sig))) (wsl1 (V (main_arg6 : DevRef τ sig))) (bsl1 (V (main_arg7 : DevRef τ sig))) := by
  rw [L2_v81, aggOf_inv i, hh, i.a5, i.a6, i.a7, hiddenT_eq]
  rfl

theorem L3_out (i : Inv V W) {h : FVec Ideal S50000x128 .f32} (hh : W (main_v81 : DevRef τ sig) = h) :
    after opsL3 W (main_v100 : DevRef τ sig)
      = Cert.Sage.readout (agg (V (main_arg1 : DevRef τ sig))) h (V (main_arg8 : DevRef τ sig)) (V (main_arg9 : DevRef τ sig)) (V (main_arg10 : DevRef τ sig)) := by
  rw [L3_v100, aggOf_inv i, hh, i.a8, i.a9, i.a10, logitsT_eq]
  rfl

end Steps

/-! ## The whole fold -/

section Whole
variable (V : Valuation τ sig (Elt Ideal))

/-- The fold of all the operations is the fold of the stretches in turn. -/
theorem after_ops : after ops V
    = after opsL3 (after opsL2 (after opsL1b (after opsL1a (after opsL0 (after opsA V))))) := by
  simp only [ops, StableHlo.after_append]

/-- The result buffer after the run: the specification's network over the neighbourhood mean; and the kept buffers. -/
theorem fold_eq :
    after ops V (main_v100 : DevRef τ sig)
        = Cert.Sage.model (agg (V (main_arg1 : DevRef τ sig))) (V (main_arg0 : DevRef τ sig)) (V (main_arg2 : DevRef τ sig)) (V (main_arg3 : DevRef τ sig)) (V (main_arg4 : DevRef τ sig))
            (wsl0 (V (main_arg5 : DevRef τ sig))) (wsl0 (V (main_arg6 : DevRef τ sig))) (bsl0 (V (main_arg7 : DevRef τ sig)))
            (wsl1 (V (main_arg5 : DevRef τ sig))) (wsl1 (V (main_arg6 : DevRef τ sig))) (bsl1 (V (main_arg7 : DevRef τ sig)))
            (V (main_arg8 : DevRef τ sig)) (V (main_arg9 : DevRef τ sig)) (V (main_arg10 : DevRef τ sig))
      ∧ Inv V (after ops V) := by
  rw [after_ops]
  have i0 := inv_A V
  have h1 := L0_out i0
  have i1 := i0.step opsL0 WL0 writesL0 (by decide)
  have h2 := L1_out i1 h1
  have i2 := (i1.step opsL1a WL1a writesL1a (by decide)).step opsL1b WL1b writesL1b (by decide)
  have h3 := L2_out i2 h2
  have i3 := i2.step opsL2 WL2 writesL2 (by decide)
  have h4 := L3_out i3 h3
  have i4 := i3.step opsL3 WL3 writesL3 (by decide)
  exact ⟨h4, i4⟩

end Whole

/-! ## The run -/

/-- At the compiled mesh, at the extended reals, from any memory with zero counters: every weakly fair execution of
    the reference terminates with the result buffer at the specification's network — three hidden layers and the
    read-out over the neighbourhood mean along the edges — of the arguments' launch contents, and the eleven
    arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v100)
          = Cert.Sage.model (agg (m ((c.tc : Thread nD τ).loc main_arg1))) (m ((c.tc : Thread nD τ).loc main_arg0))
              (m ((c.tc : Thread nD τ).loc main_arg2)) (m ((c.tc : Thread nD τ).loc main_arg3)) (m ((c.tc : Thread nD τ).loc main_arg4))
              (wsl0 (m ((c.tc : Thread nD τ).loc main_arg5))) (wsl0 (m ((c.tc : Thread nD τ).loc main_arg6))) (bsl0 (m ((c.tc : Thread nD τ).loc main_arg7)))
              (wsl1 (m ((c.tc : Thread nD τ).loc main_arg5))) (wsl1 (m ((c.tc : Thread nD τ).loc main_arg6))) (bsl1 (m ((c.tc : Thread nD τ).loc main_arg7)))
              (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run (defs (F := Ideal)) _ _).mono (fun _ h c =>
    have f := fold_eq (launchContents m c)
    ⟨(h c main_v100).trans f.1,
     (h c main_arg0).trans f.2.a0,
     (h c main_arg1).trans f.2.a1,
     (h c main_arg2).trans f.2.a2,
     (h c main_arg3).trans f.2.a3,
     (h c main_arg4).trans f.2.a4,
     (h c main_arg5).trans f.2.a5,
     (h c main_arg6).trans f.2.a6,
     (h c main_arg7).trans f.2.a7,
     (h c main_arg8).trans f.2.a8,
     (h c main_arg9).trans f.2.a9,
     (h c main_arg10).trans f.2.a10⟩)
    (run_main m ρ)

end Cert.ReferenceIdeal.RefRun

end
-- ==== Proof.Bridge.lean ====
/-
  The two programs compute the neighbourhood aggregation, the edge rows and the weight slices by the same host
  operations on the same shapes, each in its own vocabulary of shape names and side conditions.  Term for term the
  compositions coincide, so each pair is equal by unfolding the names.
-/
import proofs.«152214_j24773371363384_1_alg».proof.Proof.KernelHost
import proofs.«152214_j24773371363384_1_alg».proof.Proof.RefRunHost

noncomputable section

namespace Cert.Proof.Bridge

open Idealize.ShloMosaic

/-- The mean aggregation over the edges is one function in both programs. -/
theorem agg_eq (e : Cert.KernelIdeal.KHost.EdgeT) (h : Cert.KernelIdeal.KHost.NodeT) :
    Cert.ReferenceIdeal.RefRun.agg e h = Cert.KernelIdeal.KHost.agg e h := rfl

/-- As functions of the node array. -/
theorem agg_fun_eq (e : Cert.KernelIdeal.KHost.EdgeT) :
    Cert.ReferenceIdeal.RefRun.agg e = Cert.KernelIdeal.KHost.agg e := funext fun h => agg_eq e h

theorem wsl0_eq (w : Cert.KernelIdeal.KHost.W3T) : Cert.ReferenceIdeal.RefRun.wsl0 w = Cert.KernelIdeal.KHost.wsl0 w := rfl
theorem wsl1_eq (w : Cert.KernelIdeal.KHost.W3T) : Cert.ReferenceIdeal.RefRun.wsl1 w = Cert.KernelIdeal.KHost.wsl1 w := rfl
theorem bsl0_eq (b : Cert.KernelIdeal.KHost.B2T) : Cert.ReferenceIdeal.RefRun.bsl0 b = Cert.KernelIdeal.KHost.bsl0 b := rfl
theorem bsl1_eq (b : Cert.KernelIdeal.KHost.B2T) : Cert.ReferenceIdeal.RefRun.bsl1 b = Cert.KernelIdeal.KHost.bsl1 b := rfl

end Cert.Proof.Bridge

end
-- ==== Proof.lean ====
/-
  Equivalence over the extended reals of a four-layer mean-aggregating graph network computed by four pipelined
  matrix kernels among host gathers and scatters, against the same network written with whole-array operations.
  Both programs aggregate a node array over the edges by the same host operations; each hidden layer is
  `leaky (agg·Wl + h·Wr + b)` and the read-out the row-wise log-softmax of the same affine form.  The kernel side
  is read region by region (each region's output array is the layer's function of the arrays it is entered with,
  block by block over ten blocks of five thousand rows); the reference side is its host operations composed.  The
  two meet at one function of the argument arrays: a matrix product into a zero accumulator and a general dot are
  the same sums, a change of float format is the identity, and testing `0 < y` or `0 ≤ y` before scaling gives the
  same rectifier because the slope times zero is zero.  No use is made of the inputs' finiteness: the two sides are
  the same sums and products in the same order.
-/
import proofs.«152214_j24773371363384_1_alg».proof.Defs
import proofs.«152214_j24773371363384_1_alg».proof.Proof.Gen.Kernel
import proofs.«152214_j24773371363384_1_alg».proof.Proof.Gen.Kernel.Skeleton
import proofs.«152214_j24773371363384_1_alg».proof.Proof.Gen.Kernel.Launch
import proofs.«152214_j24773371363384_1_alg».proof.Proof.Gen.Kernel.Points
import proofs.«152214_j24773371363384_1_alg».proof.Proof.Gen.Kernel.Frame
import proofs.«152214_j24773371363384_1_alg».proof.Proof.Gen.KernelIdeal
import proofs.«152214_j24773371363384_1_alg».proof.Proof.Gen.KernelIdeal.Skeleton
import proofs.«152214_j24773371363384_1_alg».proof.Proof.Gen.KernelIdeal.Launch
import proofs.«152214_j24773371363384_1_alg».proof.Proof.Gen.KernelIdeal.Points
import proofs.«152214_j24773371363384_1_alg».proof.Proof.Gen.KernelIdeal.Frame
import proofs.«152214_j24773371363384_1_alg».proof.Proof.Gen.ReferenceIdeal
import proofs.«152214_j24773371363384_1_alg».proof.Proof.Gen.Pre_finite_inputs
import proofs.«152214_j24773371363384_1_alg».proof.Proof.KernelRun
import proofs.«152214_j24773371363384_1_alg».proof.Proof.KernelStages
import proofs.«152214_j24773371363384_1_alg».proof.Proof.RegionValueArr0
import proofs.«152214_j24773371363384_1_alg».proof.Proof.RegionValueArr1
import proofs.«152214_j24773371363384_1_alg».proof.Proof.RegionValueArr2
import proofs.«152214_j24773371363384_1_alg».proof.Proof.RegionValueArr3
import proofs.«152214_j24773371363384_1_alg».proof.Proof.RefRunAsm
import proofs.«152214_j24773371363384_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The idealized reference runs and leaves its arguments as launched: its run with the result dropped. -/
theorem frame_ri : Cert.frame_ReferenceIdeal := fun m ρ _ =>
  (θ_run (Cert.ReferenceIdeal.defs (F := Ideal)) _ _).mono (fun _ h c => (h c).2) (Cert.ReferenceIdeal.RefRun.run m ρ)

/-- The idealization rewrote no operation. -/
theorem preserves : Cert.preserves_Kernel_KernelIdeal := trivial

/-- Run from memories that agree on the arguments, both idealized programs end with the specification's network of
    the argument arrays in their result buffers. -/
theorem algebraic : Cert.algebraic_KernelIdeal_ReferenceIdeal := by
  intro m ρ m' ρ' _ hagree
  refine ⟨fun c => Cert.Sage.model (Cert.KernelIdeal.KHost.agg (m ((c.tc : Thread Cert.KernelIdeal.nD Cert.KernelIdeal.τ).loc Cert.KernelIdeal.main_arg1))) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (Cert.KernelIdeal.KHost.wsl0 (m ((c.tc : Thread Cert.KernelIdeal.nD Cert.KernelIdeal.τ).loc Cert.KernelIdeal.main_arg5))) (Cert.KernelIdeal.KHost.wsl0 (m ((c.tc : Thread Cert.KernelIdeal.nD Cert.KernelIdeal.τ).loc Cert.KernelIdeal.main_arg6))) (Cert.KernelIdeal.KHost.bsl0 (m ((c.tc : Thread Cert.KernelIdeal.nD Cert.KernelIdeal.τ).loc Cert.KernelIdeal.main_arg7)))
      (Cert.KernelIdeal.KHost.wsl1 (m ((c.tc : Thread Cert.KernelIdeal.nD Cert.KernelIdeal.τ).loc Cert.KernelIdeal.main_arg5))) (Cert.KernelIdeal.KHost.wsl1 (m ((c.tc : Thread Cert.KernelIdeal.nD Cert.KernelIdeal.τ).loc Cert.KernelIdeal.main_arg6))) (Cert.KernelIdeal.KHost.bsl1 (m ((c.tc : Thread Cert.KernelIdeal.nD Cert.KernelIdeal.τ).loc Cert.KernelIdeal.main_arg7)))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run (Cert.KernelIdeal.defs (F := Ideal)) _ _).mono
      (fun _ h c => ⟨(h c).1.trans (Cert.KernelIdeal.KStage.result m ρ c (fun V c => Cert.KernelIdeal.RegionValue.final0 V c) (fun V c => Cert.KernelIdeal.RegionValue.final1 V c)
        (fun V c => Cert.KernelIdeal.RegionValue.final2 V c) (fun V c => Cert.KernelIdeal.RegionValue.final3 V c)), (h c).2⟩)
      (Cert.KernelIdeal.KRun.run_result (F := Ideal) m ρ)
  · refine (θ_run (Cert.ReferenceIdeal.defs (F := Ideal)) _ _).mono (fun _ h c => ⟨(h c).1.trans ?_, (h c).2⟩)
      (Cert.ReferenceIdeal.RefRun.run m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
    simp only [Cert.Proof.Bridge.agg_fun_eq, Cert.Proof.Bridge.wsl0_eq, Cert.Proof.Bridge.wsl1_eq,
      Cert.Proof.Bridge.bsl0_eq, Cert.Proof.Bridge.bsl1_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
